-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x300 : Shape := ⟨2, ![16384, 300]⟩
abbrev S16384x50 : Shape := ⟨2, ![16384, 50]⟩
abbrev S16384x512 : Shape := ⟨2, ![16384, 512]⟩
abbrev S5x512x300 : Shape := ⟨3, ![5, 512, 300]⟩
abbrev S5x512 : Shape := ⟨2, ![5, 512]⟩
abbrev S5x512x50 : Shape := ⟨3, ![5, 512, 50]⟩
abbrev S5x512x512 : Shape := ⟨3, ![5, 512, 512]⟩
abbrev S_ : Shape := ⟨0, ![]⟩

class Facts : Prop where
  bcast_S_S16384x300 : S_.BroadcastsInDim S16384x300 (![] : Fin 0 → Fin S16384x300.rank)
  reducesTo_S16384x300_S_d0_1 : S16384x300.ReducesTo [0, 1] S_
  h_S_ : 0 < S_.numel
  bcast_S_S16384x50 : S_.BroadcastsInDim S16384x50 (![] : Fin 0 → Fin S16384x50.rank)
  reducesTo_S16384x50_S_d0_1 : S16384x50.ReducesTo [0, 1] S_
  bcast_S_S16384x512 : S_.BroadcastsInDim S16384x512 (![] : Fin 0 → Fin S16384x512.rank)
  reducesTo_S16384x512_S_d0_1 : S16384x512.ReducesTo [0, 1] S_
  bcast_S_S5x512x300 : S_.BroadcastsInDim S5x512x300 (![] : Fin 0 → Fin S5x512x300.rank)
  reducesTo_S5x512x300_S_d0_1_2 : S5x512x300.ReducesTo [0, 1, 2] S_
  bcast_S_S5x512 : S_.BroadcastsInDim S5x512 (![] : Fin 0 → Fin S5x512.rank)
  reducesTo_S5x512_S_d0_1 : S5x512.ReducesTo [0, 1] S_
  bcast_S_S5x512x50 : S_.BroadcastsInDim S5x512x50 (![] : Fin 0 → Fin S5x512x50.rank)
  reducesTo_S5x512x50_S_d0_1_2 : S5x512x50.ReducesTo [0, 1, 2] S_
  bcast_S_S5x512x512 : S_.BroadcastsInDim S5x512x512 (![] : Fin 0 → Fin S5x512x512.rank)
  reducesTo_S5x512x512_S_d0_1_2 : S5x512x512.ReducesTo [0, 1, 2] S_

variable [Facts]

def fn_part6 {F : FTy → Type} [FloatOps F] (main_v98 : IVec S_ 1) (main_v101 : IVec S5x512 1) (main_c_39 : IVec S_ 1) : IVec S_ 1 :=
  let main_v102 : IVec S_ 1 := (fun x v => Host.reduce IntOp.andi x v reducesTo_S5x512_S_d0_1 h_S_) main_v101 main_c_39
  let main_v103 : IVec S_ 1 := andi main_v98 main_v102
  main_v103

def fn_part5 {F : FTy → Type} [FloatOps F] (main_arg18 : FVec F S5x512 .f32) (main_arg19 : FVec F S5x512x512 .f32) (main_arg20 : FVec F S5x512 .f32) (main_v83 : IVec S_ 1) (main_v84 : FVec F S5x512x512 .f32) (main_cst_32 : FVec F S_ .f32) : IVec S_ 1 :=
  let main_v85 : FVec F S5x512x512 .f32 := broadcastInDim S5x512x512 ![] bcast_S_S5x512x512 main_cst_32
  let main_v86 : IVec S5x512x512 1 := cmpf .olt main_v84 main_v85
  let main_c_33 : IVec S_ 1 := constantI S_ 1 1#1
  let main_v87 : IVec S_ 1 := (fun x v => Host.reduce IntOp.andi x v reducesTo_S5x512x512_S_d0_1_2 h_S_) main_v86 main_c_33
  let main_v88 : IVec S_ 1 := andi main_v83 main_v87
  let main_v89 : FVec F S5x512 .f32 := Host.absf main_arg18
  let main_cst_34 : FVec F S_ .f32 := constant S_ .f32 0x7F800000#32
  let main_v90 : FVec F S5x512 .f32 := broadcastInDim S5x512 ![] bcast_S_S5x512 main_cst_34
  let main_v91 : IVec S5x512 1 := cmpf .olt main_v89 main_v90
  let main_c_35 : IVec S_ 1 := constantI S_ 1 1#1
  let main_v92 : IVec S_ 1 := (fun x v => Host.reduce IntOp.andi x v reducesTo_S5x512_S_d0_1 h_S_) main_v91 main_c_35
  let main_v93 : IVec S_ 1 := andi main_v88 main_v92
  let main_v94 : FVec F S5x512x512 .f32 := Host.absf main_arg19
  let main_cst_36 : FVec F S_ .f32 := constant S_ .f32 0x7F800000#32
  let main_v95 : FVec F S5x512x512 .f32 := broadcastInDim S5x512x512 ![] bcast_S_S5x512x512 main_cst_36
  let main_v96 : IVec S5x512x512 1 := cmpf .olt main_v94 main_v95
  let main_c_37 : IVec S_ 1 := constantI S_ 1 1#1
  let main_v97 : IVec S_ 1 := (fun x v => Host.reduce IntOp.andi x v reducesTo_S5x512x512_S_d0_1_2 h_S_) main_v96 main_c_37
  let main_v98 : IVec S_ 1 := andi main_v93 main_v97
  let main_v99 : FVec F S5x512 .f32 := Host.absf main_arg20
  let main_cst_38 : FVec F S_ .f32 := constant S_ .f32 0x7F800000#32
  let main_v100 : FVec F S5x512 .f32 := broadcastInDim S5x512 ![] bcast_S_S5x512 main_cst_38
  let main_v101 : IVec S5x512 1 := cmpf .olt main_v99 main_v100
  let main_c_39 : IVec S_ 1 := constantI S_ 1 1#1
  fn_part6 (F := F) main_v98 main_v101 main_c_39

def fn_part4 {F : FTy → Type} [FloatOps F] (main_arg14 : FVec F S5x512 .f32) (main_arg15 : FVec F S5x512x512 .f32) (main_arg16 : FVec F S5x512 .f32) (main_arg17 : FVec F S5x512x512 .f32) (main_arg18 : FVec F S5x512 .f32) (main_arg19 : FVec F S5x512x512 .f32) (main_arg20 : FVec F S5x512 .f32) (main_v63 : IVec S_ 1) (main_v67 : IVec S_ 1) : IVec S_ 1 :=
  let main_v68 : IVec S_ 1 := andi main_v63 main_v67
  let main_v69 : FVec F S5x512 .f32 := Host.absf main_arg14
  let main_cst_26 : FVec F S_ .f32 := constant S_ .f32 0x7F800000#32
  let main_v70 : FVec F S5x512 .f32 := broadcastInDim S5x512 ![] bcast_S_S5x512 main_cst_26
  let main_v71 : IVec S5x512 1 := cmpf .olt main_v69 main_v70
  let main_c_27 : IVec S_ 1 := constantI S_ 1 1#1
  let main_v72 : IVec S_ 1 := (fun x v => Host.reduce IntOp.andi x v reducesTo_S5x512_S_d0_1 h_S_) main_v71 main_c_27
  let main_v73 : IVec S_ 1 := andi main_v68 main_v72
  let main_v74 : FVec F S5x512x512 .f32 := Host.absf main_arg15
  let main_cst_28 : FVec F S_ .f32 := constant S_ .f32 0x7F800000#32
  let main_v75 : FVec F S5x512x512 .f32 := broadcastInDim S5x512x512 ![] bcast_S_S5x512x512 main_cst_28
  let main_v76 : IVec S5x512x512 1 := cmpf .olt main_v74 main_v75
  let main_c_29 : IVec S_ 1 := constantI S_ 1 1#1
  let main_v77 : IVec S_ 1 := (fun x v => Host.reduce IntOp.andi x v reducesTo_S5x512x512_S_d0_1_2 h_S_) main_v76 main_c_29
  let main_v78 : IVec S_ 1 := andi main_v73 main_v77
  let main_v79 : FVec F S5x512 .f32 := Host.absf main_arg16
  let main_cst_30 : FVec F S_ .f32 := constant S_ .f32 0x7F800000#32
  let main_v80 : FVec F S5x512 .f32 := broadcastInDim S5x512 ![] bcast_S_S5x512 main_cst_30
  let main_v81 : IVec S5x512 1 := cmpf .olt main_v79 main_v80
  let main_c_31 : IVec S_ 1 := constantI S_ 1 1#1
  let main_v82 : IVec S_ 1 := (fun x v => Host.reduce IntOp.andi x v reducesTo_S5x512_S_d0_1 h_S_) main_v81 main_c_31
  let main_v83 : IVec S_ 1 := andi main_v78 main_v82
  let main_v84 : FVec F S5x512x512 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S5x512x50 .f32) (main_arg12 : FVec F S5x512 .f32) (main_arg13 : FVec F S5x512x512 .f32) (main_arg14 : FVec F S5x512 .f32) (main_arg15 : FVec F S5x512x512 .f32) (main_arg16 : FVec F S5x512 .f32) (main_arg17 : FVec F S5x512x512 .f32) (main_arg18 : FVec F S5x512 .f32) (main_arg19 : FVec F S5x512x512 .f32) (main_arg20 : FVec F S5x512 .f32) (main_v48 : IVec S_ 1) (main_v49 : FVec F S5x512 .f32) (main_v50 : FVec F S5x512 .f32) : IVec S_ 1 :=
  let main_v51 : IVec S5x512 1 := cmpf .olt main_v49 main_v50
  let main_c_19 : IVec S_ 1 := constantI S_ 1 1#1
  let main_v52 : IVec S_ 1 := (fun x v => Host.reduce IntOp.andi x v reducesTo_S5x512_S_d0_1 h_S_) main_v51 main_c_19
  let main_v53 : IVec S_ 1 := andi main_v48 main_v52
  let main_v54 : FVec F S5x512x50 .f32 := Host.absf main_arg11
  let main_cst_20 : FVec F S_ .f32 := constant S_ .f32 0x7F800000#32
  let main_v55 : FVec F S5x512x50 .f32 := broadcastInDim S5x512x50 ![] bcast_S_S5x512x50 main_cst_20
  let main_v56 : IVec S5x512x50 1 := cmpf .olt main_v54 main_v55
  let main_c_21 : IVec S_ 1 := constantI S_ 1 1#1
  let main_v57 : IVec S_ 1 := (fun x v => Host.reduce IntOp.andi x v reducesTo_S5x512x50_S_d0_1_2 h_S_) main_v56 main_c_21
  let main_v58 : IVec S_ 1 := andi main_v53 main_v57
  let main_v59 : FVec F S5x512 .f32 := Host.absf main_arg12
  let main_cst_22 : FVec F S_ .f32 := constant S_ .f32 0x7F800000#32
  let main_v60 : FVec F S5x512 .f32 := broadcastInDim S5x512 ![] bcast_S_S5x512 main_cst_22
  let main_v61 : IVec S5x512 1 := cmpf .olt main_v59 main_v60
  let main_c_23 : IVec S_ 1 := constantI S_ 1 1#1
  let main_v62 : IVec S_ 1 := (fun x v => Host.reduce IntOp.andi x v reducesTo_S5x512_S_d0_1 h_S_) main_v61 main_c_23
  let main_v63 : IVec S_ 1 := andi main_v58 main_v62
  let main_v64 : FVec F S5x512x512 .f32 := Host.absf main_arg13
  let main_cst_24 : FVec F S_ .f32 := constant S_ .f32 0x7F800000#32
  let main_v65 : FVec F S5x512x512 .f32 := broadcastInDim S5x512x512 ![] bcast_S_S5x512x512 main_cst_24
  let main_v66 : IVec S5x512x512 1 := cmpf .olt main_v64 main_v65
  let main_c_25 : IVec S_ 1 := constantI S_ 1 1#1
  let main_v67 : IVec S_ 1 := (fun x v => Host.reduce IntOp.andi x v reducesTo_S5x512x512_S_d0_1_2 h_S_) main_v66 main_c_25
  fn_part4 (F := F) main_arg14 main_arg15 main_arg16 main_arg17 main_arg18 main_arg19 main_arg20 main_v63 main_v67

def fn_part2 {F : FTy → Type} [FloatOps F] (main_arg7 : FVec F S5x512x300 .f32) (main_arg8 : FVec F S5x512 .f32) (main_arg9 : FVec F S5x512x50 .f32) (main_arg10 : FVec F S5x512 .f32) (main_arg11 : FVec F S5x512x50 .f32) (main_arg12 : FVec F S5x512 .f32) (main_arg13 : FVec F S5x512x512 .f32) (main_arg14 : FVec F S5x512 .f32) (main_arg15 : FVec F S5x512x512 .f32) (main_arg16 : FVec F S5x512 .f32) (main_arg17 : FVec F S5x512x512 .f32) (main_arg18 : FVec F S5x512 .f32) (main_arg19 : FVec F S5x512x512 .f32) (main_arg20 : FVec F S5x512 .f32) (main_v33 : IVec S_ 1) : IVec S_ 1 :=
  let main_v34 : FVec F S5x512x300 .f32 := Host.absf main_arg7
  let main_cst_12 : FVec F S_ .f32 := constant S_ .f32 0x7F800000#32
  let main_v35 : FVec F S5x512x300 .f32 := broadcastInDim S5x512x300 ![] bcast_S_S5x512x300 main_cst_12
  let main_v36 : IVec S5x512x300 1 := cmpf .olt main_v34 main_v35
  let main_c_13 : IVec S_ 1 := constantI S_ 1 1#1
  let main_v37 : IVec S_ 1 := (fun x v => Host.reduce IntOp.andi x v reducesTo_S5x512x300_S_d0_1_2 h_S_) main_v36 main_c_13
  let main_v38 : IVec S_ 1 := andi main_v33 main_v37
  let main_v39 : FVec F S5x512 .f32 := Host.absf main_arg8
  let main_cst_14 : FVec F S_ .f32 := constant S_ .f32 0x7F800000#32
  let main_v40 : FVec F S5x512 .f32 := broadcastInDim S5x512 ![] bcast_S_S5x512 main_cst_14
  let main_v41 : IVec S5x512 1 := cmpf .olt main_v39 main_v40
  let main_c_15 : IVec S_ 1 := constantI S_ 1 1#1
  let main_v42 : IVec S_ 1 := (fun x v => Host.reduce IntOp.andi x v reducesTo_S5x512_S_d0_1 h_S_) main_v41 main_c_15
  let main_v43 : IVec S_ 1 := andi main_v38 main_v42
  let main_v44 : FVec F S5x512x50 .f32 := Host.absf main_arg9
  let main_cst_16 : FVec F S_ .f32 := constant S_ .f32 0x7F800000#32
  let main_v45 : FVec F S5x512x50 .f32 := broadcastInDim S5x512x50 ![] bcast_S_S5x512x50 main_cst_16
  let main_v46 : IVec S5x512x50 1 := cmpf .olt main_v44 main_v45
  let main_c_17 : IVec S_ 1 := constantI S_ 1 1#1
  let main_v47 : IVec S_ 1 := (fun x v => Host.reduce IntOp.andi x v reducesTo_S5x512x50_S_d0_1_2 h_S_) main_v46 main_c_17
  let main_v48 : IVec S_ 1 := andi main_v43 main_v47
  let main_v49 : FVec F S5x512 .f32 := Host.absf main_arg10
  let main_cst_18 : FVec F S_ .f32 := constant S_ .f32 0x7F800000#32
  let main_v50 : FVec F S5x512 .f32 := broadcastInDim S5x512 ![] bcast_S_S5x512 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S16384x512 .f32) (main_arg5 : FVec F S16384x512 .f32) (main_arg6 : FVec F S16384x512 .f32) (main_arg7 : FVec F S5x512x300 .f32) (main_arg8 : FVec F S5x512 .f32) (main_arg9 : FVec F S5x512x50 .f32) (main_arg10 : FVec F S5x512 .f32) (main_arg11 : FVec F S5x512x50 .f32) (main_arg12 : FVec F S5x512 .f32) (main_arg13 : FVec F S5x512x512 .f32) (main_arg14 : FVec F S5x512 .f32) (main_arg15 : FVec F S5x512x512 .f32) (main_arg16 : FVec F S5x512 .f32) (main_arg17 : FVec F S5x512x512 .f32) (main_arg18 : FVec F S5x512 .f32) (main_arg19 : FVec F S5x512x512 .f32) (main_arg20 : FVec F S5x512 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S16384x512 .f32 := Host.absf main_arg4
  let main_cst_6 : FVec F S_ .f32 := constant S_ .f32 0x7F800000#32
  let main_v20 : FVec F S16384x512 .f32 := broadcastInDim S16384x512 ![] bcast_S_S16384x512 main_cst_6
  let main_v21 : IVec S16384x512 1 := cmpf .olt main_v19 main_v20
  let main_c_7 : IVec S_ 1 := constantI S_ 1 1#1
  let main_v22 : IVec S_ 1 := (fun x v => Host.reduce IntOp.andi x v reducesTo_S16384x512_S_d0_1 h_S_) main_v21 main_c_7
  let main_v23 : IVec S_ 1 := andi main_v18 main_v22
  let main_v24 : FVec F S16384x512 .f32 := Host.absf main_arg5
  let main_cst_8 : FVec F S_ .f32 := constant S_ .f32 0x7F800000#32
  let main_v25 : FVec F S16384x512 .f32 := broadcastInDim S16384x512 ![] bcast_S_S16384x512 main_cst_8
  let main_v26 : IVec S16384x512 1 := cmpf .olt main_v24 main_v25
  let main_c_9 : IVec S_ 1 := constantI S_ 1 1#1
  let main_v27 : IVec S_ 1 := (fun x v => Host.reduce IntOp.andi x v reducesTo_S16384x512_S_d0_1 h_S_) main_v26 main_c_9
  let main_v28 : IVec S_ 1 := andi main_v23 main_v27
  let main_v29 : FVec F S16384x512 .f32 := Host.absf main_arg6
  let main_cst_10 : FVec F S_ .f32 := constant S_ .f32 0x7F800000#32
  let main_v30 : FVec F S16384x512 .f32 := broadcastInDim S16384x512 ![] bcast_S_S16384x512 main_cst_10
  let main_v31 : IVec S16384x512 1 := cmpf .olt main_v29 main_v30
  let main_c_11 : IVec S_ 1 := constantI S_ 1 1#1
  let main_v32 : IVec S_ 1 := (fun x v => Host.reduce IntOp.andi x v reducesTo_S16384x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S16384x300 .f32) (main_arg1 : FVec F S16384x50 .f32) (main_arg2 : FVec F S16384x50 .f32) (main_arg3 : FVec F S16384x512 .f32) (main_arg4 : FVec F S16384x512 .f32) (main_arg5 : FVec F S16384x512 .f32) (main_arg6 : FVec F S16384x512 .f32) (main_arg7 : FVec F S5x512x300 .f32) (main_arg8 : FVec F S5x512 .f32) (main_arg9 : FVec F S5x512x50 .f32) (main_arg10 : FVec F S5x512 .f32) (main_arg11 : FVec F S5x512x50 .f32) (main_arg12 : FVec F S5x512 .f32) (main_arg13 : FVec F S5x512x512 .f32) (main_arg14 : FVec F S5x512 .f32) (main_arg15 : FVec F S5x512x512 .f32) (main_arg16 : FVec F S5x512 .f32) (main_arg17 : FVec F S5x512x512 .f32) (main_arg18 : FVec F S5x512 .f32) (main_arg19 : FVec F S5x512x512 .f32) (main_arg20 : FVec F S5x512 .f32) : IVec S_ 1 :=
  let main_v0 : FVec F S16384x300 .f32 := Host.absf main_arg0
  let main_cst : FVec F S_ .f32 := constant S_ .f32 0x7F800000#32
  let main_v1 : FVec F S16384x300 .f32 := broadcastInDim S16384x300 ![] bcast_S_S16384x300 main_cst
  let main_v2 : IVec S16384x300 1 := cmpf .olt main_v0 main_v1
  let main_c : IVec S_ 1 := constantI S_ 1 1#1
  let main_v3 : IVec S_ 1 := (fun x v => Host.reduce IntOp.andi x v reducesTo_S16384x300_S_d0_1 h_S_) main_v2 main_c
  let main_v4 : FVec F S16384x50 .f32 := Host.absf main_arg1
  let main_cst_0 : FVec F S_ .f32 := constant S_ .f32 0x7F800000#32
  let main_v5 : FVec F S16384x50 .f32 := broadcastInDim S16384x50 ![] bcast_S_S16384x50 main_cst_0
  let main_v6 : IVec S16384x50 1 := cmpf .olt main_v4 main_v5
  let main_c_1 : IVec S_ 1 := constantI S_ 1 1#1
  let main_v7 : IVec S_ 1 := (fun x v => Host.reduce IntOp.andi x v reducesTo_S16384x50_S_d0_1 h_S_) main_v6 main_c_1
  let main_v8 : IVec S_ 1 := andi main_v3 main_v7
  let main_v9 : FVec F S16384x50 .f32 := Host.absf main_arg2
  let main_cst_2 : FVec F S_ .f32 := constant S_ .f32 0x7F800000#32
  let main_v10 : FVec F S16384x50 .f32 := broadcastInDim S16384x50 ![] bcast_S_S16384x50 main_cst_2
  let main_v11 : IVec S16384x50 1 := cmpf .olt main_v9 main_v10
  let main_c_3 : IVec S_ 1 := constantI S_ 1 1#1
  let main_v12 : IVec S_ 1 := (fun x v => Host.reduce IntOp.andi x v reducesTo_S16384x50_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S16384x300 : Shape := ⟨2, ![16384, 300]⟩
abbrev S16384x50 : Shape := ⟨2, ![16384, 50]⟩
abbrev S16384x512 : Shape := ⟨2, ![16384, 512]⟩
abbrev S5x512x300 : Shape := ⟨3, ![5, 512, 300]⟩
abbrev S5x512 : Shape := ⟨2, ![5, 512]⟩
abbrev S5x512x50 : Shape := ⟨3, ![5, 512, 50]⟩
abbrev S5x512x512 : Shape := ⟨3, ![5, 512, 512]⟩
abbrev S5x300x512 : Shape := ⟨3, ![5, 300, 512]⟩
abbrev S5x50x512 : Shape := ⟨3, ![5, 50, 512]⟩
abbrev S5x400x512 : Shape := ⟨3, ![5, 400, 512]⟩
abbrev S5x1024x512 : Shape := ⟨3, ![5, 1024, 512]⟩
abbrev S16384x400 : Shape := ⟨2, ![16384, 400]⟩
abbrev S16384x1024 : Shape := ⟨2, ![16384, 1024]⟩
abbrev S512x400 : Shape := ⟨2, ![512, 400]⟩
abbrev S512x1024 : Shape := ⟨2, ![512, 1024]⟩
abbrev S512x512 : Shape := ⟨2, ![512, 512]⟩
abbrev S1x400x512 : Shape := ⟨3, ![1, 400, 512]⟩
abbrev S400x512 : Shape := ⟨2, ![400, 512]⟩
abbrev S1x512 : Shape := ⟨2, ![1, 512]⟩
abbrev S512 : Shape := ⟨1, ![512]⟩
abbrev S1x512x512 : Shape := ⟨3, ![1, 512, 512]⟩
abbrev S1x1024x512 : Shape := ⟨3, ![1, 1024, 512]⟩
abbrev S1024x512 : Shape := ⟨2, ![1024, 512]⟩

abbrev nBuf : Space → Nat
  | .hbm => 44
  | .vmem => 20
  | .smem => 0
  | _ => 0

abbrev bufTy : (tb : Table) → Fin (tcTables nBuf tb) → BufTy
  | .hbm, ⟨0, _⟩ => ⟨S16384x300, .f32⟩
  | .hbm, ⟨1, _⟩ => ⟨S16384x50, .f32⟩
  | .hbm, ⟨2, _⟩ => ⟨S16384x50, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S5x512x300, .f32⟩
  | .hbm, ⟨8, _⟩ => ⟨S5x512, .f32⟩
  | .hbm, ⟨9, _⟩ => ⟨S5x512x50, .f32⟩
  | .hbm, ⟨10, _⟩ => ⟨S5x512, .f32⟩
  | .hbm, ⟨11, _⟩ => ⟨S5x512x50, .f32⟩
  | .hbm, ⟨12, _⟩ => ⟨S5x512, .f32⟩
  | .hbm, ⟨13, _⟩ => ⟨S5x512x512, .f32⟩
  | .hbm, ⟨14, _⟩ => ⟨S5x512, .f32⟩
  | .hbm, ⟨15, _⟩ => ⟨S5x512x512, .f32⟩
  | .hbm, ⟨16, _⟩ => ⟨S5x512, .f32⟩
  | .hbm, ⟨17, _⟩ => ⟨S5x512x512, .f32⟩
  | .hbm, ⟨18, _⟩ => ⟨S5x512, .f32⟩
  | .hbm, ⟨19, _⟩ => ⟨S5x512x512, .f32⟩
  | .hbm, ⟨20, _⟩ => ⟨S5x512, .f32⟩
  | .hbm, ⟨21, _⟩ => ⟨S5x512, .f32⟩
  | .hbm, ⟨22, _⟩ => ⟨S5x512, .f32⟩
  | .hbm, ⟨23, _⟩ => ⟨S5x512, .f32⟩
  | .hbm, ⟨24, _⟩ => ⟨S5x300x512, .f32⟩
  | .hbm, ⟨25, _⟩ => ⟨S5x300x512, .bf16⟩
  | .hbm, ⟨26, _⟩ => ⟨S5x50x512, .f32⟩
  | .hbm, ⟨27, _⟩ => ⟨S5x50x512, .bf16⟩
  | .hbm, ⟨28, _⟩ => ⟨S5x50x512, .f32⟩
  | .hbm, ⟨29, _⟩ => ⟨S5x50x512, .bf16⟩
  | .hbm, ⟨30, _⟩ => ⟨S5x400x512, .bf16⟩
  | .hbm, ⟨31, _⟩ => ⟨S5x512x512, .f32⟩
  | .hbm, ⟨32, _⟩ => ⟨S5x512x512, .bf16⟩
  | .hbm, ⟨33, _⟩ => ⟨S5x512x512, .f32⟩
  | .hbm, ⟨34, _⟩ => ⟨S5x512x512, .bf16⟩
  | .hbm, ⟨35, _⟩ => ⟨S5x512x512, .f32⟩
  | .hbm, ⟨36, _⟩ => ⟨S5x512x512, .bf16⟩
  | .hbm, ⟨37, _⟩ => ⟨S5x512x512, .f32⟩
  | .hbm, ⟨38, _⟩ => ⟨S5x512x512, .bf16⟩
  | .hbm, ⟨39, _⟩ => ⟨S5x1024x512, .bf16⟩
  | .hbm, ⟨40, _⟩ => ⟨S16384x400, .f32⟩
  | .hbm, ⟨41, _⟩ => ⟨S16384x1024, .f32⟩
  | .hbm, ⟨42, _⟩ => ⟨S16384x512, .f32⟩
  | .hbm, ⟨43, _⟩ => ⟨S16384x512, .f32⟩
  | .local _ .vmem, ⟨0, _⟩ => ⟨S512x400, .f32⟩
  | .local _ .vmem, ⟨1, _⟩ => ⟨S512x400, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5x400x512, .bf16⟩
  | .local _ .vmem, ⟨9, _⟩ => ⟨S5x512x512, .bf16⟩
  | .local _ .vmem, ⟨10, _⟩ => ⟨S5x512x512, .bf16⟩
  | .local _ .vmem, ⟨11, _⟩ => ⟨S5x1024x512, .bf16⟩
  | .local _ .vmem, ⟨12, _⟩ => ⟨S5x512, .f32⟩
  | .local _ .vmem, ⟨13, _⟩ => ⟨S5x512, .f32⟩
  | .local _ .vmem, ⟨14, _⟩ => ⟨S5x512, .f32⟩
  | .local _ .vmem, ⟨15, _⟩ => ⟨S5x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | _, _ => ⟨S16384x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21_0 : Ref sig .tc := ⟨.hbm, 42, rfl⟩
abbrev main_v21_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5x400x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S5x512x300_S5x300x512_0_2_1 : S5x512x300.Transposes [0, 2, 1] S5x300x512
  bitsLt_bf16_f32 : FTy.bits .bf16 < FTy.bits .f32
  transposes_S5x512x50_S5x50x512_0_2_1 : S5x512x50.Transposes [0, 2, 1] S5x50x512
  concatenates_S5x300x512_S5x50x512_S5x50x512_S5x400x512_d1 : Shape.Concatenates [S5x300x512, S5x50x512, S5x50x512] S5x400x512 1
  transposes_S5x512x512_S5x512x512_0_2_1 : S5x512x512.Transposes [0, 2, 1] S5x512x512
  concatenates_S5x512x512_S5x512x512_S5x1024x512_d1 : Shape.Concatenates [S5x512x512, S5x512x512] S5x1024x512 1
  concatenates_S16384x300_S16384x50_S16384x50_S16384x400_d1 : Shape.Concatenates [S16384x300, S16384x50, S16384x50] S16384x400 1
  concatenates_S16384x512_S16384x512_S16384x1024_d1 : Shape.Concatenates [S16384x512, S16384x512] S16384x1024 1
  inb_S512x400_S512x400_0_0 : ∀ a, (![0, 0] : Fin 2 → Nat) a + S512x400.size a ≤ S512x400.size a
  h_S512x400 : 0 < S512x400.numel
  shapeCasts_S512x400_S512x400 : S512x400.ShapeCasts S512x400
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S5x400x512_S1x400x512_0_0_0 : ∀ a, (![0, 0, 0] : Fin 3 → Nat) a + S1x400x512.size a ≤ S5x400x512.size a
  h_S1x400x512 : 0 < S1x400x512.numel
  shapeCasts_S1x400x512_S400x512 : S1x400x512.ShapeCasts S400x512
  inb_S5x512_S1x512_0_0 : ∀ a, (![0, 0] : Fin 2 → Nat) a + S1x512.size a ≤ S5x512.size a
  h_S1x512 : 0 < S1x512.numel
  shapeCasts_S1x512_S512 : S1x512.ShapeCasts S512
  shapeCasts_S512_S1x512 : S512.ShapeCasts S1x512
  broadcasts_S1x512_S512x512 : S1x512.Broadcasts S512x512
  inb_S5x512x512_S1x512x512_0_0_0 : ∀ a, (![0, 0, 0] : Fin 3 → Nat) a + S1x512x512.size a ≤ S5x512x512.size a
  h_S1x512x512 : 0 < S1x512x512.numel
  shapeCasts_S1x512x512_S512x512 : S1x512x512.ShapeCasts S512x512
  inb_S5x1024x512_S1x1024x512_0_0_0 : ∀ a, (![0, 0, 0] : Fin 3 → Nat) a + S1x1024x512.size a ≤ S5x1024x512.size a
  h_S1x1024x512 : 0 < S1x1024x512.numel
  shapeCasts_S1x1024x512_S1024x512 : S1x1024x512.ShapeCasts S1024x512
  inb_S5x400x512_S1x400x512_1_0_0 : ∀ a, (![1, 0, 0] : Fin 3 → Nat) a + S1x400x512.size a ≤ S5x400x512.size a
  inb_S5x512_S1x512_1_0 : ∀ a, (![1, 0] : Fin 2 → Nat) a + S1x512.size a ≤ S5x512.size a
  inb_S5x512x512_S1x512x512_1_0_0 : ∀ a, (![1, 0, 0] : Fin 3 → Nat) a + S1x512x512.size a ≤ S5x512x512.size a
  inb_S5x1024x512_S1x1024x512_1_0_0 : ∀ a, (![1, 0, 0] : Fin 3 → Nat) a + S1x1024x512.size a ≤ S5x1024x512.size a
  inb_S512x512_S512x512_0_0 : ∀ a, (![0, 0] : Fin 2 → Nat) a + S512x512.size a ≤ S512x512.size a
  h_S512x512 : 0 < S512x512.numel
  inb_S5x400x512_S1x400x512_2_0_0 : ∀ a, (![2, 0, 0] : Fin 3 → Nat) a + S1x400x512.size a ≤ S5x400x512.size a
  inb_S5x512_S1x512_2_0 : ∀ a, (![2, 0] : Fin 2 → Nat) a + S1x512.size a ≤ S5x512.size a
  inb_S5x512x512_S1x512x512_2_0_0 : ∀ a, (![2, 0, 0] : Fin 3 → Nat) a + S1x512x512.size a ≤ S5x512x512.size a
  inb_S5x1024x512_S1x1024x512_2_0_0 : ∀ a, (![2, 0, 0] : Fin 3 → Nat) a + S1x1024x512.size a ≤ S5x1024x512.size a
  inb_S5x400x512_S1x400x512_3_0_0 : ∀ a, (![3, 0, 0] : Fin 3 → Nat) a + S1x400x512.size a ≤ S5x400x512.size a
  inb_S5x512_S1x512_3_0 : ∀ a, (![3, 0] : Fin 2 → Nat) a + S1x512.size a ≤ S5x512.size a
  inb_S5x512x512_S1x512x512_3_0_0 : ∀ a, (![3, 0, 0] : Fin 3 → Nat) a + S1x512x512.size a ≤ S5x512x512.size a
  inb_S5x1024x512_S1x1024x512_3_0_0 : ∀ a, (![3, 0, 0] : Fin 3 → Nat) a + S1x1024x512.size a ≤ S5x1024x512.size a
  inb_S5x400x512_S1x400x512_4_0_0 : ∀ a, (![4, 0, 0] : Fin 3 → Nat) a + S1x400x512.size a ≤ S5x400x512.size a
  inb_S5x512_S1x512_4_0 : ∀ a, (![4, 0] : Fin 2 → Nat) a + S1x512.size a ≤ S5x512.size a
  inb_S5x512x512_S1x512x512_4_0_0 : ∀ a, (![4, 0, 0] : Fin 3 → Nat) a + S1x512x512.size a ≤ S5x512x512.size a
  inb_S5x1024x512_S1x1024x512_4_0_0 : ∀ a, (![4, 0, 0] : Fin 3 → Nat) a + S1x1024x512.size a ≤ S5x1024x512.size a
  dot_S512x400_S400x512_S512x512_1_0_0_1_n_n_wf : DotDims.WF S512x400 S400x512 S512x512 [1] [0] [0] [1] [] []
  dot_S512x512_S512x512_S512x512_1_0_0_1_n_n_wf : DotDims.WF S512x512 S512x512 S512x512 [1] [0] [0] [1] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x400.size a ≤ S16384x400.size a
  hwx0_0 : ∀ i : grid0.Coords, EltTy.bits .f32 = 32 ∨ (Rect.block (s := S16384x400) S512x400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x512.size a
  hwx0_3 : ∀ i : grid0.Coords, EltTy.bits .f32 = 32 ∨ (Rect.block (s := S16384x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x400x512.size a ≤ S5x400x512.size a
  hwx0_4 : ∀ i : grid0.Coords, EltTy.bits .bf16 = 32 ∨ (Rect.block (s := S5x400x512) S5x400x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x512x512.size a ≤ S5x512x512.size a
  hwx0_5 : ∀ i : grid0.Coords, EltTy.bits .bf16 = 32 ∨ (Rect.block (s := S5x512x512) S5x512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x512x512.size a ≤ S5x512x512.size a
  hwx0_6 : ∀ i : grid0.Coords, EltTy.bits .bf16 = 32 ∨ (Rect.block (s := S5x512x512) S5x512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S5x1024x512.size a ≤ S5x1024x512.size a
  hwx0_7 : ∀ i : grid0.Coords, EltTy.bits .bf16 = 32 ∨ (Rect.block (s := S5x1024x512) S5x1024x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S5x512.size a ≤ S5x512.size a
  hwx0_8 : ∀ i : grid0.Coords, EltTy.bits .f32 = 32 ∨ (Rect.block (s := S5x512) S5x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S5x512.size a ≤ S5x512.size a
  hwx0_9 : ∀ i : grid0.Coords, EltTy.bits .f32 = 32 ∨ (Rect.block (s := S5x512) S5x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S5x512.size a ≤ S5x512.size a
  hwx0_10 : ∀ i : grid0.Coords, EltTy.bits .f32 = 32 ∨ (Rect.block (s := S5x512) S5x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S5x512.size a ≤ S5x512.size a
  hwx0_11 : ∀ i : grid0.Coords, EltTy.bits .f32 = 32 ∨ (Rect.block (s := S5x512) S5x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S16384x512.size a
  hwx0_12 : ∀ i : grid0.Coords, EltTy.bits .f32 = 32 ∨ (Rect.block (s := S16384x512) S512x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S16384x512.size a
  hwx0_13 : ∀ i : grid0.Coords, EltTy.bits .f32 = 32 ∨ (Rect.block (s := S16384x512) S512x512.size (cc0_transform_13 i) (hinb0_13 i)).WholeWords (EltTy.packing .f32)

variable [Facts₀]

def dot_S512x400_S400x512_S512x512_1_0_0_1_n_n : DotDims S512x400 S400x512 S512x512 where
  lhsContracting := [1]
  rhsContracting := [0]
  lhsNonContracting := [0]
  rhsNonContracting := [1]
  lhsBatch := []
  rhsBatch := []
  wf := dot_S512x400_S400x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v19) S512x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S5x400x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S5x512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S5x512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S5x1024x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S5x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg14) S5x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg16) S5x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S5x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v21_0) S512x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v21_1) S512x512.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x300 : Shape := ⟨2, ![16384, 300]⟩
abbrev S16384x50 : Shape := ⟨2, ![16384, 50]⟩
abbrev S16384x512 : Shape := ⟨2, ![16384, 512]⟩
abbrev S5x512x300 : Shape := ⟨3, ![5, 512, 300]⟩
abbrev S5x512 : Shape := ⟨2, ![5, 512]⟩
abbrev S5x512x50 : Shape := ⟨3, ![5, 512, 50]⟩
abbrev S5x512x512 : Shape := ⟨3, ![5, 512, 512]⟩
abbrev S5x512x16384 : Shape := ⟨3, ![5, 512, 16384]⟩
abbrev S5x16384x512 : Shape := ⟨3, ![5, 16384, 512]⟩
abbrev S5x1x512 : Shape := ⟨3, ![5, 1, 512]⟩
abbrev S1x16384x512 : Shape := ⟨3, ![1, 16384, 512]⟩
abbrev S_ : Shape := ⟨0, ![]⟩

abbrev nBuf : Space → Nat
  | .hbm => 107
  | .vmem => 0
  | .smem => 0
  | _ => 0

abbrev bufTy : (tb : Table) → Fin (tcTables nBuf tb) → BufTy
  | .hbm, ⟨0, _⟩ => ⟨S16384x300, .f32⟩
  | .hbm, ⟨1, _⟩ => ⟨S16384x50, .f32⟩
  | .hbm, ⟨2, _⟩ => ⟨S16384x50, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S5x512x300, .f32⟩
  | .hbm, ⟨8, _⟩ => ⟨S5x512, .f32⟩
  | .hbm, ⟨9, _⟩ => ⟨S5x512x50, .f32⟩
  | .hbm, ⟨10, _⟩ => ⟨S5x512, .f32⟩
  | .hbm, ⟨11, _⟩ => ⟨S5x512x50, .f32⟩
  | .hbm, ⟨12, _⟩ => ⟨S5x512, .f32⟩
  | .hbm, ⟨13, _⟩ => ⟨S5x512x512, .f32⟩
  | .hbm, ⟨14, _⟩ => ⟨S5x512, .f32⟩
  | .hbm, ⟨15, _⟩ => ⟨S5x512x512, .f32⟩
  | .hbm, ⟨16, _⟩ => ⟨S5x512, .f32⟩
  | .hbm, ⟨17, _⟩ => ⟨S5x512x512, .f32⟩
  | .hbm, ⟨18, _⟩ => ⟨S5x512, .f32⟩
  | .hbm, ⟨19, _⟩ => ⟨S5x512x512, .f32⟩
  | .hbm, ⟨20, _⟩ => ⟨S5x512, .f32⟩
  | .hbm, ⟨21, _⟩ => ⟨S5x512x16384, .f32⟩
  | .hbm, ⟨22, _⟩ => ⟨S5x16384x512, .f32⟩
  | .hbm, ⟨23, _⟩ => ⟨S5x512x16384, .f32⟩
  | .hbm, ⟨24, _⟩ => ⟨S5x16384x512, .f32⟩
  | .hbm, ⟨25, _⟩ => ⟨S5x16384x512, .f32⟩
  | .hbm, ⟨26, _⟩ => ⟨S5x512x16384, .f32⟩
  | .hbm, ⟨27, _⟩ => ⟨S5x16384x512, .f32⟩
  | .hbm, ⟨28, _⟩ => ⟨S5x16384x512, .f32⟩
  | .hbm, ⟨29, _⟩ => ⟨S5x512, .f32⟩
  | .hbm, ⟨30, _⟩ => ⟨S5x512, .f32⟩
  | .hbm, ⟨31, _⟩ => ⟨S5x1x512, .f32⟩
  | .hbm, ⟨32, _⟩ => ⟨S5x16384x512, .f32⟩
  | .hbm, ⟨33, _⟩ => ⟨S5x16384x512, .f32⟩
  | .hbm, ⟨34, _⟩ => ⟨S5x16384x512, .f32⟩
  | .hbm, ⟨35, _⟩ => ⟨S5x16384x512, .f32⟩
  | .hbm, ⟨36, _⟩ => ⟨S5x1x512, .f32⟩
  | .hbm, ⟨37, _⟩ => ⟨S5x16384x512, .f32⟩
  | .hbm, ⟨38, _⟩ => ⟨S5x16384x512, .f32⟩
  | .hbm, ⟨39, _⟩ => ⟨S5x16384x512, .f32⟩
  | .hbm, ⟨40, _⟩ => ⟨S5x16384x512, .f32⟩
  | .hbm, ⟨41, _⟩ => ⟨S5x1x512, .f32⟩
  | .hbm, ⟨42, _⟩ => ⟨S5x16384x512, .f32⟩
  | .hbm, ⟨43, _⟩ => ⟨S5x16384x512, .f32⟩
  | .hbm, ⟨44, _⟩ => ⟨S5x16384x512, .f32⟩
  | .hbm, ⟨45, _⟩ => ⟨S5x512x16384, .f32⟩
  | .hbm, ⟨46, _⟩ => ⟨S5x16384x512, .f32⟩
  | .hbm, ⟨47, _⟩ => ⟨S5x16384x512, .f32⟩
  | .hbm, ⟨48, _⟩ => ⟨S5x1x512, .f32⟩
  | .hbm, ⟨49, _⟩ => ⟨S5x16384x512, .f32⟩
  | .hbm, ⟨50, _⟩ => ⟨S5x16384x512, .f32⟩
  | .hbm, ⟨51, _⟩ => ⟨S5x512x16384, .f32⟩
  | .hbm, ⟨52, _⟩ => ⟨S5x16384x512, .f32⟩
  | .hbm, ⟨53, _⟩ => ⟨S5x16384x512, .f32⟩
  | .hbm, ⟨54, _⟩ => ⟨S5x1x512, .f32⟩
  | .hbm, ⟨55, _⟩ => ⟨S5x16384x512, .f32⟩
  | .hbm, ⟨56, _⟩ => ⟨S5x16384x512, .f32⟩
  | .hbm, ⟨57, _⟩ => ⟨S1x16384x512, .f32⟩
  | .hbm, ⟨58, _⟩ => ⟨S16384x512, .f32⟩
  | .hbm, ⟨59, _⟩ => ⟨S16384x512, .f32⟩
  | .hbm, ⟨60, _⟩ => ⟨S16384x512, .f32⟩
  | .hbm, ⟨61, _⟩ => ⟨S_, .f32⟩
  | .hbm, ⟨62, _⟩ => ⟨S16384x512, .f32⟩
  | .hbm, ⟨63, _⟩ => ⟨S16384x512, .f32⟩
  | .hbm, ⟨64, _⟩ => ⟨S_, .f32⟩
  | .hbm, ⟨65, _⟩ => ⟨S16384x512, .f32⟩
  | .hbm, ⟨66, _⟩ => ⟨S16384x512, .f32⟩
  | .hbm, ⟨67, _⟩ => ⟨S1x16384x512, .f32⟩
  | .hbm, ⟨68, _⟩ => ⟨S16384x512, .f32⟩
  | .hbm, ⟨69, _⟩ => ⟨S16384x512, .f32⟩
  | .hbm, ⟨70, _⟩ => ⟨S16384x512, .f32⟩
  | .hbm, ⟨71, _⟩ => ⟨S_, .f32⟩
  | .hbm, ⟨72, _⟩ => ⟨S16384x512, .f32⟩
  | .hbm, ⟨73, _⟩ => ⟨S16384x512, .f32⟩
  | .hbm, ⟨74, _⟩ => ⟨S_, .f32⟩
  | .hbm, ⟨75, _⟩ => ⟨S16384x512, .f32⟩
  | .hbm, ⟨76, _⟩ => ⟨S16384x512, .f32⟩
  | .hbm, ⟨77, _⟩ => ⟨S1x16384x512, .f32⟩
  | .hbm, ⟨78, _⟩ => ⟨S16384x512, .f32⟩
  | .hbm, ⟨79, _⟩ => ⟨S16384x512, .f32⟩
  | .hbm, ⟨80, _⟩ => ⟨S16384x512, .f32⟩
  | .hbm, ⟨81, _⟩ => ⟨S_, .f32⟩
  | .hbm, ⟨82, _⟩ => ⟨S16384x512, .f32⟩
  | .hbm, ⟨83, _⟩ => ⟨S16384x512, .f32⟩
  | .hbm, ⟨84, _⟩ => ⟨S_, .f32⟩
  | .hbm, ⟨85, _⟩ => ⟨S16384x512, .f32⟩
  | .hbm, ⟨86, _⟩ => ⟨S16384x512, .f32⟩
  | .hbm, ⟨87, _⟩ => ⟨S1x16384x512, .f32⟩
  | .hbm, ⟨88, _⟩ => ⟨S16384x512, .f32⟩
  | .hbm, ⟨89, _⟩ => ⟨S16384x512, .f32⟩
  | .hbm, ⟨90, _⟩ => ⟨S16384x512, .f32⟩
  | .hbm, ⟨91, _⟩ => ⟨S_, .f32⟩
  | .hbm, ⟨92, _⟩ => ⟨S16384x512, .f32⟩
  | .hbm, ⟨93, _⟩ => ⟨S16384x512, .f32⟩
  | .hbm, ⟨94, _⟩ => ⟨S_, .f32⟩
  | .hbm, ⟨95, _⟩ => ⟨S16384x512, .f32⟩
  | .hbm, ⟨96, _⟩ => ⟨S16384x512, .f32⟩
  | .hbm, ⟨97, _⟩ => ⟨S1x16384x512, .f32⟩
  | .hbm, ⟨98, _⟩ => ⟨S16384x512, .f32⟩
  | .hbm, ⟨99, _⟩ => ⟨S16384x512, .f32⟩
  | .hbm, ⟨100, _⟩ => ⟨S16384x512, .f32⟩
  | .hbm, ⟨101, _⟩ => ⟨S16384x512, .f32⟩
  | .hbm, ⟨102, _⟩ => ⟨S16384x512, .f32⟩
  | .hbm, ⟨103, _⟩ => ⟨S16384x512, .f32⟩
  | .hbm, ⟨104, _⟩ => ⟨S16384x512, .f32⟩
  | .hbm, ⟨105, _⟩ => ⟨S16384x512, .f32⟩
  | .hbm, ⟨106, _⟩ => ⟨S16384x512, .f32⟩
  | _, _ => ⟨S16384x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst : Ref sig .tc := ⟨.hbm, 61, rfl⟩
abbrev main_v40 : Ref sig .tc := ⟨.hbm, 62, rfl⟩
abbrev main_v41 : Ref sig .tc := ⟨.hbm, 63, rfl⟩
abbrev main_cst_0 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_1 : Ref sig .tc := ⟨.hbm, 71, rfl⟩
abbrev main_v48 : Ref sig .tc := ⟨.hbm, 72, rfl⟩
abbrev main_v49 : Ref sig .tc := ⟨.hbm, 73, rfl⟩
abbrev main_cst_2 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_3 : Ref sig .tc := ⟨.hbm, 81, rfl⟩
abbrev main_v56 : Ref sig .tc := ⟨.hbm, 82, rfl⟩
abbrev main_v57 : Ref sig .tc := ⟨.hbm, 83, rfl⟩
abbrev main_cst_4 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_5 : Ref sig .tc := ⟨.hbm, 91, rfl⟩
abbrev main_v64 : Ref sig .tc := ⟨.hbm, 92, rfl⟩
abbrev main_v65 : Ref sig .tc := ⟨.hbm, 93, rfl⟩
abbrev main_cst_6 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩

abbrev nD : Nat := 1
abbrev τ : Topo := Topo.v7x

variable {F : FTy → Type} [FloatOps F]

class Facts₀ : Prop where
  transposes_S5x512x16384_S5x16384x512_0_2_1 : S5x512x16384.Transposes [0, 2, 1] S5x16384x512
  bcast_S5x512_S5x1x512_0_2 : S5x512.BroadcastsInDim S5x1x512 (![0, 2] : Fin 2 → Fin S5x1x512.rank)
  bcast_S5x1x512_S5x16384x512_0_1_2 : S5x1x512.BroadcastsInDim S5x16384x512 (![0, 1, 2] : Fin 3 → Fin S5x16384x512.rank)
  slices_S5x16384x512_S1x16384x512_0_0_0 : S5x16384x512.Slices ![0, 0, 0] S1x16384x512
  shapeCasts_S1x16384x512_S16384x512 : S1x16384x512.ShapeCasts S16384x512
  bcast_S_S16384x512 : S_.BroadcastsInDim S16384x512 (![] : Fin 0 → Fin S16384x512.rank)
  slices_S5x16384x512_S1x16384x512_1_0_0 : S5x16384x512.Slices ![1, 0, 0] S1x16384x512
  slices_S5x16384x512_S1x16384x512_2_0_0 : S5x16384x512.Slices ![2, 0, 0] S1x16384x512
  slices_S5x16384x512_S1x16384x512_3_0_0 : S5x16384x512.Slices ![3, 0, 0] S1x16384x512
  slices_S5x16384x512_S1x16384x512_4_0_0 : S5x16384x512.Slices ![4, 0, 0] S1x16384x512
  dot_S5x512x300_S16384x300_S5x512x16384_2_1_01_0_n_n_wf : DotDims.WF S5x512x300 S16384x300 S5x512x16384 [2] [1] [0, 1] [0] [] []
  dot_S5x512x50_S16384x50_S5x512x16384_2_1_01_0_n_n_wf : DotDims.WF S5x512x50 S16384x50 S5x512x16384 [2] [1] [0, 1] [0] [] []
  dot_S5x16384x512_S5x512x512_S5x16384x512_2_2_1_1_0_0_wf : DotDims.WF S5x16384x512 S5x512x512 S5x16384x512 [2] [2] [1] [1] [0] [0]
  dot_S5x512x512_S16384x512_S5x512x16384_2_1_01_0_n_n_wf : DotDims.WF S5x512x512 S16384x512 S5x512x16384 [2] [1] [0, 1] [0] [] []

variable [Facts₀]

def dot_S5x512x300_S16384x300_S5x512x16384_2_1_01_0_n_n : DotDims S5x512x300 S16384x300 S5x512x16384 where
  lhsContracting := [2]
  rhsContracting := [1]
  lhsNonContracting := [0, 1]
  rhsNonContracting := [0]
  lhsBatch := []
  rhsBatch := []
  wf := dot_S5x512x300_S16384x300_S5x512x16384_2_1_01_0_n_n_wf
def dot_S5x512x50_S16384x50_S5x512x16384_2_1_01_0_n_n : DotDims S5x512x50 S16384x50 S5x512x16384 where
  lhsContracting := [2]
  rhsContracting := [1]
  lhsNonContracting := [0, 1]
  rhsNonContracting := [0]
  lhsBatch := []
  rhsBatch := []
  wf := dot_S5x512x50_S16384x50_S5x512x16384_2_1_01_0_n_n_wf
def dot_S5x16384x512_S5x512x512_S5x16384x512_2_2_1_1_0_0 : DotDims S5x16384x512 S5x512x512 S5x16384x512 where
  lhsContracting := [2]
  rhsContracting := [2]
  lhsNonContracting := [1]
  rhsNonContracting := [1]
  lhsBatch := [0]
  rhsBatch := [0]
  wf := dot_S5x16384x512_S5x512x512_S5x16384x512_2_2_1_1_0_0_wf
def dot_S5x512x512_S16384x512_S5x512x16384_2_1_01_0_n_n : DotDims S5x512x512 S16384x512 S5x512x16384 where
  lhsContracting := [2]
  rhsContracting := [1]
  lhsNonContracting := [0, 1]
  rhsNonContracting := [0]
  lhsBatch := []
  rhsBatch := []
  wf := dot_S5x512x512_S16384x512_S5x512x16384_2_1_01_0_n_n_wf

class Facts : Prop extends Facts₀ where

variable [Facts]
-- ==== Proof.FrameKitBits.lean ====
/-
  The program up to its one region, and what a run of the region says about the argument arrays.

  The program is twenty-one host operations (bias sums, weight transposes, three concatenations) followed by
  the region. The region finds every buffer at `V`: the launch contents with those operations applied. No host
  operation writes an argument array, so `V` of an argument is its launch contents. Four arguments (q, c_prev and
  two bias arrays) are staged by input windows of the region, and an input window's array is never written; the
  other seventeen are staged by no window, and the region leaves such buffers as it found them. Hence any run
  of the region whose arrays are `V`'s leaves all twenty-one arguments as launched.
  Each input window's current buffer holds its block of `V` at every grid point: the activation windows are
  fetched at every point, the weight and bias windows once, their block index never moving.
-/
import proofs.«104428_j38689065402503_2_alg».proof.Proof.Gen.Kernel.Launch
import proofs.«104428_j38689065402503_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The program up to the region -/

/-- Core `c`'s buffers when the region is entered: the launch contents after the host operations. -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its host operations, then the region, which therefore starts from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 20: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run of the region -/

/-- For any proof data whose arrays are the region-entry contents, a run ending with every window's array at what
    the data computes and every other buffer as the region found it leaves the twenty-one arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats 0 c).arrAt_in 2 rfl _).trans ((hA c 2).trans (V_main_arg4 m c))),
      ((h c).2 main_arg5 (Pipeline.mem_restRefs_of main_arg5 (by decide) (by decide))).trans (V_main_arg5 m c),
      ((h c).1 3).trans (((dats 0 c).arrAt_in 3 rfl _).trans ((hA c 3).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).1 9).trans (((dats 0 c).arrAt_in 9 rfl _).trans ((hA c 9).trans (V_main_arg14 m c))),
      ((h c).2 main_arg15 (Pipeline.mem_restRefs_of main_arg15 (by decide) (by decide))).trans (V_main_arg15 m c),
      ((h c).1 10).trans (((dats 0 c).arrAt_in 10 rfl _).trans ((hA c 10).trans (V_main_arg16 m c))),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩) h

end Cert.Kernel.Frm

end
-- ==== Proof.KBodyBits.lean ====
/-
  What the cell's body stores, as pure functions of the values it loads: the whole activation blocks (the
  concatenated input rows, the concatenated recurrent rows, q, c_prev) and, per gate g, slab g of each weight
  array and row g of each bias array. `valC` is the value stored into the cell-state block, `valH` the value
  stored into the hidden-state block; they are the program's own named payloads composed in the order the body
  computes them (gate 0 … gate 4), nothing more.
-/
import proofs.«104428_j38689065402503_2_alg».proof.Proof.Gen.Kernel.Skeleton

noncomputable section

namespace Cert.Kernel.Body

open Idealize.ShloMosaic Cert.Kernel Cert.Kernel.Gen

variable {F : FTy → Type} [FloatOps F]

/-- The values one run of the body loads. `wc g`, `wh g`, `wl g`, `wk g` are gate g's slabs of the input, first
    hidden, second hidden and recurrent matrices; `b0 g` … `b3 g` gate g's rows of the four bias arrays. -/
structure Loads (F : FTy → Type) where
  x : Vec F S512x400 .f32
  kh : Vec F S512x1024 .f32
  q : Vec F S512x512 .f32
  cp : Vec F S512x512 .f32
  wc : Fin 5 → Vec F S1x400x512 .bf16
  wh : Fin 5 → Vec F S1x512x512 .bf16
  wl : Fin 5 → Vec F S1x512x512 .bf16
  wk : Fin 5 → Vec F S1x1024x512 .bf16
  b0 : Fin 5 → Vec F S1x512 .f32
  b1 : Fin 5 → Vec F S1x512 .f32
  b2 : Fin 5 → Vec F S1x512 .f32
  b3 : Fin 5 → Vec F S1x512 .f32

variable (L : Loads F)

/-- The input rows and the recurrent rows narrowed for the matrix unit. -/
def xb : FVec F S512x400 .bf16 := k0_pay3 L.x
def khb : FVec F S512x1024 .bf16 := k0_pay4 L.kh
/-- Gate 0: the three dense layers, then the input gate i. -/
def m0 : FVec F S512x512 .f32 := k0_pay5 L.x (L.wc 0) (L.b0 0) (L.wh 0) (L.b1 0) (L.wl 0) (L.b2 0)
def gI : FVec F S512x512 .f32 := k0_pay6 (khb L) (m0 L) (L.wk 0) (L.b3 0)
/-- Gate 1: its third layer before the tanh, then f_down · q. -/
def m1 : FVec F S512x512 .f32 := k0_pay7 (xb L) (L.wc 1) (L.b0 1) (L.wh 1) (L.b1 1) (L.wl 1) (L.b2 1)
def fq : FVec F S512x512 .f32 := k0_pay8 (khb L) (m1 L) (L.wk 1) (L.b3 1) L.q
/-- Gate 2: its third product, then f_down · q + f_left · c_prev. -/
def m2 : FVec F S512x512 .f32 := k0_pay9 (xb L) (L.wc 2) (L.b0 2) (L.wh 2) (L.b1 2) (L.wl 2)
def cAcc : FVec F S512x512 .f32 := k0_pay10 (khb L) (fq L) (m2 L) (L.b2 2) (L.wk 2) (L.b3 2) L.cp
/-- Gate 3: its second layer, then the output gate o. -/
def m3 : FVec F S512x512 .f32 := k0_pay11 (xb L) (L.wc 3) (L.b0 3) (L.wh 3) (L.b1 3)
def gO : FVec F S512x512 .f32 := k0_pay12 (khb L) (m3 L) (L.wl 3) (L.b2 3) (L.wk 3) (L.b3 3)
/-- Gate 4: its second product and the bias row that goes with it. -/
def m4 : FVec F S512x512 .f32 := k0_pay13 (xb L) (L.wc 4) (L.b0 4) (L.wh 4)
def b14 : FVec F S1x512 .f32 := k0_pay14 (L.b1 4)

/-- The stored cell state: (f_down · q + f_left · c_prev) + i · u. -/
def valC : FVec F S512x512 .f32 :=
  k0_pay1 (khb L) (gI L) (cAcc L) (m4 L) (b14 L) (L.wl 4) (L.b2 4) (L.wk 4) (L.b3 4)
/-- The stored hidden state: o · tanh c. -/
def valH : FVec F S512x512 .f32 :=
  k0_pay2 (khb L) (gI L) (cAcc L) (gO L) (m4 L) (b14 L) (L.wl 4) (L.b2 4) (L.wk 4) (L.b3 4)

end Cert.Kernel.Body

end
-- ==== Proof.FrameBodyBits.lean ====
/-
  The cell's body as a step of the region: from the twelve input windows' buffers at their blocks and the two
  output windows' buffers at anything, the body runs to its return leaving the inputs' buffers as they were,
  the hidden-state buffer at `valH` and the cell-state buffer at `valC` of the values it loads — the activation
  blocks whole, and per gate g slab g of each weight block and row g of each bias block. The body reads each
  output buffer once before overwriting it whole, and uses nothing of what it read there.
  The region's proof data follow: every input window's buffer holds its block after the body as before it; the
  two output windows' buffers hold those terms of the point's input blocks; and the run of the whole program.
-/
import proofs.«104428_j38689065402503_2_alg».proof.Proof.FrameKitBits
import proofs.«104428_j38689065402503_2_alg».proof.Proof.KBodyBits

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: whole blocks, and one gate's slab or row of a weight or bias block -/

abbrev rX : Rect S512x400 := Rect.unit (s := S512x400) ![0, 0] S512x400.size inb_S512x400_S512x400_0_0
abbrev rKH : Rect S512x1024 := Rect.unit (s := S512x1024) ![0, 0] S512x1024.size inb_S512x1024_S512x1024_0_0
abbrev rT : Rect S512x512 := Rect.unit (s := S512x512) ![0, 0] S512x512.size inb_S512x512_S512x512_0_0
abbrev rWc0 : Rect S5x400x512 := Rect.unit (s := S5x400x512) ![0, 0, 0] S1x400x512.size inb_S5x400x512_S1x400x512_0_0_0
abbrev rWc1 : Rect S5x400x512 := Rect.unit (s := S5x400x512) ![1, 0, 0] S1x400x512.size inb_S5x400x512_S1x400x512_1_0_0
abbrev rWc2 : Rect S5x400x512 := Rect.unit (s := S5x400x512) ![2, 0, 0] S1x400x512.size inb_S5x400x512_S1x400x512_2_0_0
abbrev rWc3 : Rect S5x400x512 := Rect.unit (s := S5x400x512) ![3, 0, 0] S1x400x512.size inb_S5x400x512_S1x400x512_3_0_0
abbrev rWc4 : Rect S5x400x512 := Rect.unit (s := S5x400x512) ![4, 0, 0] S1x400x512.size inb_S5x400x512_S1x400x512_4_0_0
abbrev rWh0 : Rect S5x512x512 := Rect.unit (s := S5x512x512) ![0, 0, 0] S1x512x512.size inb_S5x512x512_S1x512x512_0_0_0
abbrev rWh1 : Rect S5x512x512 := Rect.unit (s := S5x512x512) ![1, 0, 0] S1x512x512.size inb_S5x512x512_S1x512x512_1_0_0
abbrev rWh2 : Rect S5x512x512 := Rect.unit (s := S5x512x512) ![2, 0, 0] S1x512x512.size inb_S5x512x512_S1x512x512_2_0_0
abbrev rWh3 : Rect S5x512x512 := Rect.unit (s := S5x512x512) ![3, 0, 0] S1x512x512.size inb_S5x512x512_S1x512x512_3_0_0
abbrev rWh4 : Rect S5x512x512 := Rect.unit (s := S5x512x512) ![4, 0, 0] S1x512x512.size inb_S5x512x512_S1x512x512_4_0_0
abbrev rWk0 : Rect S5x1024x512 := Rect.unit (s := S5x1024x512) ![0, 0, 0] S1x1024x512.size inb_S5x1024x512_S1x1024x512_0_0_0
abbrev rWk1 : Rect S5x1024x512 := Rect.unit (s := S5x1024x512) ![1, 0, 0] S1x1024x512.size inb_S5x1024x512_S1x1024x512_1_0_0
abbrev rWk2 : Rect S5x1024x512 := Rect.unit (s := S5x1024x512) ![2, 0, 0] S1x1024x512.size inb_S5x1024x512_S1x1024x512_2_0_0
abbrev rWk3 : Rect S5x1024x512 := Rect.unit (s := S5x1024x512) ![3, 0, 0] S1x1024x512.size inb_S5x1024x512_S1x1024x512_3_0_0
abbrev rWk4 : Rect S5x1024x512 := Rect.unit (s := S5x1024x512) ![4, 0, 0] S1x1024x512.size inb_S5x1024x512_S1x1024x512_4_0_0
abbrev rB0 : Rect S5x512 := Rect.unit (s := S5x512) ![0, 0] S1x512.size inb_S5x512_S1x512_0_0
abbrev rB1 : Rect S5x512 := Rect.unit (s := S5x512) ![1, 0] S1x512.size inb_S5x512_S1x512_1_0
abbrev rB2 : Rect S5x512 := Rect.unit (s := S5x512) ![2, 0] S1x512.size inb_S5x512_S1x512_2_0
abbrev rB3 : Rect S5x512 := Rect.unit (s := S5x512) ![3, 0] S1x512.size inb_S5x512_S1x512_3_0
abbrev rB4 : Rect S5x512 := Rect.unit (s := S5x512) ![4, 0] S1x512.size inb_S5x512_S1x512_4_0

/-- What the body loads, from the twelve input blocks. -/
def loadsOf (x0 : Vec F S512x400 .f32) (x1 : Vec F S512x1024 .f32) (x2 x3 : Vec F S512x512 .f32) (x4 : Vec F S5x400x512 .bf16) (x5 x6 : Vec F S5x512x512 .bf16) (x7 : Vec F S5x1024x512 .bf16) (x8 x9 x10 x11 : Vec F S5x512 .f32) : Body.Loads F where
  x := View.ld x0 rX
  kh := View.ld x1 rKH
  q := View.ld x2 rT
  cp := View.ld x3 rT
  wc := fun | 0 => View.ld x4 rWc0 | 1 => View.ld x4 rWc1 | 2 => View.ld x4 rWc2 | 3 => View.ld x4 rWc3 | 4 => View.ld x4 rWc4 | ⟨_ + 5, h⟩ => absurd h (Nat.not_lt.2 (Nat.le_add_left _ _))
  wh := fun | 0 => View.ld x5 rWh0 | 1 => View.ld x5 rWh1 | 2 => View.ld x5 rWh2 | 3 => View.ld x5 rWh3 | 4 => View.ld x5 rWh4 | ⟨_ + 5, h⟩ => absurd h (Nat.not_lt.2 (Nat.le_add_left _ _))
  wl := fun | 0 => View.ld x6 rWh0 | 1 => View.ld x6 rWh1 | 2 => View.ld x6 rWh2 | 3 => View.ld x6 rWh3 | 4 => View.ld x6 rWh4 | ⟨_ + 5, h⟩ => absurd h (Nat.not_lt.2 (Nat.le_add_left _ _))
  wk := fun | 0 => View.ld x7 rWk0 | 1 => View.ld x7 rWk1 | 2 => View.ld x7 rWk2 | 3 => View.ld x7 rWk3 | 4 => View.ld x7 rWk4 | ⟨_ + 5, h⟩ => absurd h (Nat.not_lt.2 (Nat.le_add_left _ _))
  b0 := fun | 0 => View.ld x8 rB0 | 1 => View.ld x8 rB1 | 2 => View.ld x8 rB2 | 3 => View.ld x8 rB3 | 4 => View.ld x8 rB4 | ⟨_ + 5, h⟩ => absurd h (Nat.not_lt.2 (Nat.le_add_left _ _))
  b1 := fun | 0 => View.ld x9 rB0 | 1 => View.ld x9 rB1 | 2 => View.ld x9 rB2 | 3 => View.ld x9 rB3 | 4 => View.ld x9 rB4 | ⟨_ + 5, h⟩ => absurd h (Nat.not_lt.2 (Nat.le_add_left _ _))
  b2 := fun | 0 => View.ld x10 rB0 | 1 => View.ld x10 rB1 | 2 => View.ld x10 rB2 | 3 => View.ld x10 rB3 | 4 => View.ld x10 rB4 | ⟨_ + 5, h⟩ => absurd h (Nat.not_lt.2 (Nat.le_add_left _ _))
  b3 := fun | 0 => View.ld x11 rB0 | 1 => View.ld x11 rB1 | 2 => View.ld x11 rB2 | 3 => View.ld x11 rB3 | 4 => View.ld x11 rB4 | ⟨_ + 5, h⟩ => absurd h (Nat.not_lt.2 (Nat.le_add_left _ _))

/-! ## What the body leaves in the two output windows' buffers -/

/-- The hidden-state buffer after the body: its one store, over the whole buffer. -/
def out0_12 (x0 : Vec F S512x400 .f32) (x1 : Vec F S512x1024 .f32) (x2 x3 : Vec F S512x512 .f32) (x4 : Vec F S5x400x512 .bf16) (x5 x6 : Vec F S5x512x512 .bf16) (x7 : Vec F S5x1024x512 .bf16) (x8 x9 x10 x11 : Vec F S5x512 .f32) : Vec F S512x512 .f32 :=
  View.canon [⟨rT, Body.valH (loadsOf x0 x1 x2 x3 x4 x5 x6 x7 x8 x9 x10 x11)⟩]
/-- The cell-state buffer after the body: its one store, over the whole buffer. -/
def out0_13 (x0 : Vec F S512x400 .f32) (x1 : Vec F S512x1024 .f32) (x2 x3 : Vec F S512x512 .f32) (x4 : Vec F S5x400x512 .bf16) (x5 x6 : Vec F S5x512x512 .bf16) (x7 : Vec F S5x1024x512 .bf16) (x8 x9 x10 x11 : Vec F S5x512 .f32) : Vec F S512x512 .f32 :=
  View.canon [⟨rT, Body.valC (loadsOf x0 x1 x2 x3 x4 x5 x6 x7 x8 x9 x10 x11)⟩]

/-- One store over the whole buffer covers it. -/
theorem cover0 (p0 : Vec F S512x512 .f32) (y : S512x512.Idx) :
    ∃ pc ∈ ([⟨rT, p0⟩] : List (View.Piece (Elt F) S512x512 .f32)), y ∈ pc.1.set :=
  View.cover_of_tiled [⟨rT, p0⟩] S512x512.size (by rfl) y

/-! ## The body's triple -/

set_option maxHeartbeats 4000000 in
/-- On whole staging buffers, the inputs' at contents reading `x0 … x11` and the outputs' at anything, the body runs
    to its continuation with the inputs' as they were and the outputs' at `out0_12`, `out0_13` of the inputs'. -/
theorem sound_kernel (c : Dev nD) (E : Set ℕ) (i : grid0.Coords) (arg1 : Memref sig .tc .vmem S512x400 .f32) (harg1 : arg1.IsWhole) (arg2 : Memref sig .tc .vmem S512x1024 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S5x400x512 .bf16) (harg5 : arg5.IsWhole) (arg6 : Memref sig .tc .vmem S5x512x512 .bf16) (harg6 : arg6.IsWhole) (arg7 : Memref sig .tc .vmem S5x512x512 .bf16) (harg7 : arg7.IsWhole) (arg8 : Memref sig .tc .vmem S5x1024x512 .bf16) (harg8 : arg8.IsWhole) (arg9 : Memref sig .tc .vmem S5x512 .f32) (harg9 : arg9.IsWhole) (arg10 : Memref sig .tc .vmem S5x512 .f32) (harg10 : arg10.IsWhole) (arg11 : Memref sig .tc .vmem S5x512 .f32) (harg11 : arg11.IsWhole) (arg12 : Memref sig .tc .vmem S5x512 .f32) (harg12 : arg12.IsWhole) (arg13 : Memref sig .tc .vmem S512x512 .f32) (harg13 : arg13.IsWhole) (arg14 : Memref sig .tc .vmem S512x512 .f32) (harg14 : arg14.IsWhole)
    (x0 : Vec F S512x400 .f32) (x1 : Vec F S512x1024 .f32) (x2 x3 : Vec F S512x512 .f32) (x4 : Vec F S5x400x512 .bf16) (x5 x6 : Vec F S5x512x512 .bf16) (x7 : Vec F S5x1024x512 .bf16) (x8 x9 x10 x11 : Vec F S5x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11) ∗ owns (c : Thread nD τ) arg14 fullShare (out0_13 x0 x1 x2 x3 x4 x5 x6 x7 x8 x9 x10 x11)) -∗ K ⟨⟩))
      ⊢ wp frame (wpE (defs₀ (F := F)) Variants.none c none) E (cc0__tree_lstm_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__tree_lstm_kernel_eq_skeleton]; unfold cc0__tree_lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover0 _)
  iexists _; isplitr
  swap; · iexact H13
  ipureintro
  exact View.read_writes_eq_canon _ _ _ (cover0 _)

/-! ## The region's proof data -/

/-- On core `c`: the arrays as the region finds them; after the body at point `t` each input window's buffer at its
    block and the two output windows' at `out0_12`, `out0_13` of the point's input blocks; the scoped rest and the
    generator register pass through; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1000000 in
/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, every window's array ending at what the
    proof data compute and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program terminates, faults nowhere, and leaves its twenty-one arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

end Cert.Kernel.Frm

end
-- ==== Proof.FrameKitIdeal.lean ====
/-
  The program up to its one region, and what a run of the region says about the argument arrays.

  The program is twenty-one host operations (bias sums, weight transposes, three concatenations) followed by
  the region. The region finds every buffer at `V`: the launch contents with those operations applied. No host
  operation writes an argument array, so `V` of an argument is its launch contents. Four arguments (q, c_prev and
  two bias arrays) are staged by input windows of the region, and an input window's array is never written; the
  other seventeen are staged by no window, and the region leaves such buffers as it found them. Hence any run
  of the region whose arrays are `V`'s leaves all twenty-one arguments as launched.
  Each input window's current buffer holds its block of `V` at every grid point: the activation windows are
  fetched at every point, the weight and bias windows once, their block index never moving.
-/
import proofs.«104428_j38689065402503_2_alg».proof.Proof.Gen.KernelIdeal.Launch
import proofs.«104428_j38689065402503_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The program up to the region -/

/-- Core `c`'s buffers when the region is entered: the launch contents after the host operations. -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its host operations, then the region, which therefore starts from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 20: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run of the region -/

/-- For any proof data whose arrays are the region-entry contents, a run ending with every window's array at what
    the data computes and every other buffer as the region found it leaves the twenty-one arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats 0 c).arrAt_in 2 rfl _).trans ((hA c 2).trans (V_main_arg4 m c))),
      ((h c).2 main_arg5 (Pipeline.mem_restRefs_of main_arg5 (by decide) (by decide))).trans (V_main_arg5 m c),
      ((h c).1 3).trans (((dats 0 c).arrAt_in 3 rfl _).trans ((hA c 3).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).1 9).trans (((dats 0 c).arrAt_in 9 rfl _).trans ((hA c 9).trans (V_main_arg14 m c))),
      ((h c).2 main_arg15 (Pipeline.mem_restRefs_of main_arg15 (by decide) (by decide))).trans (V_main_arg15 m c),
      ((h c).1 10).trans (((dats 0 c).arrAt_in 10 rfl _).trans ((hA c 10).trans (V_main_arg16 m c))),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩) h

end Cert.KernelIdeal.Frm

end
-- ==== Proof.KBodyIdeal.lean ====
/-
  What the cell's body stores, as pure functions of the values it loads: the whole activation blocks (the
  concatenated input rows, the concatenated recurrent rows, q, c_prev) and, per gate g, slab g of each weight
  array and row g of each bias array. `valC` is the value stored into the cell-state block, `valH` the value
  stored into the hidden-state block; they are the program's own named payloads composed in the order the body
  computes them (gate 0 … gate 4), nothing more.
-/
import proofs.«104428_j38689065402503_2_alg».proof.Proof.Gen.KernelIdeal.Skeleton

noncomputable section

namespace Cert.KernelIdeal.Body

open Idealize.ShloMosaic Cert.KernelIdeal Cert.KernelIdeal.Gen

variable {F : FTy → Type} [FloatOps F]

/-- The values one run of the body loads. `wc g`, `wh g`, `wl g`, `wk g` are gate g's slabs of the input, first
    hidden, second hidden and recurrent matrices; `b0 g` … `b3 g` gate g's rows of the four bias arrays. -/
structure Loads (F : FTy → Type) where
  x : Vec F S512x400 .f32
  kh : Vec F S512x1024 .f32
  q : Vec F S512x512 .f32
  cp : Vec F S512x512 .f32
  wc : Fin 5 → Vec F S1x400x512 .bf16
  wh : Fin 5 → Vec F S1x512x512 .bf16
  wl : Fin 5 → Vec F S1x512x512 .bf16
  wk : Fin 5 → Vec F S1x1024x512 .bf16
  b0 : Fin 5 → Vec F S1x512 .f32
  b1 : Fin 5 → Vec F S1x512 .f32
  b2 : Fin 5 → Vec F S1x512 .f32
  b3 : Fin 5 → Vec F S1x512 .f32

variable (L : Loads F)

/-- The input rows and the recurrent rows narrowed for the matrix unit. -/
def xb : FVec F S512x400 .bf16 := k0_pay3 L.x
def khb : FVec F S512x1024 .bf16 := k0_pay4 L.kh
/-- Gate 0: the three dense layers, then the input gate i. -/
def m0 : FVec F S512x512 .f32 := k0_pay5 L.x (L.wc 0) (L.b0 0) (L.wh 0) (L.b1 0) (L.wl 0) (L.b2 0)
def gI : FVec F S512x512 .f32 := k0_pay6 (khb L) (m0 L) (L.wk 0) (L.b3 0)
/-- Gate 1: its third layer before the tanh, then f_down · q. -/
def m1 : FVec F S512x512 .f32 := k0_pay7 (xb L) (L.wc 1) (L.b0 1) (L.wh 1) (L.b1 1) (L.wl 1) (L.b2 1)
def fq : FVec F S512x512 .f32 := k0_pay8 (khb L) (m1 L) (L.wk 1) (L.b3 1) L.q
/-- Gate 2: its third product, then f_down · q + f_left · c_prev. -/
def m2 : FVec F S512x512 .f32 := k0_pay9 (xb L) (L.wc 2) (L.b0 2) (L.wh 2) (L.b1 2) (L.wl 2)
def cAcc : FVec F S512x512 .f32 := k0_pay10 (khb L) (fq L) (m2 L) (L.b2 2) (L.wk 2) (L.b3 2) L.cp
/-- Gate 3: its second layer, then the output gate o. -/
def m3 : FVec F S512x512 .f32 := k0_pay11 (xb L) (L.wc 3) (L.b0 3) (L.wh 3) (L.b1 3)
def gO : FVec F S512x512 .f32 := k0_pay12 (khb L) (m3 L) (L.wl 3) (L.b2 3) (L.wk 3) (L.b3 3)
/-- Gate 4: its second product and the bias row that goes with it. -/
def m4 : FVec F S512x512 .f32 := k0_pay13 (xb L) (L.wc 4) (L.b0 4) (L.wh 4)
def b14 : FVec F S1x512 .f32 := k0_pay14 (L.b1 4)

/-- The stored cell state: (f_down · q + f_left · c_prev) + i · u. -/
def valC : FVec F S512x512 .f32 :=
  k0_pay1 (khb L) (gI L) (cAcc L) (m4 L) (b14 L) (L.wl 4) (L.b2 4) (L.wk 4) (L.b3 4)
/-- The stored hidden state: o · tanh c. -/
def valH : FVec F S512x512 .f32 :=
  k0_pay2 (khb L) (gI L) (cAcc L) (gO L) (m4 L) (b14 L) (L.wl 4) (L.b2 4) (L.wk 4) (L.b3 4)

end Cert.KernelIdeal.Body

end
-- ==== Proof.FrameBodyIdeal.lean ====
/-
  The cell's body as a step of the region: from the twelve input windows' buffers at their blocks and the two
  output windows' buffers at anything, the body runs to its return leaving the inputs' buffers as they were,
  the hidden-state buffer at `valH` and the cell-state buffer at `valC` of the values it loads — the activation
  blocks whole, and per gate g slab g of each weight block and row g of each bias block. The body reads each
  output buffer once before overwriting it whole, and uses nothing of what it read there.
  The region's proof data follow: every input window's buffer holds its block after the body as before it; the
  two output windows' buffers hold those terms of the point's input blocks; and the run of the whole program.
-/
import proofs.«104428_j38689065402503_2_alg».proof.Proof.FrameKitIdeal
import proofs.«104428_j38689065402503_2_alg».proof.Proof.KBodyIdeal

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: whole blocks, and one gate's slab or row of a weight or bias block -/

abbrev rX : Rect S512x400 := Rect.unit (s := S512x400) ![0, 0] S512x400.size inb_S512x400_S512x400_0_0
abbrev rKH : Rect S512x1024 := Rect.unit (s := S512x1024) ![0, 0] S512x1024.size inb_S512x1024_S512x1024_0_0
abbrev rT : Rect S512x512 := Rect.unit (s := S512x512) ![0, 0] S512x512.size inb_S512x512_S512x512_0_0
abbrev rWc0 : Rect S5x400x512 := Rect.unit (s := S5x400x512) ![0, 0, 0] S1x400x512.size inb_S5x400x512_S1x400x512_0_0_0
abbrev rWc1 : Rect S5x400x512 := Rect.unit (s := S5x400x512) ![1, 0, 0] S1x400x512.size inb_S5x400x512_S1x400x512_1_0_0
abbrev rWc2 : Rect S5x400x512 := Rect.unit (s := S5x400x512) ![2, 0, 0] S1x400x512.size inb_S5x400x512_S1x400x512_2_0_0
abbrev rWc3 : Rect S5x400x512 := Rect.unit (s := S5x400x512) ![3, 0, 0] S1x400x512.size inb_S5x400x512_S1x400x512_3_0_0
abbrev rWc4 : Rect S5x400x512 := Rect.unit (s := S5x400x512) ![4, 0, 0] S1x400x512.size inb_S5x400x512_S1x400x512_4_0_0
abbrev rWh0 : Rect S5x512x512 := Rect.unit (s := S5x512x512) ![0, 0, 0] S1x512x512.size inb_S5x512x512_S1x512x512_0_0_0
abbrev rWh1 : Rect S5x512x512 := Rect.unit (s := S5x512x512) ![1, 0, 0] S1x512x512.size inb_S5x512x512_S1x512x512_1_0_0
abbrev rWh2 : Rect S5x512x512 := Rect.unit (s := S5x512x512) ![2, 0, 0] S1x512x512.size inb_S5x512x512_S1x512x512_2_0_0
abbrev rWh3 : Rect S5x512x512 := Rect.unit (s := S5x512x512) ![3, 0, 0] S1x512x512.size inb_S5x512x512_S1x512x512_3_0_0
abbrev rWh4 : Rect S5x512x512 := Rect.unit (s := S5x512x512) ![4, 0, 0] S1x512x512.size inb_S5x512x512_S1x512x512_4_0_0
abbrev rWk0 : Rect S5x1024x512 := Rect.unit (s := S5x1024x512) ![0, 0, 0] S1x1024x512.size inb_S5x1024x512_S1x1024x512_0_0_0
abbrev rWk1 : Rect S5x1024x512 := Rect.unit (s := S5x1024x512) ![1, 0, 0] S1x1024x512.size inb_S5x1024x512_S1x1024x512_1_0_0
abbrev rWk2 : Rect S5x1024x512 := Rect.unit (s := S5x1024x512) ![2, 0, 0] S1x1024x512.size inb_S5x1024x512_S1x1024x512_2_0_0
abbrev rWk3 : Rect S5x1024x512 := Rect.unit (s := S5x1024x512) ![3, 0, 0] S1x1024x512.size inb_S5x1024x512_S1x1024x512_3_0_0
abbrev rWk4 : Rect S5x1024x512 := Rect.unit (s := S5x1024x512) ![4, 0, 0] S1x1024x512.size inb_S5x1024x512_S1x1024x512_4_0_0
abbrev rB0 : Rect S5x512 := Rect.unit (s := S5x512) ![0, 0] S1x512.size inb_S5x512_S1x512_0_0
abbrev rB1 : Rect S5x512 := Rect.unit (s := S5x512) ![1, 0] S1x512.size inb_S5x512_S1x512_1_0
abbrev rB2 : Rect S5x512 := Rect.unit (s := S5x512) ![2, 0] S1x512.size inb_S5x512_S1x512_2_0
abbrev rB3 : Rect S5x512 := Rect.unit (s := S5x512) ![3, 0] S1x512.size inb_S5x512_S1x512_3_0
abbrev rB4 : Rect S5x512 := Rect.unit (s := S5x512) ![4, 0] S1x512.size inb_S5x512_S1x512_4_0

/-- What the body loads, from the twelve input blocks. -/
def loadsOf (x0 : Vec F S512x400 .f32) (x1 : Vec F S512x1024 .f32) (x2 x3 : Vec F S512x512 .f32) (x4 : Vec F S5x400x512 .bf16) (x5 x6 : Vec F S5x512x512 .bf16) (x7 : Vec F S5x1024x512 .bf16) (x8 x9 x10 x11 : Vec F S5x512 .f32) : Body.Loads F where
  x := View.ld x0 rX
  kh := View.ld x1 rKH
  q := View.ld x2 rT
  cp := View.ld x3 rT
  wc := fun | 0 => View.ld x4 rWc0 | 1 => View.ld x4 rWc1 | 2 => View.ld x4 rWc2 | 3 => View.ld x4 rWc3 | 4 => View.ld x4 rWc4 | ⟨_ + 5, h⟩ => absurd h (Nat.not_lt.2 (Nat.le_add_left _ _))
  wh := fun | 0 => View.ld x5 rWh0 | 1 => View.ld x5 rWh1 | 2 => View.ld x5 rWh2 | 3 => View.ld x5 rWh3 | 4 => View.ld x5 rWh4 | ⟨_ + 5, h⟩ => absurd h (Nat.not_lt.2 (Nat.le_add_left _ _))
  wl := fun | 0 => View.ld x6 rWh0 | 1 => View.ld x6 rWh1 | 2 => View.ld x6 rWh2 | 3 => View.ld x6 rWh3 | 4 => View.ld x6 rWh4 | ⟨_ + 5, h⟩ => absurd h (Nat.not_lt.2 (Nat.le_add_left _ _))
  wk := fun | 0 => View.ld x7 rWk0 | 1 => View.ld x7 rWk1 | 2 => View.ld x7 rWk2 | 3 => View.ld x7 rWk3 | 4 => View.ld x7 rWk4 | ⟨_ + 5, h⟩ => absurd h (Nat.not_lt.2 (Nat.le_add_left _ _))
  b0 := fun | 0 => View.ld x8 rB0 | 1 => View.ld x8 rB1 | 2 => View.ld x8 rB2 | 3 => View.ld x8 rB3 | 4 => View.ld x8 rB4 | ⟨_ + 5, h⟩ => absurd h (Nat.not_lt.2 (Nat.le_add_left _ _))
  b1 := fun | 0 => View.ld x9 rB0 | 1 => View.ld x9 rB1 | 2 => View.ld x9 rB2 | 3 => View.ld x9 rB3 | 4 => View.ld x9 rB4 | ⟨_ + 5, h⟩ => absurd h (Nat.not_lt.2 (Nat.le_add_left _ _))
  b2 := fun | 0 => View.ld x10 rB0 | 1 => View.ld x10 rB1 | 2 => View.ld x10 rB2 | 3 => View.ld x10 rB3 | 4 => View.ld x10 rB4 | ⟨_ + 5, h⟩ => absurd h (Nat.not_lt.2 (Nat.le_add_left _ _))
  b3 := fun | 0 => View.ld x11 rB0 | 1 => View.ld x11 rB1 | 2 => View.ld x11 rB2 | 3 => View.ld x11 rB3 | 4 => View.ld x11 rB4 | ⟨_ + 5, h⟩ => absurd h (Nat.not_lt.2 (Nat.le_add_left _ _))

/-! ## What the body leaves in the two output windows' buffers -/

/-- The hidden-state buffer after the body: its one store, over the whole buffer. -/
def out0_12 (x0 : Vec F S512x400 .f32) (x1 : Vec F S512x1024 .f32) (x2 x3 : Vec F S512x512 .f32) (x4 : Vec F S5x400x512 .bf16) (x5 x6 : Vec F S5x512x512 .bf16) (x7 : Vec F S5x1024x512 .bf16) (x8 x9 x10 x11 : Vec F S5x512 .f32) : Vec F S512x512 .f32 :=
  View.canon [⟨rT, Body.valH (loadsOf x0 x1 x2 x3 x4 x5 x6 x7 x8 x9 x10 x11)⟩]
/-- The cell-state buffer after the body: its one store, over the whole buffer. -/
def out0_13 (x0 : Vec F S512x400 .f32) (x1 : Vec F S512x1024 .f32) (x2 x3 : Vec F S512x512 .f32) (x4 : Vec F S5x400x512 .bf16) (x5 x6 : Vec F S5x512x512 .bf16) (x7 : Vec F S5x1024x512 .bf16) (x8 x9 x10 x11 : Vec F S5x512 .f32) : Vec F S512x512 .f32 :=
  View.canon [⟨rT, Body.valC (loadsOf x0 x1 x2 x3 x4 x5 x6 x7 x8 x9 x10 x11)⟩]

/-- One store over the whole buffer covers it. -/
theorem cover0 (p0 : Vec F S512x512 .f32) (y : S512x512.Idx) :
    ∃ pc ∈ ([⟨rT, p0⟩] : List (View.Piece (Elt F) S512x512 .f32)), y ∈ pc.1.set :=
  View.cover_of_tiled [⟨rT, p0⟩] S512x512.size (by rfl) y

/-! ## The body's triple -/

set_option maxHeartbeats 4000000 in
/-- On whole staging buffers, the inputs' at contents reading `x0 … x11` and the outputs' at anything, the body runs
    to its continuation with the inputs' as they were and the outputs' at `out0_12`, `out0_13` of the inputs'. -/
theorem sound_kernel (c : Dev nD) (E : Set ℕ) (i : grid0.Coords) (arg1 : Memref sig .tc .vmem S512x400 .f32) (harg1 : arg1.IsWhole) (arg2 : Memref sig .tc .vmem S512x1024 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S5x400x512 .bf16) (harg5 : arg5.IsWhole) (arg6 : Memref sig .tc .vmem S5x512x512 .bf16) (harg6 : arg6.IsWhole) (arg7 : Memref sig .tc .vmem S5x512x512 .bf16) (harg7 : arg7.IsWhole) (arg8 : Memref sig .tc .vmem S5x1024x512 .bf16) (harg8 : arg8.IsWhole) (arg9 : Memref sig .tc .vmem S5x512 .f32) (harg9 : arg9.IsWhole) (arg10 : Memref sig .tc .vmem S5x512 .f32) (harg10 : arg10.IsWhole) (arg11 : Memref sig .tc .vmem S5x512 .f32) (harg11 : arg11.IsWhole) (arg12 : Memref sig .tc .vmem S5x512 .f32) (harg12 : arg12.IsWhole) (arg13 : Memref sig .tc .vmem S512x512 .f32) (harg13 : arg13.IsWhole) (arg14 : Memref sig .tc .vmem S512x512 .f32) (harg14 : arg14.IsWhole)
    (x0 : Vec F S512x400 .f32) (x1 : Vec F S512x1024 .f32) (x2 x3 : Vec F S512x512 .f32) (x4 : Vec F S5x400x512 .bf16) (x5 x6 : Vec F S5x512x512 .bf16) (x7 : Vec F S5x1024x512 .bf16) (x8 x9 x10 x11 : Vec F S5x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11) ∗ owns (c : Thread nD τ) arg14 fullShare (out0_13 x0 x1 x2 x3 x4 x5 x6 x7 x8 x9 x10 x11)) -∗ K ⟨⟩))
      ⊢ wp frame (wpE (defs₀ (F := F)) Variants.none c none) E (cc0__tree_lstm_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__tree_lstm_kernel_eq_skeleton]; unfold cc0__tree_lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover0 _)
  iexists _; isplitr
  swap; · iexact H13
  ipureintro
  exact View.read_writes_eq_canon _ _ _ (cover0 _)

/-! ## The region's proof data -/

/-- On core `c`: the arrays as the region finds them; after the body at point `t` each input window's buffer at its
    block and the two output windows' at `out0_12`, `out0_13` of the point's input blocks; the scoped rest and the
    generator register pass through; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1000000 in
/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, every window's array ending at what the
    proof data compute and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program terminates, faults nowhere, and leaves its twenty-one arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

end Cert.KernelIdeal.Frm

end
-- ==== Proof.CellSpec.lean ====
/-
  One row of the tree-LSTM cell, as a function of that row of the activations and of the five gates' weights,
  written twice over the extended reals.

  A dense layer sends a row x to  y_j = (Σ_k x_k · w_{k j}) + b_j.  Per gate g the cell computes
      h0 = tanh (dense x),  h1 = tanh (dense h0),  mm = tanh (dense h1),
      pre_g = mm + (projection of the previous hidden state and of k) + biases,
  and from the five pre-activations
      i = σ pre_0, f_down = σ pre_1, f_left = σ pre_2, o = σ pre_3, u = tanh pre_4,
      c = i·u + f_down·q + f_left·c_prev,   h = o · tanh c,
  with σ the logistic function 1 / (1 + e^{-x}).

  `opC` / `opH` is the arrangement over CONCATENATED operands: the input row is one row of 400 entries
  (word ‖ tag ‖ rel) against one 400 × 512 matrix, the recurrent row one of 1024 entries (h_prev ‖ k) against
  one 1024 × 512 matrix, the biases already summed, matrices stored (in, out).
  `refC` / `refH` is the arrangement over SEPARATE operands: three products for the input layer, two for
  the recurrent one, each bias added where it stands, matrices stored (out, in).
  They differ by how finite sums are grouped; no entry is assumed finite anywhere.
-/
import Idealize.ShloMosaic.PureOps.Ideal
import Mathlib.Algebra.BigOperators.Fin

noncomputable section

namespace Cert.TreeCell

open Idealize.ShloMosaic

/-- The logistic function on the extended reals. -/
abbrev sg (x : EReal) : EReal := Ideal.logistic x
/-- The hyperbolic tangent on the extended reals. -/
abbrev th (x : EReal) : EReal := Ideal.tanh x

/-- A dense layer on one row: y_j = (Σ_k x_k · w k j) + b_j. -/
def dense {K : Nat} (x : Fin K → EReal) (w : Fin K → Fin 512 → EReal) (b : Fin 512 → EReal) (j : Fin 512) : EReal :=
  (∑ k : Fin K, x k * w k j) + b j

/-! ## Over concatenated operands -/

/-- The operands that do not depend on the row: per gate the input matrix (400 × 512), the two hidden matrices,
    the recurrent matrix (1024 × 512), and the four bias rows. -/
structure OpWeights where
  wcat : Fin 5 → Fin 400 → Fin 512 → EReal
  whid : Fin 5 → Fin 512 → Fin 512 → EReal
  wlast : Fin 5 → Fin 512 → Fin 512 → EReal
  whpk : Fin 5 → Fin 1024 → Fin 512 → EReal
  bin : Fin 5 → Fin 512 → EReal
  bhid : Fin 5 → Fin 512 → EReal
  blast : Fin 5 → Fin 512 → EReal
  bhpk : Fin 5 → Fin 512 → EReal

/-- Gate g's pre-activation of one row: three dense layers with tanh, plus the recurrent projection, plus its bias. -/
def opPre (W : OpWeights) (x : Fin 400 → EReal) (kh : Fin 1024 → EReal) (g : Fin 5) (j : Fin 512) : EReal :=
  (th (dense (fun h => th (dense (fun h' => th (dense x (W.wcat g) (W.bin g) h')) (W.whid g) (W.bhid g) h))
        (W.wlast g) (W.blast g) j)
      + ∑ k : Fin 1024, kh k * W.whpk g k j)
    + W.bhpk g j

/-- The new cell state of one row: (f_down · q + f_left · c_prev) + i · u. -/
def opC (W : OpWeights) (x : Fin 400 → EReal) (kh : Fin 1024 → EReal) (q cp : Fin 512 → EReal) (j : Fin 512) : EReal :=
  (sg (opPre W x kh 1 j) * q j + sg (opPre W x kh 2 j) * cp j) + sg (opPre W x kh 0 j) * th (opPre W x kh 4 j)

/-- The new hidden state of one row: o · tanh c. -/
def opH (W : OpWeights) (x : Fin 400 → EReal) (kh : Fin 1024 → EReal) (q cp : Fin 512 → EReal) (j : Fin 512) : EReal :=
  sg (opPre W x kh 3 j) * th (opC W x kh q cp j)

/-! ## Over separate operands -/

/-- The weights as the reference takes them: matrices indexed (gate, out, in), one bias row per matrix. -/
structure RefWeights where
  Wword : Fin 5 → Fin 512 → Fin 300 → EReal
  bword : Fin 5 → Fin 512 → EReal
  Wtag : Fin 5 → Fin 512 → Fin 50 → EReal
  btag : Fin 5 → Fin 512 → EReal
  Wrel : Fin 5 → Fin 512 → Fin 50 → EReal
  brel : Fin 5 → Fin 512 → EReal
  Whid : Fin 5 → Fin 512 → Fin 512 → EReal
  bhid : Fin 5 → Fin 512 → EReal
  Wlast : Fin 5 → Fin 512 → Fin 512 → EReal
  blast : Fin 5 → Fin 512 → EReal
  Whp : Fin 5 → Fin 512 → Fin 512 → EReal
  bhp : Fin 5 → Fin 512 → EReal
  Wk : Fin 5 → Fin 512 → Fin 512 → EReal
  bk : Fin 5 → Fin 512 → EReal

/-- The first layer of one row: the three products added left to right, then the three biases' sum. -/
def refH0 (W : RefWeights) (word : Fin 300 → EReal) (tag rel : Fin 50 → EReal) (g : Fin 5) (j : Fin 512) : EReal :=
  th ((((∑ w : Fin 300, word w * W.Wword g j w) + ∑ t : Fin 50, tag t * W.Wtag g j t) + ∑ r : Fin 50, rel r * W.Wrel g j r)
    + ((W.bword g j + W.btag g j) + W.brel g j))

def refH1 (W : RefWeights) (word : Fin 300 → EReal) (tag rel : Fin 50 → EReal) (g : Fin 5) (j : Fin 512) : EReal :=
  th ((∑ h : Fin 512, refH0 W word tag rel g h * W.Whid g j h) + W.bhid g j)

def refM (W : RefWeights) (word : Fin 300 → EReal) (tag rel : Fin 50 → EReal) (g : Fin 5) (j : Fin 512) : EReal :=
  th ((∑ h : Fin 512, refH1 W word tag rel g h * W.Wlast g j h) + W.blast g j)

/-- Gate g's pre-activation: m + W_hp h_prev + b_hp + W_k k + b_k, added left to right. -/
def refPre (W : RefWeights) (word : Fin 300 → EReal) (tag rel : Fin 50 → EReal) (hp kk : Fin 512 → EReal)
    (g : Fin 5) (j : Fin 512) : EReal :=
  (((refM W word tag rel g j + ∑ k : Fin 512, hp k * W.Whp g j k) + W.bhp g j) + ∑ k : Fin 512, kk k * W.Wk g j k) + W.bk g j

/-- The new cell state: (i · u + f_down · q) + f_left · c_prev. -/
def refC (W : RefWeights) (word : Fin 300 → EReal) (tag rel : Fin 50 → EReal) (hp kk q cp : Fin 512 → EReal) (j : Fin 512) : EReal :=
  (sg (refPre W word tag rel hp kk 0 j) * th (refPre W word tag rel hp kk 4 j) + sg (refPre W word tag rel hp kk 1 j) * q j)
    + sg (refPre W word tag rel hp kk 2 j) * cp j

/-- The new hidden state: o · tanh c. -/
def refH (W : RefWeights) (word : Fin 300 → EReal) (tag rel : Fin 50 → EReal) (hp kk q cp : Fin 512 → EReal) (j : Fin 512) : EReal :=
  sg (refPre W word tag rel hp kk 3 j) * th (refC W word tag rel hp kk q cp j)

/-! ## The concatenated operands made from the separate ones -/

/-- word ‖ tag ‖ rel as one row of 400 entries. -/
def catX (word : Fin 300 → EReal) (tag rel : Fin 50 → EReal) (k : Fin 400) : EReal :=
  if h : k.val < 300 then word ⟨k.val, h⟩
  else if h' : k.val < 350 then tag ⟨k.val - 300, by omega⟩
  else rel ⟨k.val - 350, by omega⟩

/-- h_prev ‖ k as one row of 1024 entries. -/
def catKH (hp kk : Fin 512 → EReal) (k : Fin 1024) : EReal :=
  if h : k.val < 512 then hp ⟨k.val, h⟩ else kk ⟨k.val - 512, by omega⟩

/-- The concatenated, transposed weights and the summed biases made from the reference's. -/
def opOfRef (W : RefWeights) : OpWeights where
  wcat g k j :=
    if h : k.val < 300 then W.Wword g j ⟨k.val, h⟩
    else if h' : k.val < 350 then W.Wtag g j ⟨k.val - 300, by omega⟩
    else W.Wrel g j ⟨k.val - 350, by omega⟩
  whid g k j := W.Whid g j k
  wlast g k j := W.Wlast g j k
  whpk g k j := if h : k.val < 512 then W.Whp g j ⟨k.val, h⟩ else W.Wk g j ⟨k.val - 512, by omega⟩
  bin g j := (W.bword g j + W.btag g j) + W.brel g j
  bhid := W.bhid
  blast := W.blast
  bhpk g j := W.bhp g j + W.bk g j

end Cert.TreeCell

end
-- ==== Proof.KValueOps.lean ====
/-
  The vector operations of the cell's body read at one index, at the ideal instance.

  Every step of the body is one of: a pointwise operation (sum, product, tanh, the logistic function, a change of
  float format, which is the identity on extended reals); a bias row [1,512] re-laid as [512], back as [1,512] and
  repeated over the 512 rows; and a matrix product of a block [512,K] with one gate's slab [1,K,512] viewed as
  [K,512], accumulated into zero. Read at row p and column j the first kind acts on the element, the second is the
  bias row at column j, and the third is the finite sum over k of (row p of the block at k) · (the slab at (0,k,j)).
-/
import proofs.«104428_j38689065402503_2_alg».proof.Proof.Gen.KernelIdeal
import proofs.«104428_j38689065402503_2_alg».proof.Proof.CellSpec
import Idealize.ShloMosaic.Lib.ValueIdx
import Idealize.ShloMosaic.Lib.ValueLayout
import Idealize.ShloMosaic.PureOps.Ideal.Laws

noncomputable section

namespace Cert.KernelIdeal.BodyValue

open Idealize.ShloMosaic Idealize.ShloMosaic.ValueIdx Cert.KernelIdeal Cert.KernelIdeal.Gen Cert.TreeCell

/-! ## Pointwise -/

/-- The vector tanh at an index is the extended reals' tanh of the element. -/
theorem tanh_apply {s : Shape} {φ : FTy} (a : FVec Ideal s φ) (i : s.Idx) : tanh a i = th (a i) := rfl

/-- The vector logistic function at an index is the extended reals' logistic function of the element. -/
theorem logistic_apply {s : Shape} {φ : FTy} (a : FVec Ideal s φ) (i : s.Idx) : logistic a i = sg (a i) := rfl

/-! ## A bias row -/

/-- A row [1,512] re-laid as [512] and back reads, at (u, j), the row at column j. -/
theorem relaid_apply (b : Vec Ideal S1x512 .f32) (h1 : S1x512.ShapeCasts S512) (h2 : S512.ShapeCasts S1x512)
    (u : Fin 1) (j : Fin 512) :
    shapeCast S1x512 (shapeCast S512 b h1) h2 (ix2 u j) = b (ix2 (0 : Fin 1) j) :=
  (shapeCast_a_1a_apply _ h2 u j).trans (shapeCast_1a_a_apply b h1 j)

/-- A row [1,512] repeated over 512 rows reads, at (p, j), the row at column j. -/
theorem rows_apply (b : FVec Ideal S1x512 .f32) (h3 : S1x512.Broadcasts S512x512) (p j : Fin 512) :
    broadcastTo S512x512 b h3 (ix2 p j) = b (ix2 (0 : Fin 1) j) :=
  broadcastTo_1b_ab_apply b h3 p j

/-- The whole bias path: re-laid twice, then repeated over the rows. -/
theorem bias_apply (b : Vec Ideal S1x512 .f32) (h1 : S1x512.ShapeCasts S512) (h2 : S512.ShapeCasts S1x512)
    (h3 : S1x512.Broadcasts S512x512) (p j : Fin 512) :
    broadcastTo S512x512 (shapeCast S1x512 (shapeCast S512 b h1) h2) h3 (ix2 p j) = b (ix2 (0 : Fin 1) j) :=
  (rows_apply _ h3 p j).trans (relaid_apply b h1 h2 0 j)

/-! ## A matrix product -/

/-- A product of an [M,K] block with a [K,N] block over the one shared axis, accumulated into zero, is at (p, j)
    the sum over k of the left block at (p, k) times the right block at (k, j): the contraction index is its one
    coordinate, and the operand indices read the output index off the contracting axis. -/
theorem plain_matmul_apply {M K N : Nat} (D : DotDims ⟨2, ![M, K]⟩ ⟨2, ![K, N]⟩ ⟨2, ![M, N]⟩)
    (hr : D.contr.rank = 1) (hs : D.contr.size ⟨0, by omega⟩ = K)
    (hlc : D.lhsContracting = [1]) (hrc : D.rhsContracting = [0])
    (hl0 : ∀ (i : (⟨2, ![M, N]⟩ : Shape).Idx) (q : D.contr.Idx), (D.lhsIdx i q 0).val = (i 0).val)
    (hr1 : ∀ (i : (⟨2, ![M, N]⟩ : Shape).Idx) (q : D.contr.Idx), (D.rhsIdx i q 1).val = (i 1).val)
    {φ₁ φ₂ : FTy} (a : FVec Ideal ⟨2, ![M, K]⟩ φ₁) (b : FVec Ideal ⟨2, ![K, N]⟩ φ₂) (p : Fin M) (j : Fin N) :
    matmul (F := Ideal) D none a b (constant (F := Ideal) ⟨2, ![M, N]⟩ .f32 0x00000000#32) (ix2 p j)
      = ∑ k : Fin K, a (ix2 p k) * b (ix2 k j) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun c => Fin.ext (by
    match c with
    | ⟨0, _⟩ => exact hl0 _ _
    | ⟨1, _⟩ => exact (D.lhsIdx_val_of_single hlc _ _).trans hk)
  have er : D.rhsIdx (ix2 p j) ((contrEquiv1 D K hr hs).symm k) = ix2 k j := funext fun c => Fin.ext (by
    match c with
    | ⟨0, _⟩ => exact (D.rhsIdx_val_of_single hrc _ _).trans hk
    | ⟨1, _⟩ => exact hr1 _ _)
  rw [el, er]

/-- The input layer's product: a [512,400] block against gate slab [1,400,512]. -/
theorem mm400_apply (a : FVec Ideal S512x400 .bf16) (w : Vec Ideal S1x400x512 .bf16)
    (hw : S1x400x512.ShapeCasts S400x512) (p j : Fin 512) :
    matmul (F := Ideal) dot_S512x400_S400x512_S512x512_1_0_0_1_n_n none a (shapeCast S400x512 w hw : FVec Ideal S400x512 .bf16)
        (constant (F := Ideal) S512x512 .f32 0x00000000#32) (ix2 p j)
      = ∑ k : Fin 400, a (ix2 p k) * w (ix3 (0 : Fin 1) k j) := by
  refine (plain_matmul_apply dot_S512x400_S400x512_S512x512_1_0_0_1_n_n rfl rfl rfl rfl (fun i q => ?_) (fun i q => ?_)
    a _ p j).trans (Finset.sum_congr rfl fun k _ => congrArg (a (ix2 p k) * ·) (shapeCast_1ab_ab_apply w hw k j))
  · unfold DotDims.lhsIdx
    rw [dif_neg (show ¬(0 : Fin S512x400.rank) ∈ dot_S512x400_S400x512_S512x512_1_0_0_1_n_n.lhsBatch by decide),
      dif_pos (show (0 : Fin S512x400.rank) ∈ dot_S512x400_S400x512_S512x512_1_0_0_1_n_n.lhsNonContracting by decide)]
    rfl
  · unfold DotDims.rhsIdx
    rw [dif_neg (show ¬(1 : Fin S400x512.rank) ∈ dot_S512x400_S400x512_S512x512_1_0_0_1_n_n.rhsBatch by decide),
      dif_pos (show (1 : Fin S400x512.rank) ∈ dot_S512x400_S400x512_S512x512_1_0_0_1_n_n.rhsNonContracting by decide)]
    rfl

/-- A hidden layer's product: a [512,512] block against gate slab [1,512,512]. -/
theorem mm512_apply (a : FVec Ideal S512x512 .bf16) (w : Vec Ideal S1x512x512 .bf16)
    (hw : S1x512x512.ShapeCasts S512x512) (p j : Fin 512) :
    matmul (F := Ideal) dot_S512x512_S512x512_S512x512_1_0_0_1_n_n none a (shapeCast S512x512 w hw : FVec Ideal S512x512 .bf16)
        (constant (F := Ideal) S512x512 .f32 0x00000000#32) (ix2 p j)
      = ∑ k : Fin 512, a (ix2 p k) * w (ix3 (0 : Fin 1) k j) := by
  refine (plain_matmul_apply dot_S512x512_S512x512_S512x512_1_0_0_1_n_n rfl rfl rfl rfl (fun i q => ?_) (fun i q => ?_)
    a _ p j).trans (Finset.sum_congr rfl fun k _ => congrArg (a (ix2 p k) * ·) (shapeCast_1ab_ab_apply w hw k j))
  · unfold DotDims.lhsIdx
    rw [dif_neg (show ¬(0 : Fin S512x512.rank) ∈ dot_S512x512_S512x512_S512x512_1_0_0_1_n_n.lhsBatch by decide),
      dif_pos (show (0 : Fin S512x512.rank) ∈ dot_S512x512_S512x512_S512x512_1_0_0_1_n_n.lhsNonContracting by decide)]
    rfl
  · unfold DotDims.rhsIdx
    rw [dif_neg (show ¬(1 : Fin S512x512.rank) ∈ dot_S512x512_S512x512_S512x512_1_0_0_1_n_n.rhsBatch by decide),
      dif_pos (show (1 : Fin S512x512.rank) ∈ dot_S512x512_S512x512_S512x512_1_0_0_1_n_n.rhsNonContracting by decide)]
    rfl

/-- The recurrent product: a [512,1024] block against gate slab [1,1024,512]. -/
theorem mm1024_apply (a : FVec Ideal S512x1024 .bf16) (w : Vec Ideal S1x1024x512 .bf16)
    (hw : S1x1024x512.ShapeCasts S1024x512) (p j : Fin 512) :
    matmul (F := Ideal) dot_S512x1024_S1024x512_S512x512_1_0_0_1_n_n none a (shapeCast S1024x512 w hw : FVec Ideal S1024x512 .bf16)
        (constant (F := Ideal) S512x512 .f32 0x00000000#32) (ix2 p j)
      = ∑ k : Fin 1024, a (ix2 p k) * w (ix3 (0 : Fin 1) k j) := by
  refine (plain_matmul_apply dot_S512x1024_S1024x512_S512x512_1_0_0_1_n_n rfl rfl rfl rfl (fun i q => ?_) (fun i q => ?_)
    a _ p j).trans (Finset.sum_congr rfl fun k _ => congrArg (a (ix2 p k) * ·) (shapeCast_1ab_ab_apply w hw k j))
  · unfold DotDims.lhsIdx
    rw [dif_neg (show ¬(0 : Fin S512x1024.rank) ∈ dot_S512x1024_S1024x512_S512x512_1_0_0_1_n_n.lhsBatch by decide),
      dif_pos (show (0 : Fin S512x1024.rank) ∈ dot_S512x1024_S1024x512_S512x512_1_0_0_1_n_n.lhsNonContracting by decide)]
    rfl
  · unfold DotDims.rhsIdx
    rw [dif_neg (show ¬(1 : Fin S1024x512.rank) ∈ dot_S512x1024_S1024x512_S512x512_1_0_0_1_n_n.rhsBatch by decide),
      dif_pos (show (1 : Fin S1024x512.rank) ∈ dot_S512x1024_S1024x512_S512x512_1_0_0_1_n_n.rhsNonContracting by decide)]
    rfl

end Cert.KernelIdeal.BodyValue

end
-- ==== Proof.KValueLayers.lean ====
/-
  The cell's layers read at one index, at the ideal instance: a dense layer (a matrix product plus a bias row) on a
  block whose row p is known is the row-wise dense layer of the specification, and the recurrent projection added to
  a block and to its bias row is the sum the specification writes.
-/
import proofs.«104428_j38689065402503_2_alg».proof.Proof.KValueOps

noncomputable section

namespace Cert.KernelIdeal.BodyValue

open Idealize.ShloMosaic Idealize.ShloMosaic.ValueIdx Cert.KernelIdeal Cert.KernelIdeal.Gen Cert.TreeCell

/-- One gate's slab [1,K,512] as a K × 512 matrix. -/
abbrev mat {K : Nat} (w : Vec Ideal ⟨3, ![1, K, 512]⟩ .bf16) : Fin K → Fin 512 → EReal :=
  fun k j => w (ix3 (0 : Fin 1) k j)

/-- One bias row [1,512] as a row of 512 entries. -/
abbrev row (b : Vec Ideal S1x512 .f32) : Fin 512 → EReal := fun j => b (ix2 (0 : Fin 1) j)

/-- The first layer of a row: tanh of the dense layer. -/
abbrev lay1 (x : Fin 400 → EReal) (wc : Vec Ideal S1x400x512 .bf16) (b0 : Vec Ideal S1x512 .f32) : Fin 512 → EReal :=
  fun h => th (dense x (mat wc) (row b0) h)

/-- The second layer of a row: tanh of the dense layer of the first. -/
abbrev lay2 (x : Fin 400 → EReal) (wc : Vec Ideal S1x400x512 .bf16) (b0 : Vec Ideal S1x512 .f32)
    (wh : Vec Ideal S1x512x512 .bf16) (b1 : Vec Ideal S1x512 .f32) : Fin 512 → EReal :=
  fun h => th (dense (lay1 x wc b0) (mat wh) (row b1) h)

/-- The input layer before its tanh, on a block whose row p is `r`. -/
theorem dense400_apply (a : FVec Ideal S512x400 .bf16) (w : Vec Ideal S1x400x512 .bf16) (b : Vec Ideal S1x512 .f32)
    (hw : S1x400x512.ShapeCasts S400x512) (h1 : S1x512.ShapeCasts S512) (h2 : S512.ShapeCasts S1x512)
    (h3 : S1x512.Broadcasts S512x512) (p : Fin 512) (r : Fin 400 → EReal) (ha : ∀ k, a (ix2 p k) = r k) (j : Fin 512) :
    addf (matmul (F := Ideal) dot_S512x400_S400x512_S512x512_1_0_0_1_n_n none a
          (shapeCast S400x512 w hw : FVec Ideal S400x512 .bf16) (constant (F := Ideal) S512x512 .f32 0x00000000#32))
        (broadcastTo S512x512 (shapeCast S1x512 (shapeCast S512 b h1) h2) h3) (ix2 p j)
      = dense r (mat w) (row b) j :=
  (addf_apply _ _ _).trans (congrArg₂ (· + ·)
    ((mm400_apply a w hw p j).trans (Finset.sum_congr rfl fun k _ => congrArg (· * w (ix3 (0 : Fin 1) k j)) (ha k)))
    (bias_apply b h1 h2 h3 p j))

/-- A hidden layer before its tanh, on a block whose row p is `r`. -/
theorem dense512_apply (a : FVec Ideal S512x512 .bf16) (w : Vec Ideal S1x512x512 .bf16) (b : Vec Ideal S1x512 .f32)
    (hw : S1x512x512.ShapeCasts S512x512) (h1 : S1x512.ShapeCasts S512) (h2 : S512.ShapeCasts S1x512)
    (h3 : S1x512.Broadcasts S512x512) (p : Fin 512) (r : Fin 512 → EReal) (ha : ∀ k, a (ix2 p k) = r k) (j : Fin 512) :
    addf (matmul (F := Ideal) dot_S512x512_S512x512_S512x512_1_0_0_1_n_n none a
          (shapeCast S512x512 w hw : FVec Ideal S512x512 .bf16) (constant (F := Ideal) S512x512 .f32 0x00000000#32))
        (broadcastTo S512x512 (shapeCast S1x512 (shapeCast S512 b h1) h2) h3) (ix2 p j)
      = dense r (mat w) (row b) j :=
  (addf_apply _ _ _).trans (congrArg₂ (· + ·)
    ((mm512_apply a w hw p j).trans (Finset.sum_congr rfl fun k _ => congrArg (· * w (ix3 (0 : Fin 1) k j)) (ha k)))
    (bias_apply b h1 h2 h3 p j))

/-- A hidden layer's product alone, on a block whose row p is `r`. -/
theorem prod512_apply (a : FVec Ideal S512x512 .bf16) (w : Vec Ideal S1x512x512 .bf16)
    (hw : S1x512x512.ShapeCasts S512x512) (p : Fin 512) (r : Fin 512 → EReal) (ha : ∀ k, a (ix2 p k) = r k) (j : Fin 512) :
    matmul (F := Ideal) dot_S512x512_S512x512_S512x512_1_0_0_1_n_n none a
        (shapeCast S512x512 w hw : FVec Ideal S512x512 .bf16) (constant (F := Ideal) S512x512 .f32 0x00000000#32) (ix2 p j)
      = ∑ k : Fin 512, r k * mat w k j :=
  (mm512_apply a w hw p j).trans (Finset.sum_congr rfl fun k _ => congrArg (· * w (ix3 (0 : Fin 1) k j)) (ha k))

/-- The recurrent projection of a block whose row p is `r`, added to a block `t` and then to its bias row. -/
theorem rec_apply (t : FVec Ideal S512x512 .f32) (a : FVec Ideal S512x1024 .bf16) (w : Vec Ideal S1x1024x512 .bf16)
    (b : Vec Ideal S1x512 .f32) (hw : S1x1024x512.ShapeCasts S1024x512) (h1 : S1x512.ShapeCasts S512)
    (h2 : S512.ShapeCasts S1x512) (h3 : S1x512.Broadcasts S512x512) (p : Fin 512) (r : Fin 1024 → EReal)
    (ha : ∀ k, a (ix2 p k) = r k) (j : Fin 512) :
    addf (addf t (matmul (F := Ideal) dot_S512x1024_S1024x512_S512x512_1_0_0_1_n_n none a
          (shapeCast S1024x512 w hw : FVec Ideal S1024x512 .bf16) (constant (F := Ideal) S512x512 .f32 0x00000000#32)))
        (broadcastTo S512x512 (shapeCast S1x512 (shapeCast S512 b h1) h2) h3) (ix2 p j)
      = (t (ix2 p j) + ∑ k : Fin 1024, r k * mat w k j) + row b j :=
  (addf_apply _ _ _).trans (congrArg₂ (· + ·)
    ((addf_apply _ _ _).trans (congrArg (t (ix2 p j) + ·)
      ((mm1024_apply a w hw p j).trans (Finset.sum_congr rfl fun k _ => congrArg (· * w (ix3 (0 : Fin 1) k j)) (ha k)))))
    (bias_apply b h1 h2 h3 p j))

end Cert.KernelIdeal.BodyValue

end
-- ==== Proof.KValuePayA.lean ====
/-
  The body's named values of gates 0, 1 and 2 (up to the third product of gate 2) read at row p and column j, at the
  ideal instance. Each is unfolded once and read layer by layer: the narrowing casts are the identity, a dense
  layer on a block whose row is known is the specification's dense layer of that row, and the recurrent projection
  is the specification's sum. A block that enters only through its row p enters as a hypothesis on that row.
-/
import proofs.«104428_j38689065402503_2_alg».proof.Proof.Gen.KernelIdeal.Skeleton
import proofs.«104428_j38689065402503_2_alg».proof.Proof.KValueLayers

noncomputable section

namespace Cert.KernelIdeal.BodyValue

open Idealize.ShloMosaic Idealize.ShloMosaic.ValueIdx Cert.KernelIdeal Cert.KernelIdeal.Gen Cert.TreeCell

/-- The input block narrowed for the matrix unit is the input block. -/
theorem pay3_apply (x : Vec Ideal S512x400 .f32) (p : Fin 512) (k : Fin 400) : k0_pay3 x (ix2 p k) = x (ix2 p k) := by
  unfold k0_pay3
  exact (truncf_apply (φ := .f32) (ψ := .bf16) _ _ _).trans (congrFun (shapeCast_self x _) _)

/-- The recurrent block narrowed for the matrix unit is the recurrent block. -/
theorem pay4_apply (x : Vec Ideal S512x1024 .f32) (p : Fin 512) (k : Fin 1024) : k0_pay4 x (ix2 p k) = x (ix2 p k) := by
  unfold k0_pay4
  exact (truncf_apply (φ := .f32) (ψ := .bf16) _ _ _).trans (congrFun (shapeCast_self x _) _)

/-- Gate 0's three layers with their tanh. -/
theorem pay5_apply (x : Vec Ideal S512x400 .f32) (wc : Vec Ideal S1x400x512 .bf16) (b0 : Vec Ideal S1x512 .f32)
    (wh : Vec Ideal S1x512x512 .bf16) (b1 : Vec Ideal S1x512 .f32) (wl : Vec Ideal S1x512x512 .bf16)
    (b2 : Vec Ideal S1x512 .f32) (p j : Fin 512) :
    k0_pay5 x wc b0 wh b1 wl b2 (ix2 p j)
      = th (dense (lay2 (fun k => x (ix2 p k)) wc b0 wh b1) (mat wl) (row b2) j) := by
  unfold k0_pay5
  refine (tanh_apply _ _).trans (congrArg th ?_)
  refine dense512_apply _ wl b2 _ _ _ _ p _ (fun h => ?_) j
  refine (truncf_apply (φ := .f32) (ψ := .bf16) _ _ _).trans ((tanh_apply _ _).trans (congrArg th ?_))
  refine dense512_apply _ wh b1 _ _ _ _ p _ (fun h' => ?_) h
  refine (truncf_apply (φ := .f32) (ψ := .bf16) _ _ _).trans ((tanh_apply _ _).trans (congrArg th ?_))
  exact dense400_apply _ wc b0 _ _ _ _ p _ (fun k => pay3_apply x p k) h'

/-- Gate 0's gate value: the logistic function of the third layer plus the recurrent projection plus its bias. -/
theorem pay6_apply (khb : FVec Ideal S512x1024 .bf16) (m : FVec Ideal S512x512 .f32) (wk : Vec Ideal S1x1024x512 .bf16)
    (b3 : Vec Ideal S1x512 .f32) (p : Fin 512) (kh : Fin 1024 → EReal) (hkh : ∀ k, khb (ix2 p k) = kh k) (j : Fin 512) :
    k0_pay6 khb m wk b3 (ix2 p j) = sg ((m (ix2 p j) + ∑ k : Fin 1024, kh k * mat wk k j) + row b3 j) := by
  unfold k0_pay6
  exact (logistic_apply _ _).trans (congrArg sg (rec_apply m khb wk b3 _ _ _ _ p kh hkh j))

/-- Gate 1's third layer before its tanh. -/
theorem pay7_apply (xb : FVec Ideal S512x400 .bf16) (wc : Vec Ideal S1x400x512 .bf16) (b0 : Vec Ideal S1x512 .f32)
    (wh : Vec Ideal S1x512x512 .bf16) (b1 : Vec Ideal S1x512 .f32) (wl : Vec Ideal S1x512x512 .bf16)
    (b2 : Vec Ideal S1x512 .f32) (p : Fin 512) (x : Fin 400 → EReal) (hx : ∀ k, xb (ix2 p k) = x k) (j : Fin 512) :
    k0_pay7 xb wc b0 wh b1 wl b2 (ix2 p j) = dense (lay2 x wc b0 wh b1) (mat wl) (row b2) j := by
  unfold k0_pay7
  refine dense512_apply _ wl b2 _ _ _ _ p _ (fun h => ?_) j
  refine (truncf_apply (φ := .f32) (ψ := .bf16) _ _ _).trans ((tanh_apply _ _).trans (congrArg th ?_))
  refine dense512_apply _ wh b1 _ _ _ _ p _ (fun h' => ?_) h
  refine (truncf_apply (φ := .f32) (ψ := .bf16) _ _ _).trans ((tanh_apply _ _).trans (congrArg th ?_))
  exact dense400_apply _ wc b0 _ _ _ _ p x hx h'

/-- Gate 1's gate value times q. -/
theorem pay8_apply (khb : FVec Ideal S512x1024 .bf16) (m : FVec Ideal S512x512 .f32) (wk : Vec Ideal S1x1024x512 .bf16)
    (b3 : Vec Ideal S1x512 .f32) (q : Vec Ideal S512x512 .f32) (p : Fin 512) (kh : Fin 1024 → EReal)
    (hkh : ∀ k, khb (ix2 p k) = kh k) (j : Fin 512) :
    k0_pay8 khb m wk b3 q (ix2 p j)
      = sg ((th (m (ix2 p j)) + ∑ k : Fin 1024, kh k * mat wk k j) + row b3 j) * q (ix2 p j) := by
  unfold k0_pay8
  refine (mulf_apply _ _ _).trans (congrArg (· * q (ix2 p j)) ?_)
  exact (logistic_apply _ _).trans (congrArg sg (rec_apply (tanh m) khb wk b3 _ _ _ _ p kh hkh j))

/-- Gate 2's third product, before its bias. -/
theorem pay9_apply (xb : FVec Ideal S512x400 .bf16) (wc : Vec Ideal S1x400x512 .bf16) (b0 : Vec Ideal S1x512 .f32)
    (wh : Vec Ideal S1x512x512 .bf16) (b1 : Vec Ideal S1x512 .f32) (wl : Vec Ideal S1x512x512 .bf16)
    (p : Fin 512) (x : Fin 400 → EReal) (hx : ∀ k, xb (ix2 p k) = x k) (j : Fin 512) :
    k0_pay9 xb wc b0 wh b1 wl (ix2 p j) = ∑ k : Fin 512, lay2 x wc b0 wh b1 k * mat wl k j := by
  unfold k0_pay9
  refine prod512_apply _ wl _ p _ (fun h => ?_) j
  refine (truncf_apply (φ := .f32) (ψ := .bf16) _ _ _).trans ((tanh_apply _ _).trans (congrArg th ?_))
  refine dense512_apply _ wh b1 _ _ _ _ p _ (fun h' => ?_) h
  refine (truncf_apply (φ := .f32) (ψ := .bf16) _ _ _).trans ((tanh_apply _ _).trans (congrArg th ?_))
  exact dense400_apply _ wc b0 _ _ _ _ p x hx h'

end Cert.KernelIdeal.BodyValue

end
-- ==== Proof.KValuePayB.lean ====
/-
  The body's named values from gate 2's gate value on (gates 2, 3, 4 and the two stored blocks) read at row p and
  column j, at the ideal instance, in the same way: unfolded once, read layer by layer.
-/
import proofs.«104428_j38689065402503_2_alg».proof.Proof.Gen.KernelIdeal.Skeleton
import proofs.«104428_j38689065402503_2_alg».proof.Proof.KValueLayers

noncomputable section

namespace Cert.KernelIdeal.BodyValue

open Idealize.ShloMosaic Idealize.ShloMosaic.ValueIdx Cert.KernelIdeal Cert.KernelIdeal.Gen Cert.TreeCell

/-- The accumulated cell state after gate 2: f_down · q plus gate 2's gate value times c_prev. -/
theorem pay10_apply (khb : FVec Ideal S512x1024 .bf16) (fq m : FVec Ideal S512x512 .f32) (b2 : Vec Ideal S1x512 .f32)
    (wk : Vec Ideal S1x1024x512 .bf16) (b3 : Vec Ideal S1x512 .f32) (cp : Vec Ideal S512x512 .f32) (p : Fin 512)
    (kh : Fin 1024 → EReal) (hkh : ∀ k, khb (ix2 p k) = kh k) (j : Fin 512) :
    k0_pay10 khb fq m b2 wk b3 cp (ix2 p j)
      = fq (ix2 p j)
        + sg ((th (m (ix2 p j) + row b2 j) + ∑ k : Fin 1024, kh k * mat wk k j) + row b3 j) * cp (ix2 p j) := by
  unfold k0_pay10
  refine (addf_apply _ _ _).trans (congrArg (fq (ix2 p j) + ·) ?_)
  refine (mulf_apply _ _ _).trans (congrArg (· * cp (ix2 p j)) ?_)
  refine (logistic_apply _ _).trans (congrArg sg ?_)
  refine (rec_apply _ khb wk b3 _ _ _ _ p kh hkh j).trans ?_
  refine congrArg (fun t => (t + ∑ k : Fin 1024, kh k * mat wk k j) + row b3 j) ?_
  refine (tanh_apply _ _).trans (congrArg th ?_)
  exact (addf_apply _ _ _).trans (congrArg (m (ix2 p j) + ·) (bias_apply b2 _ _ _ p j))

/-- Gate 3's second layer with its tanh. -/
theorem pay11_apply (xb : FVec Ideal S512x400 .bf16) (wc : Vec Ideal S1x400x512 .bf16) (b0 : Vec Ideal S1x512 .f32)
    (wh : Vec Ideal S1x512x512 .bf16) (b1 : Vec Ideal S1x512 .f32) (p : Fin 512) (x : Fin 400 → EReal)
    (hx : ∀ k, xb (ix2 p k) = x k) (j : Fin 512) :
    k0_pay11 xb wc b0 wh b1 (ix2 p j) = lay2 x wc b0 wh b1 j := by
  unfold k0_pay11
  refine (tanh_apply _ _).trans (congrArg th ?_)
  refine dense512_apply _ wh b1 _ _ _ _ p _ (fun h' => ?_) j
  refine (truncf_apply (φ := .f32) (ψ := .bf16) _ _ _).trans ((tanh_apply _ _).trans (congrArg th ?_))
  exact dense400_apply _ wc b0 _ _ _ _ p x hx h'

/-- Gate 3's gate value, from a block `m` whose row p is the second layer. -/
theorem pay12_apply (khb : FVec Ideal S512x1024 .bf16) (m : FVec Ideal S512x512 .f32) (wl : Vec Ideal S1x512x512 .bf16)
    (b2 : Vec Ideal S1x512 .f32) (wk : Vec Ideal S1x1024x512 .bf16) (b3 : Vec Ideal S1x512 .f32) (p : Fin 512)
    (kh : Fin 1024 → EReal) (hkh : ∀ k, khb (ix2 p k) = kh k) (r : Fin 512 → EReal) (hm : ∀ k, m (ix2 p k) = r k)
    (j : Fin 512) :
    k0_pay12 khb m wl b2 wk b3 (ix2 p j)
      = sg ((th (dense r (mat wl) (row b2) j) + ∑ k : Fin 1024, kh k * mat wk k j) + row b3 j) := by
  unfold k0_pay12
  refine (logistic_apply _ _).trans (congrArg sg ?_)
  refine (rec_apply _ khb wk b3 _ _ _ _ p kh hkh j).trans ?_
  refine congrArg (fun t => (t + ∑ k : Fin 1024, kh k * mat wk k j) + row b3 j) ?_
  refine (tanh_apply _ _).trans (congrArg th ?_)
  exact dense512_apply _ wl b2 _ _ _ _ p r (fun k => (truncf_apply (φ := .f32) (ψ := .bf16) _ _ _).trans (hm k)) j

/-- Gate 4's second product, before its bias. -/
theorem pay13_apply (xb : FVec Ideal S512x400 .bf16) (wc : Vec Ideal S1x400x512 .bf16) (b0 : Vec Ideal S1x512 .f32)
    (wh : Vec Ideal S1x512x512 .bf16) (p : Fin 512) (x : Fin 400 → EReal) (hx : ∀ k, xb (ix2 p k) = x k) (j : Fin 512) :
    k0_pay13 xb wc b0 wh (ix2 p j) = ∑ k : Fin 512, lay1 x wc b0 k * mat wh k j := by
  unfold k0_pay13
  refine prod512_apply _ wh _ p _ (fun h' => ?_) j
  refine (truncf_apply (φ := .f32) (ψ := .bf16) _ _ _).trans ((tanh_apply _ _).trans (congrArg th ?_))
  exact dense400_apply _ wc b0 _ _ _ _ p x hx h'

/-- Gate 4's second bias row, re-laid. -/
theorem pay14_apply (b1 : Vec Ideal S1x512 .f32) (u : Fin 1) (j : Fin 512) : k0_pay14 b1 (ix2 u j) = row b1 j := by
  unfold k0_pay14
  exact relaid_apply b1 _ _ u j

/-- The stored cell state: the accumulated state plus i times gate 4's tanh, from a block `m` and a bias row
    `bb` whose sum's row p is the second layer before its tanh. -/
theorem pay1_apply (khb : FVec Ideal S512x1024 .bf16) (gi cacc m : FVec Ideal S512x512 .f32) (bb : FVec Ideal S1x512 .f32)
    (wl : Vec Ideal S1x512x512 .bf16) (b2 : Vec Ideal S1x512 .f32) (wk : Vec Ideal S1x1024x512 .bf16)
    (b3 : Vec Ideal S1x512 .f32) (p : Fin 512) (kh : Fin 1024 → EReal) (hkh : ∀ k, khb (ix2 p k) = kh k)
    (r : Fin 512 → EReal) (hm : ∀ k, th (m (ix2 p k) + bb (ix2 (0 : Fin 1) k)) = r k) (j : Fin 512) :
    k0_pay1 khb gi cacc m bb wl b2 wk b3 (ix2 p j)
      = cacc (ix2 p j)
        + gi (ix2 p j) * th ((th (dense r (mat wl) (row b2) j) + ∑ k : Fin 1024, kh k * mat wk k j) + row b3 j) := by
  unfold k0_pay1
  refine (addf_apply _ _ _).trans (congrArg (cacc (ix2 p j) + ·) ?_)
  refine (mulf_apply _ _ _).trans (congrArg (gi (ix2 p j) * ·) ?_)
  refine (tanh_apply _ _).trans (congrArg th ?_)
  refine (rec_apply _ khb wk b3 _ _ _ _ p kh hkh j).trans ?_
  refine congrArg (fun t => (t + ∑ k : Fin 1024, kh k * mat wk k j) + row b3 j) ?_
  refine (tanh_apply _ _).trans (congrArg th ?_)
  refine dense512_apply _ wl b2 _ _ _ _ p r (fun k => ?_) j
  refine (truncf_apply (φ := .f32) (ψ := .bf16) _ _ _).trans ((tanh_apply _ _).trans ((congrArg th ?_).trans (hm k)))
  exact (addf_apply _ _ _).trans (congrArg (m (ix2 p k) + ·) (rows_apply bb _ p k))

/-- The stored hidden state: o times the tanh of the stored cell state. -/
theorem pay2_apply (khb : FVec Ideal S512x1024 .bf16) (gi cacc go m : FVec Ideal S512x512 .f32) (bb : FVec Ideal S1x512 .f32)
    (wl : Vec Ideal S1x512x512 .bf16) (b2 : Vec Ideal S1x512 .f32) (wk : Vec Ideal S1x1024x512 .bf16)
    (b3 : Vec Ideal S1x512 .f32) (i : S512x512.Idx) :
    k0_pay2 khb gi cacc go m bb wl b2 wk b3 i = go i * th (k0_pay1 khb gi cacc m bb wl b2 wk b3 i) := by
  unfold k0_pay2
  exact (mulf_apply _ _ _).trans (congrArg (go i * ·) (tanh_apply _ _))

end Cert.KernelIdeal.BodyValue

end
-- ==== Proof.KValue.lean ====
/-
  The two blocks the cell's body stores, read at row p and column j at the ideal instance: the stored cell state is
  the specification's new cell state of row p, and the stored hidden state its new hidden state, over the weights
  the body loaded (gate g's slab of each matrix as a matrix, gate g's row of each bias array as a row).

  Gate by gate the body's named values are read with the layer readings, each gate's pre-activation is recognised as
  the specification's, and the five are combined as the body combines them:
  (f_down · q + f_left · c_prev) + i · u and o · tanh c. Nothing here needs an entry to be finite.
-/
import proofs.«104428_j38689065402503_2_alg».proof.Proof.KBodyIdeal
import proofs.«104428_j38689065402503_2_alg».proof.Proof.KValuePayA
import proofs.«104428_j38689065402503_2_alg».proof.Proof.KValuePayB

noncomputable section

namespace Cert.KernelIdeal.BodyValue

open Idealize.ShloMosaic Idealize.ShloMosaic.ValueIdx Cert.KernelIdeal Cert.KernelIdeal.Gen Cert.KernelIdeal.Body
  Cert.TreeCell

/-- The specification's weights made from what the body loads: gate g's slab of each matrix read as a matrix, gate
    g's row of each bias array read as a row (the leading coordinate of a slab or a row is the unit one). -/
def opW (L : Loads Ideal) : OpWeights :=
  { wcat := fun g k j => L.wc g (ix3 (0 : Fin 1) k j)
    whid := fun g k j => L.wh g (ix3 (0 : Fin 1) k j)
    wlast := fun g k j => L.wl g (ix3 (0 : Fin 1) k j)
    whpk := fun g k j => L.wk g (ix3 (0 : Fin 1) k j)
    bin := fun g j => L.b0 g (ix2 (0 : Fin 1) j)
    bhid := fun g j => L.b1 g (ix2 (0 : Fin 1) j)
    blast := fun g j => L.b2 g (ix2 (0 : Fin 1) j)
    bhpk := fun g j => L.b3 g (ix2 (0 : Fin 1) j) }

variable (L : Loads Ideal) (p : Fin 512)

/-- Row p of the input block. -/
abbrev xrow : Fin 400 → EReal := fun k => L.x (ix2 p k)
/-- Row p of the recurrent block. -/
abbrev khrow : Fin 1024 → EReal := fun k => L.kh (ix2 p k)

/-- Row p of the narrowed input block is row p of the input block. -/
theorem xb_row (k : Fin 400) : xb L (ix2 p k) = xrow L p k := pay3_apply L.x p k
/-- Row p of the narrowed recurrent block is row p of the recurrent block. -/
theorem khb_row (k : Fin 1024) : khb L (ix2 p k) = khrow L p k := pay4_apply L.kh p k

/-- The input gate i is the logistic function of gate 0's pre-activation. -/
theorem gI_apply (j : Fin 512) : gI L (ix2 p j) = sg (opPre (opW L) (xrow L p) (khrow L p) 0 j) := by
  unfold gI m0
  rw [pay6_apply _ _ _ _ p (khrow L p) (khb_row L p) j, pay5_apply]
  rfl

/-- f_down · q, with f_down the logistic function of gate 1's pre-activation. -/
theorem fq_apply (j : Fin 512) :
    fq L (ix2 p j) = sg (opPre (opW L) (xrow L p) (khrow L p) 1 j) * L.q (ix2 p j) := by
  unfold fq m1
  rw [pay8_apply _ _ _ _ _ p (khrow L p) (khb_row L p) j, pay7_apply _ _ _ _ _ _ _ p (xrow L p) (xb_row L p) j]
  rfl

/-- f_down · q + f_left · c_prev, with f_left the logistic function of gate 2's pre-activation. -/
theorem cAcc_apply (j : Fin 512) :
    cAcc L (ix2 p j)
      = sg (opPre (opW L) (xrow L p) (khrow L p) 1 j) * L.q (ix2 p j)
        + sg (opPre (opW L) (xrow L p) (khrow L p) 2 j) * L.cp (ix2 p j) := by
  unfold cAcc m2
  rw [pay10_apply _ _ _ _ _ _ _ p (khrow L p) (khb_row L p) j, fq_apply,
    pay9_apply _ _ _ _ _ _ p (xrow L p) (xb_row L p) j]
  rfl

/-- Row p of gate 3's second layer. -/
theorem m3_row (k : Fin 512) : m3 L (ix2 p k) = lay2 (xrow L p) (L.wc 3) (L.b0 3) (L.wh 3) (L.b1 3) k := by
  unfold m3
  exact pay11_apply _ _ _ _ _ p (xrow L p) (xb_row L p) k

/-- The output gate o is the logistic function of gate 3's pre-activation. -/
theorem gO_apply (j : Fin 512) : gO L (ix2 p j) = sg (opPre (opW L) (xrow L p) (khrow L p) 3 j) := by
  unfold gO
  rw [pay12_apply _ _ _ _ _ _ p (khrow L p) (khb_row L p) _ (m3_row L p) j]
  rfl

/-- Row p of gate 4's second layer: the second product plus its re-laid bias row, then tanh. -/
theorem m4_row (k : Fin 512) :
    th (m4 L (ix2 p k) + b14 L (ix2 (0 : Fin 1) k)) = lay2 (xrow L p) (L.wc 4) (L.b0 4) (L.wh 4) (L.b1 4) k := by
  unfold m4 b14
  rw [pay13_apply _ _ _ _ p (xrow L p) (xb_row L p) k, pay14_apply]
  rfl

/-- THE STORED CELL STATE at (p, j) is the specification's new cell state of row p at column j. -/
theorem valC_apply (L : Loads Ideal) (p j : Fin 512) :
    valC L (ix2 p j)
      = opC (opW L) (fun k => L.x (ix2 p k)) (fun k => L.kh (ix2 p k)) (fun j' => L.q (ix2 p j'))
          (fun j' => L.cp (ix2 p j')) j := by
  unfold valC
  rw [pay1_apply _ _ _ _ _ _ _ _ _ p (khrow L p) (khb_row L p) _ (m4_row L p) j, cAcc_apply, gI_apply]
  rfl

/-- THE STORED HIDDEN STATE at (p, j) is the specification's new hidden state of row p at column j. -/
theorem valH_apply (L : Loads Ideal) (p j : Fin 512) :
    valH L (ix2 p j)
      = opH (opW L) (fun k => L.x (ix2 p k)) (fun k => L.kh (ix2 p k)) (fun j' => L.q (ix2 p j'))
          (fun j' => L.cp (ix2 p j')) j := by
  unfold valH
  refine (pay2_apply _ _ _ _ _ _ _ _ _ _ (ix2 p j)).trans ?_
  rw [gO_apply]
  exact congrArg (fun t => sg (opPre (opW L) (xrow L p) (khrow L p) 3 j) * th t) (valC_apply L p j)

end Cert.KernelIdeal.BodyValue

end
-- ==== Proof.CellAlgebra.lean ====
/-
  The two arrangements of one row of the cell agree on every input over the extended reals.

  Only three facts about the extended reals are used: addition is commutative and associative,
  a sum over a range of length a + b is the sum over its first a entries plus the sum over its
  last b entries, and the concatenated operands restricted to each range are the separate ones.
  No product is distributed over a sum, and no entry is assumed finite.
-/
import proofs.«104428_j38689065402503_2_alg».proof.Proof.CellSpec
import Mathlib.Algebra.BigOperators.Fin
import Mathlib.Tactic.Abel

noncomputable section

namespace Cert.TreeCell

open Idealize.ShloMosaic

/-! ## Splitting a finite sum at fixed positions -/

/-- A sum over 400 = 300 + 50 + 50 entries is the sum of its three consecutive blocks. -/
theorem sum_split_400 {M : Type*} [AddCommMonoid M] (f : Fin 400 → M) :
    ∑ k : Fin 400, f k =
      ((∑ w : Fin 300, f ⟨w.val, by omega⟩) + ∑ t : Fin 50, f ⟨300 + t.val, by omega⟩)
        + ∑ r : Fin 50, f ⟨350 + r.val, by omega⟩ := by
  have h1 : ∑ k : Fin 400, f k
      = (∑ i : Fin 350, f (Fin.castAdd 50 i)) + ∑ r : Fin 50, f (Fin.natAdd 350 r) :=
    Fin.sum_univ_add (a := 350) (b := 50) f
  have h2 : ∑ i : Fin 350, f (Fin.castAdd 50 i)
      = (∑ w : Fin 300, f (Fin.castAdd 50 (Fin.castAdd 50 w)))
        + ∑ t : Fin 50, f (Fin.castAdd 50 (Fin.natAdd 300 t)) :=
    Fin.sum_univ_add (a := 300) (b := 50) (fun i => f (Fin.castAdd 50 i))
  rw [h1, h2]
  rfl

/-- A sum over 1024 = 512 + 512 entries is the sum of its two halves. -/
theorem sum_split_1024 {M : Type*} [AddCommMonoid M] (f : Fin 1024 → M) :
    ∑ k : Fin 1024, f k =
      (∑ a : Fin 512, f ⟨a.val, by omega⟩) + ∑ b : Fin 512, f ⟨512 + b.val, by omega⟩ := by
  have h1 : ∑ k : Fin 1024, f k
      = (∑ a : Fin 512, f (Fin.castAdd 512 a)) + ∑ b : Fin 512, f (Fin.natAdd 512 b) :=
    Fin.sum_univ_add (a := 512) (b := 512) f
  rw [h1]
  rfl

/-! ## The concatenated operands on each block -/

theorem catX_word (word : Fin 300 → EReal) (tag rel : Fin 50 → EReal) (w : Fin 300) (h : w.val < 400) :
    catX word tag rel ⟨w.val, h⟩ = word w := by
  unfold catX
  rw [dif_pos w.isLt]

theorem catX_tag (word : Fin 300 → EReal) (tag rel : Fin 50 → EReal) (t : Fin 50) (h : 300 + t.val < 400) :
    catX word tag rel ⟨300 + t.val, h⟩ = tag t := by
  have h1 : ¬ (300 + t.val < 300) := by omega
  have h2 : 300 + t.val < 350 := by omega
  unfold catX
  rw [dif_neg h1, dif_pos h2]
  exact congrArg tag (Fin.ext (by simp))

theorem catX_rel (word : Fin 300 → EReal) (tag rel : Fin 50 → EReal) (r : Fin 50) (h : 350 + r.val < 400) :
    catX word tag rel ⟨350 + r.val, h⟩ = rel r := by
  have h1 : ¬ (350 + r.val < 300) := by omega
  have h2 : ¬ (350 + r.val < 350) := by omega
  unfold catX
  rw [dif_neg h1, dif_neg h2]
  exact congrArg rel (Fin.ext (by simp))

theorem wcat_word (W : RefWeights) (g : Fin 5) (j : Fin 512) (w : Fin 300) (h : w.val < 400) :
    (opOfRef W).wcat g ⟨w.val, h⟩ j = W.Wword g j w := by
  unfold opOfRef
  dsimp only
  rw [dif_pos w.isLt]

theorem wcat_tag (W : RefWeights) (g : Fin 5) (j : Fin 512) (t : Fin 50) (h : 300 + t.val < 400) :
    (opOfRef W).wcat g ⟨300 + t.val, h⟩ j = W.Wtag g j t := by
  have h1 : ¬ (300 + t.val < 300) := by omega
  have h2 : 300 + t.val < 350 := by omega
  unfold opOfRef
  dsimp only
  rw [dif_neg h1, dif_pos h2]
  exact congrArg (W.Wtag g j) (Fin.ext (by simp))

theorem wcat_rel (W : RefWeights) (g : Fin 5) (j : Fin 512) (r : Fin 50) (h : 350 + r.val < 400) :
    (opOfRef W).wcat g ⟨350 + r.val, h⟩ j = W.Wrel g j r := by
  have h1 : ¬ (350 + r.val < 300) := by omega
  have h2 : ¬ (350 + r.val < 350) := by omega
  unfold opOfRef
  dsimp only
  rw [dif_neg h1, dif_neg h2]
  exact congrArg (W.Wrel g j) (Fin.ext (by simp))

theorem catKH_lo (hp kk : Fin 512 → EReal) (a : Fin 512) (h : a.val < 1024) :
    catKH hp kk ⟨a.val, h⟩ = hp a := by
  unfold catKH
  rw [dif_pos a.isLt]

theorem catKH_hi (hp kk : Fin 512 → EReal) (b : Fin 512) (h : 512 + b.val < 1024) :
    catKH hp kk ⟨512 + b.val, h⟩ = kk b := by
  have h1 : ¬ (512 + b.val < 512) := by omega
  unfold catKH
  rw [dif_neg h1]
  exact congrArg kk (Fin.ext (by simp))

theorem whpk_lo (W : RefWeights) (g : Fin 5) (j : Fin 512) (a : Fin 512) (h : a.val < 1024) :
    (opOfRef W).whpk g ⟨a.val, h⟩ j = W.Whp g j a := by
  unfold opOfRef
  dsimp only
  rw [dif_pos a.isLt]

theorem whpk_hi (W : RefWeights) (g : Fin 5) (j : Fin 512) (b : Fin 512) (h : 512 + b.val < 1024) :
    (opOfRef W).whpk g ⟨512 + b.val, h⟩ j = W.Wk g j b := by
  have h1 : ¬ (512 + b.val < 512) := by omega
  unfold opOfRef
  dsimp only
  rw [dif_neg h1]
  exact congrArg (W.Wk g j) (Fin.ext (by simp))

/-! ## Layer by layer -/

/-- The first layer: one product against the concatenated matrix is the three separate products added. -/
theorem layer0 (W : RefWeights) (word : Fin 300 → EReal) (tag rel : Fin 50 → EReal) (g : Fin 5) (j : Fin 512) :
    th (dense (catX word tag rel) ((opOfRef W).wcat g) ((opOfRef W).bin g) j) = refH0 W word tag rel g j := by
  unfold dense refH0
  rw [sum_split_400]
  simp only [catX_word, catX_tag, catX_rel, wcat_word, wcat_tag, wcat_rel]
  rfl

/-- The second layer: the same sum, the matrix read transposed. -/
theorem layer1 (W : RefWeights) (word : Fin 300 → EReal) (tag rel : Fin 50 → EReal) (g : Fin 5) (j : Fin 512) :
    th (dense (fun h' => th (dense (catX word tag rel) ((opOfRef W).wcat g) ((opOfRef W).bin g) h'))
        ((opOfRef W).whid g) ((opOfRef W).bhid g) j) = refH1 W word tag rel g j := by
  have h0 : (fun h' => th (dense (catX word tag rel) ((opOfRef W).wcat g) ((opOfRef W).bin g) h'))
      = refH0 W word tag rel g := funext (layer0 W word tag rel g)
  rw [h0]
  rfl

/-- The third layer. -/
theorem layer2 (W : RefWeights) (word : Fin 300 → EReal) (tag rel : Fin 50 → EReal) (g : Fin 5) (j : Fin 512) :
    th (dense (fun h => th (dense (fun h' => th (dense (catX word tag rel) ((opOfRef W).wcat g) ((opOfRef W).bin g) h'))
        ((opOfRef W).whid g) ((opOfRef W).bhid g) h)) ((opOfRef W).wlast g) ((opOfRef W).blast g) j)
      = refM W word tag rel g j := by
  have h1 : (fun h => th (dense (fun h' => th (dense (catX word tag rel) ((opOfRef W).wcat g) ((opOfRef W).bin g) h'))
        ((opOfRef W).whid g) ((opOfRef W).bhid g) h)) = refH1 W word tag rel g := funext (layer1 W word tag rel g)
  rw [h1]
  rfl

/-- The recurrent projection: one product against the stacked matrix is the two separate products added. -/
theorem proj_split (W : RefWeights) (hp kk : Fin 512 → EReal) (g : Fin 5) (j : Fin 512) :
    ∑ k : Fin 1024, catKH hp kk k * (opOfRef W).whpk g k j
      = (∑ k : Fin 512, hp k * W.Whp g j k) + ∑ k : Fin 512, kk k * W.Wk g j k := by
  rw [sum_split_1024]
  simp only [catKH_lo, catKH_hi, whpk_lo, whpk_hi]

/-- Regrouping the five terms of a pre-activation. -/
theorem regroup5 (m a b c d : EReal) : (m + (a + b)) + (c + d) = (((m + a) + c) + b) + d := by
  abel

/-- A gate's pre-activation is the same in both arrangements. -/
theorem opPre_eq_refPre (W : RefWeights) (word : Fin 300 → EReal) (tag rel : Fin 50 → EReal)
    (hp kk : Fin 512 → EReal) (g : Fin 5) (j : Fin 512) :
    opPre (opOfRef W) (catX word tag rel) (catKH hp kk) g j = refPre W word tag rel hp kk g j := by
  unfold opPre refPre
  rw [layer2, proj_split]
  exact regroup5 _ _ _ _ _

/-- Moving the last of three summands to the front. -/
theorem rotate3 (a b c : EReal) : (a + b) + c = (c + a) + b := by
  abel

theorem opC_eq_refC (W : RefWeights) (word : Fin 300 → EReal) (tag rel : Fin 50 → EReal)
    (hp kk q cp : Fin 512 → EReal) (j : Fin 512) :
    opC (opOfRef W) (catX word tag rel) (catKH hp kk) q cp j = refC W word tag rel hp kk q cp j := by
  unfold opC refC
  simp only [opPre_eq_refPre]
  exact rotate3 _ _ _

theorem opH_eq_refH (W : RefWeights) (word : Fin 300 → EReal) (tag rel : Fin 50 → EReal)
    (hp kk q cp : Fin 512 → EReal) (j : Fin 512) :
    opH (opOfRef W) (catX word tag rel) (catKH hp kk) q cp j = refH W word tag rel hp kk q cp j := by
  unfold opH refH
  rw [opPre_eq_refPre, opC_eq_refC]

end Cert.TreeCell

end
-- ==== Proof.CellArrays.lean ====
/-
  The cell's two results as whole arrays: entry (n, j) of the new hidden state and of the new cell state is the
  row formula of CellSpec at row n of the activations, over the weights read as functions of (gate, out, in).
  The twenty-one argument arrays are bundled in one record so that both programs' results are stated over the
  same term.
-/
import proofs.«104428_j38689065402503_2_alg».proof.Proof.CellSpec
import Idealize.ShloMosaic.Lib.ValueIdx

noncomputable section

namespace Cert.TreeCell

open Idealize.ShloMosaic Idealize.ShloMosaic.ValueIdx

/-- An array of extended reals over a literal two- or three-axis index set. -/
abbrev Arr2 (a b : Nat) : Type := (⟨2, ![a, b]⟩ : Shape).Idx → EReal
abbrev Arr3 (a b c : Nat) : Type := (⟨3, ![a, b, c]⟩ : Shape).Idx → EReal

/-- The argument arrays, in the entry point's order. -/
structure Args where
  word : Arr2 16384 300
  tag : Arr2 16384 50
  rel : Arr2 16384 50
  k : Arr2 16384 512
  q : Arr2 16384 512
  hprev : Arr2 16384 512
  cprev : Arr2 16384 512
  Wword : Arr3 5 512 300
  bword : Arr2 5 512
  Wtag : Arr3 5 512 50
  btag : Arr2 5 512
  Wrel : Arr3 5 512 50
  brel : Arr2 5 512
  Whid : Arr3 5 512 512
  bhid : Arr2 5 512
  Wlast : Arr3 5 512 512
  blast : Arr2 5 512
  Whp : Arr3 5 512 512
  bhp : Arr2 5 512
  Wk : Arr3 5 512 512
  bk : Arr2 5 512

/-- The weights of the argument arrays, as functions of (gate, out, in). -/
def Args.weights (a : Args) : RefWeights where
  Wword g j w := a.Wword (ix3 g j w)
  bword g j := a.bword (ix2 g j)
  Wtag g j t := a.Wtag (ix3 g j t)
  btag g j := a.btag (ix2 g j)
  Wrel g j r := a.Wrel (ix3 g j r)
  brel g j := a.brel (ix2 g j)
  Whid g j h := a.Whid (ix3 g j h)
  bhid g j := a.bhid (ix2 g j)
  Wlast g j h := a.Wlast (ix3 g j h)
  blast g j := a.blast (ix2 g j)
  Whp g j k := a.Whp (ix3 g j k)
  bhp g j := a.bhp (ix2 g j)
  Wk g j k := a.Wk (ix3 g j k)
  bk g j := a.bk (ix2 g j)

/-- Entry (n, j) of the new cell state, in the reference's arrangement. -/
def Args.cAt (a : Args) (n : Fin 16384) (j : Fin 512) : EReal :=
  refC a.weights (fun w => a.word (ix2 n w)) (fun t => a.tag (ix2 n t)) (fun r => a.rel (ix2 n r))
    (fun k => a.hprev (ix2 n k)) (fun k => a.k (ix2 n k)) (fun j' => a.q (ix2 n j')) (fun j' => a.cprev (ix2 n j')) j

/-- Entry (n, j) of the new hidden state, in the reference's arrangement. -/
def Args.hAt (a : Args) (n : Fin 16384) (j : Fin 512) : EReal :=
  refH a.weights (fun w => a.word (ix2 n w)) (fun t => a.tag (ix2 n t)) (fun r => a.rel (ix2 n r))
    (fun k => a.hprev (ix2 n k)) (fun k => a.k (ix2 n k)) (fun j' => a.q (ix2 n j')) (fun j' => a.cprev (ix2 n j')) j

/-- The new cell state as an array. -/
def Args.cArr (a : Args) : Arr2 16384 512 := fun i => a.cAt (i 0) (i 1)
/-- The new hidden state as an array. -/
def Args.hArr (a : Args) : Arr2 16384 512 := fun i => a.hAt (i 0) (i 1)

theorem Args.cArr_ix (a : Args) (n : Fin 16384) (j : Fin 512) : a.cArr (ix2 n j) = a.cAt n j := rfl
theorem Args.hArr_ix (a : Args) (n : Fin 16384) (j : Fin 512) : a.hArr (ix2 n j) = a.hAt n j := rfl

end Cert.TreeCell

end
-- ==== Proof.KFinalRow.lean ====
/-
  One block of the two results, row by row. Suppose the values the body loads at a grid point are what the
  arrays hold there: row p of each activation block is row n p of the concatenated inputs, of the concatenated
  recurrent inputs, of q and of c_prev, and gate g's slab or row of each weight block is gate g of the
  concatenated, transposed weights and of the summed biases. Then entry (p, j) of the stored hidden state is
  entry (n p, j) of the new hidden state in the reference's arrangement, and likewise for the cell state:
  the body's values are the row formula over concatenated operands, which equals the reference's arrangement
  by regrouping finite sums.
-/
import proofs.«104428_j38689065402503_2_alg».proof.Proof.KValue
import proofs.«104428_j38689065402503_2_alg».proof.Proof.CellAlgebra
import proofs.«104428_j38689065402503_2_alg».proof.Proof.CellArrays

noncomputable section

namespace Cert.KernelIdeal.Final

open Idealize.ShloMosaic Idealize.ShloMosaic.ValueIdx Cert.KernelIdeal Cert.KernelIdeal.Body Cert.KernelIdeal.BodyValue
  Cert.TreeCell

/-- Two records of weights with equal fields are equal. -/
theorem opWeights_ext {A B : OpWeights} (h1 : A.wcat = B.wcat) (h2 : A.whid = B.whid) (h3 : A.wlast = B.wlast)
    (h4 : A.whpk = B.whpk) (h5 : A.bin = B.bin) (h6 : A.bhid = B.bhid) (h7 : A.blast = B.blast)
    (h8 : A.bhpk = B.bhpk) : A = B := by
  cases A; cases B
  dsimp only at h1 h2 h3 h4 h5 h6 h7 h8
  subst h1 h2 h3 h4 h5 h6 h7 h8
  rfl

/-- The loaded values `L` are what the argument arrays `a` hold at a grid point whose block row p is array row
    `n p`: the activations row by row, the weights and biases gate by gate. -/
structure Reads (L : Loads Ideal) (a : Args) (n : Fin 512 → Fin 16384) : Prop where
  x : ∀ (p : Fin 512) (k : Fin 400), L.x (ix2 p k)
    = catX (fun w => a.word (ix2 (n p) w)) (fun t => a.tag (ix2 (n p) t)) (fun r => a.rel (ix2 (n p) r)) k
  kh : ∀ (p : Fin 512) (k : Fin 1024), L.kh (ix2 p k)
    = catKH (fun k' => a.hprev (ix2 (n p) k')) (fun k' => a.k (ix2 (n p) k')) k
  q : ∀ (p j : Fin 512), L.q (ix2 p j) = a.q (ix2 (n p) j)
  cp : ∀ (p j : Fin 512), L.cp (ix2 p j) = a.cprev (ix2 (n p) j)
  wc : ∀ (g : Fin 5) (k : Fin 400) (j : Fin 512), L.wc g (ix3 (0 : Fin 1) k j) = (opOfRef a.weights).wcat g k j
  wh : ∀ (g : Fin 5) (k j : Fin 512), L.wh g (ix3 (0 : Fin 1) k j) = (opOfRef a.weights).whid g k j
  wl : ∀ (g : Fin 5) (k j : Fin 512), L.wl g (ix3 (0 : Fin 1) k j) = (opOfRef a.weights).wlast g k j
  wk : ∀ (g : Fin 5) (k : Fin 1024) (j : Fin 512), L.wk g (ix3 (0 : Fin 1) k j) = (opOfRef a.weights).whpk g k j
  b0 : ∀ (g : Fin 5) (j : Fin 512), L.b0 g (ix2 (0 : Fin 1) j) = (opOfRef a.weights).bin g j
  b1 : ∀ (g : Fin 5) (j : Fin 512), L.b1 g (ix2 (0 : Fin 1) j) = (opOfRef a.weights).bhid g j
  b2 : ∀ (g : Fin 5) (j : Fin 512), L.b2 g (ix2 (0 : Fin 1) j) = (opOfRef a.weights).blast g j
  b3 : ∀ (g : Fin 5) (j : Fin 512), L.b3 g (ix2 (0 : Fin 1) j) = (opOfRef a.weights).bhpk g j

variable {L : Loads Ideal} {a : Args} {n : Fin 512 → Fin 16384}

/-- Then the weights the body's values are stated over are the concatenated weights of the arrays. -/
theorem opW_of_reads (h : Reads L a n) : opW L = opOfRef a.weights :=
  opWeights_ext (funext fun g => funext fun k => funext fun j => h.wc g k j)
    (funext fun g => funext fun k => funext fun j => h.wh g k j)
    (funext fun g => funext fun k => funext fun j => h.wl g k j)
    (funext fun g => funext fun k => funext fun j => h.wk g k j)
    (funext fun g => funext fun j => h.b0 g j) (funext fun g => funext fun j => h.b1 g j)
    (funext fun g => funext fun j => h.b2 g j) (funext fun g => funext fun j => h.b3 g j)

/-- Entry (p, j) of the stored hidden state is entry (n p, j) of the new hidden state. -/
theorem valH_of_reads (h : Reads L a n) (p j : Fin 512) : valH L (ix2 p j) = a.hAt (n p) j := by
  rw [valH_apply, opW_of_reads h, funext (h.x p), funext (h.kh p), funext (h.q p), funext (h.cp p), opH_eq_refH]
  rfl

/-- Entry (p, j) of the stored cell state is entry (n p, j) of the new cell state. -/
theorem valC_of_reads (h : Reads L a n) (p j : Fin 512) : valC L (ix2 p j) = a.cAt (n p) j := by
  rw [valC_apply, opW_of_reads h, funext (h.x p), funext (h.kh p), funext (h.q p), funext (h.cp p), opC_eq_refC]
  rfl

end Cert.KernelIdeal.Final

end
-- ==== Proof.KFinalLoads.lean ====
/-
  What the body loads, read off the twelve input blocks: the four activation blocks whole, and gate g's slab or
  row of a weight or bias block at the block's index (g, ·, ·) or (g, ·). Hence, if the twelve blocks are what the
  argument arrays hold at a grid point, so are the loaded values.
-/
import proofs.«104428_j38689065402503_2_alg».proof.Proof.FrameBodyIdeal
import proofs.«104428_j38689065402503_2_alg».proof.Proof.KFinalRow
import Idealize.ShloMosaic.Lib.Pipeline.Value

noncomputable section

namespace Cert.KernelIdeal.Final

open Idealize.ShloMosaic Idealize.ShloMosaic.ValueIdx Cert.KernelIdeal Cert.KernelIdeal.Gen Cert.KernelIdeal.Frm
  Cert.KernelIdeal.Body Cert.TreeCell

/-- The zero offsets of a two-axis block, however spelt. -/
theorem hz2 : (![0, 0] : Fin 2 → Nat) = fun _ => 0 := funext fun a => by fin_cases a <;> rfl

/-- Gate g's slab of a [5,K,512] block, read through the unit-stride rectangle at (g, 0, 0) of sizes [1,K,512]:
    at (0, k, j) it is the block at (g, k, j). -/
theorem slab_apply {e : EltTy} {K : Nat} (X : (⟨3, ![5, K, 512]⟩ : Shape).Idx → Elt Ideal e) (o : Fin 3 → Nat)
    (inb : ∀ a, o a + (![1, K, 512] : Fin 3 → Nat) a ≤ (⟨3, ![5, K, 512]⟩ : Shape).size a) (g : Fin 5)
    (ho : o = ![g.val, 0, 0]) (k : Fin K) (j : Fin 512) :
    View.ld (Val := Elt Ideal) X (Rect.unit (s := ⟨3, ![5, K, 512]⟩) o ![1, K, 512] inb) (ix3 (0 : Fin 1) k j) = X (ix3 g k j) := by
  subst ho
  refine congrArg X (funext fun c => Fin.ext ?_)
  match c with
  | ⟨0, _⟩ => show g.val + 1 * 0 = g.val; omega
  | ⟨1, _⟩ => show 0 + 1 * k.val = k.val; omega
  | ⟨2, _⟩ => show 0 + 1 * j.val = j.val; omega

/-- Gate g's row of a [5,512] block, read through the unit-stride rectangle at (g, 0) of sizes [1,512]: at (0, j)
    it is the block at (g, j). -/
theorem brow_apply {e : EltTy} (X : (⟨2, ![5, 512]⟩ : Shape).Idx → Elt Ideal e) (o : Fin 2 → Nat)
    (inb : ∀ a, o a + (![1, 512] : Fin 2 → Nat) a ≤ (⟨2, ![5, 512]⟩ : Shape).size a) (g : Fin 5)
    (ho : o = ![g.val, 0]) (j : Fin 512) :
    View.ld (Val := Elt Ideal) X (Rect.unit (s := ⟨2, ![5, 512]⟩) o ![1, 512] inb) (ix2 (0 : Fin 1) j) = X (ix2 g j) := by
  subst ho
  refine congrArg X (funext fun c => Fin.ext ?_)
  match c with
  | ⟨0, _⟩ => show g.val + 1 * 0 = g.val; omega
  | ⟨1, _⟩ => show 0 + 1 * j.val = j.val; omega

section
variable (x0 : Vec Ideal S512x400 .f32) (x1 : Vec Ideal S512x1024 .f32) (x2 x3 : Vec Ideal S512x512 .f32)
  (x4 : Vec Ideal S5x400x512 .bf16) (x5 x6 : Vec Ideal S5x512x512 .bf16) (x7 : Vec Ideal S5x1024x512 .bf16)
  (x8 x9 x10 x11 : Vec Ideal S5x512 .f32)

/-- The four activation blocks are loaded whole. -/
theorem loads_x : (loadsOf x0 x1 x2 x3 x4 x5 x6 x7 x8 x9 x10 x11).x = x0 := View.ld_unit_zero hz2 _ x0
theorem loads_kh : (loadsOf x0 x1 x2 x3 x4 x5 x6 x7 x8 x9 x10 x11).kh = x1 := View.ld_unit_zero hz2 _ x1
theorem loads_q : (loadsOf x0 x1 x2 x3 x4 x5 x6 x7 x8 x9 x10 x11).q = x2 := View.ld_unit_zero hz2 _ x2
theorem loads_cp : (loadsOf x0 x1 x2 x3 x4 x5 x6 x7 x8 x9 x10 x11).cp = x3 := View.ld_unit_zero hz2 _ x3

/-- Gate g's slab of the input-layer weights. -/
theorem loads_wc (g : Fin 5) (k : Fin 400) (j : Fin 512) :
    (loadsOf x0 x1 x2 x3 x4 x5 x6 x7 x8 x9 x10 x11).wc g (ix3 (0 : Fin 1) k j) = x4 (ix3 g k j) := by
  match g with
  | 0 => exact slab_apply x4 _ _ 0 rfl k j
  | 1 => exact slab_apply x4 _ _ 1 rfl k j
  | 2 => exact slab_apply x4 _ _ 2 rfl k j
  | 3 => exact slab_apply x4 _ _ 3 rfl k j
  | 4 => exact slab_apply x4 _ _ 4 rfl k j
  | ⟨_ + 5, h⟩ => exact absurd h (by omega)

/-- Gate g's slab of the second layer's weights. -/
theorem loads_wh (g : Fin 5) (k j : Fin 512) :
    (loadsOf x0 x1 x2 x3 x4 x5 x6 x7 x8 x9 x10 x11).wh g (ix3 (0 : Fin 1) k j) = x5 (ix3 g k j) := by
  match g with
  | 0 => exact slab_apply x5 _ _ 0 rfl k j
  | 1 => exact slab_apply x5 _ _ 1 rfl k j
  | 2 => exact slab_apply x5 _ _ 2 rfl k j
  | 3 => exact slab_apply x5 _ _ 3 rfl k j
  | 4 => exact slab_apply x5 _ _ 4 rfl k j
  | ⟨_ + 5, h⟩ => exact absurd h (by omega)

/-- Gate g's slab of the third layer's weights. -/
theorem loads_wl (g : Fin 5) (k j : Fin 512) :
    (loadsOf x0 x1 x2 x3 x4 x5 x6 x7 x8 x9 x10 x11).wl g (ix3 (0 : Fin 1) k j) = x6 (ix3 g k j) := by
  match g with
  | 0 => exact slab_apply x6 _ _ 0 rfl k j
  | 1 => exact slab_apply x6 _ _ 1 rfl k j
  | 2 => exact slab_apply x6 _ _ 2 rfl k j
  | 3 => exact slab_apply x6 _ _ 3 rfl k j
  | 4 => exact slab_apply x6 _ _ 4 rfl k j
  | ⟨_ + 5, h⟩ => exact absurd h (by omega)

/-- Gate g's slab of the recurrent weights. -/
theorem loads_wk (g : Fin 5) (k : Fin 1024) (j : Fin 512) :
    (loadsOf x0 x1 x2 x3 x4 x5 x6 x7 x8 x9 x10 x11).wk g (ix3 (0 : Fin 1) k j) = x7 (ix3 g k j) := by
  match g with
  | 0 => exact slab_apply x7 _ _ 0 rfl k j
  | 1 => exact slab_apply x7 _ _ 1 rfl k j
  | 2 => exact slab_apply x7 _ _ 2 rfl k j
  | 3 => exact slab_apply x7 _ _ 3 rfl k j
  | 4 => exact slab_apply x7 _ _ 4 rfl k j
  | ⟨_ + 5, h⟩ => exact absurd h (by omega)

/-- Gate g's row of the four bias blocks. -/
theorem loads_b0 (g : Fin 5) (j : Fin 512) :
    (loadsOf x0 x1 x2 x3 x4 x5 x6 x7 x8 x9 x10 x11).b0 g (ix2 (0 : Fin 1) j) = x8 (ix2 g j) := by
  match g with
  | 0 => exact brow_apply x8 _ _ 0 rfl j
  | 1 => exact brow_apply x8 _ _ 1 rfl j
  | 2 => exact brow_apply x8 _ _ 2 rfl j
  | 3 => exact brow_apply x8 _ _ 3 rfl j
  | 4 => exact brow_apply x8 _ _ 4 rfl j
  | ⟨_ + 5, h⟩ => exact absurd h (by omega)
theorem loads_b1 (g : Fin 5) (j : Fin 512) :
    (loadsOf x0 x1 x2 x3 x4 x5 x6 x7 x8 x9 x10 x11).b1 g (ix2 (0 : Fin 1) j) = x9 (ix2 g j) := by
  match g with
  | 0 => exact brow_apply x9 _ _ 0 rfl j
  | 1 => exact brow_apply x9 _ _ 1 rfl j
  | 2 => exact brow_apply x9 _ _ 2 rfl j
  | 3 => exact brow_apply x9 _ _ 3 rfl j
  | 4 => exact brow_apply x9 _ _ 4 rfl j
  | ⟨_ + 5, h⟩ => exact absurd h (by omega)
theorem loads_b2 (g : Fin 5) (j : Fin 512) :
    (loadsOf x0 x1 x2 x3 x4 x5 x6 x7 x8 x9 x10 x11).b2 g (ix2 (0 : Fin 1) j) = x10 (ix2 g j) := by
  match g with
  | 0 => exact brow_apply x10 _ _ 0 rfl j
  | 1 => exact brow_apply x10 _ _ 1 rfl j
  | 2 => exact brow_apply x10 _ _ 2 rfl j
  | 3 => exact brow_apply x10 _ _ 3 rfl j
  | 4 => exact brow_apply x10 _ _ 4 rfl j
  | ⟨_ + 5, h⟩ => exact absurd h (by omega)
theorem loads_b3 (g : Fin 5) (j : Fin 512) :
    (loadsOf x0 x1 x2 x3 x4 x5 x6 x7 x8 x9 x10 x11).b3 g (ix2 (0 : Fin 1) j) = x11 (ix2 g j) := by
  match g with
  | 0 => exact brow_apply x11 _ _ 0 rfl j
  | 1 => exact brow_apply x11 _ _ 1 rfl j
  | 2 => exact brow_apply x11 _ _ 2 rfl j
  | 3 => exact brow_apply x11 _ _ 3 rfl j
  | 4 => exact brow_apply x11 _ _ 4 rfl j
  | ⟨_ + 5, h⟩ => exact absurd h (by omega)

/-- If the twelve blocks are what the arrays `a` hold at a point whose block row p is array row `n p`, then so are
    the values the body loads from them. -/
theorem reads_loadsOf (a : Args) (n : Fin 512 → Fin 16384)
    (h0 : ∀ (p : Fin 512) (k : Fin 400), x0 (ix2 p k)
      = catX (fun w => a.word (ix2 (n p) w)) (fun t => a.tag (ix2 (n p) t)) (fun r => a.rel (ix2 (n p) r)) k)
    (h1 : ∀ (p : Fin 512) (k : Fin 1024), x1 (ix2 p k)
      = catKH (fun k' => a.hprev (ix2 (n p) k')) (fun k' => a.k (ix2 (n p) k')) k)
    (h2 : ∀ (p j : Fin 512), x2 (ix2 p j) = a.q (ix2 (n p) j))
    (h3 : ∀ (p j : Fin 512), x3 (ix2 p j) = a.cprev (ix2 (n p) j))
    (h4 : ∀ (g : Fin 5) (k : Fin 400) (j : Fin 512), x4 (ix3 g k j) = (opOfRef a.weights).wcat g k j)
    (h5 : ∀ (g : Fin 5) (k j : Fin 512), x5 (ix3 g k j) = (opOfRef a.weights).whid g k j)
    (h6 : ∀ (g : Fin 5) (k j : Fin 512), x6 (ix3 g k j) = (opOfRef a.weights).wlast g k j)
    (h7 : ∀ (g : Fin 5) (k : Fin 1024) (j : Fin 512), x7 (ix3 g k j) = (opOfRef a.weights).whpk g k j)
    (h8 : ∀ (g : Fin 5) (j : Fin 512), x8 (ix2 g j) = (opOfRef a.weights).bin g j)
    (h9 : ∀ (g : Fin 5) (j : Fin 512), x9 (ix2 g j) = (opOfRef a.weights).bhid g j)
    (h10 : ∀ (g : Fin 5) (j : Fin 512), x10 (ix2 g j) = (opOfRef a.weights).blast g j)
    (h11 : ∀ (g : Fin 5) (j : Fin 512), x11 (ix2 g j) = (opOfRef a.weights).bhpk g j) :
    Reads (loadsOf x0 x1 x2 x3 x4 x5 x6 x7 x8 x9 x10 x11) a n where
  x p k := (congrFun (loads_x x0 x1 x2 x3 x4 x5 x6 x7 x8 x9 x10 x11) _).trans (h0 p k)
  kh p k := (congrFun (loads_kh x0 x1 x2 x3 x4 x5 x6 x7 x8 x9 x10 x11) _).trans (h1 p k)
  q p j := (congrFun (loads_q x0 x1 x2 x3 x4 x5 x6 x7 x8 x9 x10 x11) _).trans (h2 p j)
  cp p j := (congrFun (loads_cp x0 x1 x2 x3 x4 x5 x6 x7 x8 x9 x10 x11) _).trans (h3 p j)
  wc g k j := (loads_wc x0 x1 x2 x3 x4 x5 x6 x7 x8 x9 x10 x11 g k j).trans (h4 g k j)
  wh g k j := (loads_wh x0 x1 x2 x3 x4 x5 x6 x7 x8 x9 x10 x11 g k j).trans (h5 g k j)
  wl g k j := (loads_wl x0 x1 x2 x3 x4 x5 x6 x7 x8 x9 x10 x11 g k j).trans (h6 g k j)
  wk g k j := (loads_wk x0 x1 x2 x3 x4 x5 x6 x7 x8 x9 x10 x11 g k j).trans (h7 g k j)
  b0 g j := (loads_b0 x0 x1 x2 x3 x4 x5 x6 x7 x8 x9 x10 x11 g j).trans (h8 g j)
  b1 g j := (loads_b1 x0 x1 x2 x3 x4 x5 x6 x7 x8 x9 x10 x11 g j).trans (h9 g j)
  b2 g j := (loads_b2 x0 x1 x2 x3 x4 x5 x6 x7 x8 x9 x10 x11 g j).trans (h10 g j)
  b3 g j := (loads_b3 x0 x1 x2 x3 x4 x5 x6 x7 x8 x9 x10 x11 g j).trans (h11 g j)

end

end Cert.KernelIdeal.Final

end
-- ==== Proof.HostPrefixRun.lean ====
/-
  What the arrays handed to the kernel hold: each is the result of a few array operations applied to the
  entry point's arguments before the kernel starts. This module states, for each of the eight operands that
  is not an argument as launched, the composed operation as one term over the arguments.

  The operations are: the sum of two or three bias rows; the transposition of the last two axes of a weight
  array followed by a change of number format (the identity on extended reals); and the laying side by side
  of two or three arrays along the second axis.
-/
import proofs.«104428_j38689065402503_2_alg».proof.Proof.Gen.KernelIdeal.Launch
import proofs.«104428_j38689065402503_2_alg».proof.Proof.CellArrays
import Idealize.ShloMosaic.Lib.StableHlo.Run

noncomputable section

namespace Cert.KernelIdeal.Prefix

open Idealize.ShloMosaic Idealize.ShloMosaic.TcCoe

/-! ## An operation of three operands, each operand's contents at its own reference -/

section Nary3
variable {τ : Topo} {sig : RefSig} {Val : EltTy → Type} {x a b y : Ref sig .tc}

/-- The result of an operation of three operands is its function applied to the three operands' contents,
    listed one by one rather than as a function of the operand's position. -/
theorem nary3_result
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a))
          (Fin.cons (F (Proc.devRef .tc b)) (fun i => i.elim0)))) := by
  rw [StableHlo.nary_result]; congr 1; funext k; fin_cases k <;> rfl

/-- The same, in the form a simplification pass uses (the result reference not indexed). -/
theorem nary3_result'
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (no_index (Proc.devRef .tc y))
      = f (Fin.cons (F (Proc.devRef .tc x)) (Fin.cons (F (Proc.devRef .tc a))
          (Fin.cons (F (Proc.devRef .tc b)) (fun i => i.elim0)))) :=
  nary3_result f hxs hy F

end Nary3

/-- Rewrites the contents of one array after a list of operations to the operations' functions applied to
    the contents before them, in one pass: each operation's result at its own array is its function's value,
    and at any other array what was there. -/
macro "prefix_results" : tactic =>
  `(tactic| (simp (disch := decide) only [StableHlo.after_cons, StableHlo.after_nil,
      nary3_result', StableHlo.unary_result', StableHlo.binary_result',
      StableHlo.unary_result_ne', StableHlo.binary_result_ne', StableHlo.nary_result_ne']))

open Cert.KernelIdeal

variable (m : (ℓ : Loc nD τ sig) → Buf (Elt Ideal) ℓ) (c : Dev nD)

/-- The arrays of one core when the kernel starts: the launch arrays after the operations before it. -/
abbrev Vc (b : Ref sig .tc) : Buf (Elt Ideal) ((c : Thread nD τ).loc b) :=
  StableHlo.after (Gen.hostOps0 (F := Ideal)) (fun b => m (c, b)) b

/-- The twenty-one argument arrays of one core as launched. -/
def kargs : Cert.TreeCell.Args where
  word := m ((c : Thread nD τ).loc main_arg0)
  tag := m ((c : Thread nD τ).loc main_arg1)
  rel := m ((c : Thread nD τ).loc main_arg2)
  k := m ((c : Thread nD τ).loc main_arg3)
  q := m ((c : Thread nD τ).loc main_arg4)
  hprev := m ((c : Thread nD τ).loc main_arg5)
  cprev := m ((c : Thread nD τ).loc main_arg6)
  Wword := m ((c : Thread nD τ).loc main_arg7)
  bword := m ((c : Thread nD τ).loc main_arg8)
  Wtag := m ((c : Thread nD τ).loc main_arg9)
  btag := m ((c : Thread nD τ).loc main_arg10)
  Wrel := m ((c : Thread nD τ).loc main_arg11)
  brel := m ((c : Thread nD τ).loc main_arg12)
  Whid := m ((c : Thread nD τ).loc main_arg13)
  bhid := m ((c : Thread nD τ).loc main_arg14)
  Wlast := m ((c : Thread nD τ).loc main_arg15)
  blast := m ((c : Thread nD τ).loc main_arg16)
  Whp := m ((c : Thread nD τ).loc main_arg17)
  bhp := m ((c : Thread nD τ).loc main_arg18)
  Wk := m ((c : Thread nD τ).loc main_arg19)
  bk := m ((c : Thread nD τ).loc main_arg20)

/-- A weight array with its last two axes exchanged, in the narrower number format. -/
abbrev tr300 (x : S5x512x300.Idx → EReal) : S5x300x512.Idx → EReal :=
  truncf (F := Ideal) (φ := .f32) .bf16 (transpose S5x300x512 [0, 2, 1] x Gen.transposes_S5x512x300_S5x300x512_0_2_1) Gen.bitsLt_bf16_f32
abbrev tr50 (x : S5x512x50.Idx → EReal) : S5x50x512.Idx → EReal :=
  truncf (F := Ideal) (φ := .f32) .bf16 (transpose S5x50x512 [0, 2, 1] x Gen.transposes_S5x512x50_S5x50x512_0_2_1) Gen.bitsLt_bf16_f32
abbrev tr512 (x : S5x512x512.Idx → EReal) : S5x512x512.Idx → EReal :=
  truncf (F := Ideal) (φ := .f32) .bf16 (transpose S5x512x512 [0, 2, 1] x Gen.transposes_S5x512x512_S5x512x512_0_2_1) Gen.bitsLt_bf16_f32

/-- The summed input-layer biases. -/
theorem Vc_v1 : (Vc m c main_v1 : S5x512.Idx → EReal)
    = addf (F := Ideal) (φ := .f32) (addf (F := Ideal) (φ := .f32) (kargs m c).bword (kargs m c).btag) (kargs m c).brel := by
  dsimp only [Vc, Gen.hostOps0]
  prefix_results
  rfl

/-- The summed recurrent biases. -/
theorem Vc_v2 : (Vc m c main_v2 : S5x512.Idx → EReal)
    = addf (F := Ideal) (φ := .f32) (kargs m c).bhp (kargs m c).bk := by
  dsimp only [Vc, Gen.hostOps0]
  prefix_results
  rfl

/-- The input row: word, tag and relation features side by side. -/
theorem Vc_v19 : (Vc m c main_v19 : S16384x400.Idx → EReal)
    = concatenate S16384x400 1 [⟨S16384x300, (kargs m c).word⟩, ⟨S16384x50, (kargs m c).tag⟩, ⟨S16384x50, (kargs m c).rel⟩]
        Gen.concatenates_S16384x300_S16384x50_S16384x50_S16384x400_d1 := by
  dsimp only [Vc, Gen.hostOps0]
  prefix_results
  rfl

/-- The recurrent row: the previous hidden state and k side by side. -/
theorem Vc_v20 : (Vc m c main_v20 : S16384x1024.Idx → EReal)
    = concatenate S16384x1024 1 [⟨S16384x512, (kargs m c).hprev⟩, ⟨S16384x512, (kargs m c).k⟩]
        Gen.concatenates_S16384x512_S16384x512_S16384x1024_d1 := by
  dsimp only [Vc, Gen.hostOps0]
  prefix_results
  rfl

/-- The input-layer weights: the three matrices of each gate, transposed, side by side along the input axis. -/
theorem Vc_v9 : (Vc m c main_v9 : S5x400x512.Idx → EReal)
    = concatenate S5x400x512 1 [⟨S5x300x512, tr300 (kargs m c).Wword⟩, ⟨S5x50x512, tr50 (kargs m c).Wtag⟩,
          ⟨S5x50x512, tr50 (kargs m c).Wrel⟩]
        Gen.concatenates_S5x300x512_S5x50x512_S5x50x512_S5x400x512_d1 := by
  dsimp only [Vc, Gen.hostOps0]
  prefix_results
  rfl

/-- The second layer's weights, transposed. -/
theorem Vc_v11 : (Vc m c main_v11 : S5x512x512.Idx → EReal) = tr512 (kargs m c).Whid := by
  dsimp only [Vc, Gen.hostOps0]
  prefix_results
  rfl

/-- The third layer's weights, transposed. -/
theorem Vc_v13 : (Vc m c main_v13 : S5x512x512.Idx → EReal) = tr512 (kargs m c).Wlast := by
  dsimp only [Vc, Gen.hostOps0]
  prefix_results
  rfl

/-- The recurrent weights: the two matrices of each gate, transposed, side by side along the input axis. -/
theorem Vc_v18 : (Vc m c main_v18 : S5x1024x512.Idx → EReal)
    = concatenate S5x1024x512 1 [⟨S5x512x512, tr512 (kargs m c).Whp⟩, ⟨S5x512x512, tr512 (kargs m c).Wk⟩]
        Gen.concatenates_S5x512x512_S5x512x512_S5x1024x512_d1 := by
  dsimp only [Vc, Gen.hostOps0]
  prefix_results
  rfl

end Cert.KernelIdeal.Prefix

end
-- ==== Proof.LibConcatWidths.lean ====
/-
  Arrays of different widths laid side by side along the second axis, read at an index.

  A concatenation of matrices [n, a], [n, b], [n, c] along the second axis is the matrix [n, d] whose entry
  (r, k) is the first piece's entry (r, k) when k < a, the second's entry (r, k - a) when a ≤ k < a + b, and
  the third's entry (r, k - (a + b)) otherwise; the same for stacks [g, a, p], [g, b, p], [g, c, p] along the
  middle axis, and for two pieces. Each statement below is that sentence for one piece, for any extents and any
  element type, with every index written by its coordinates.
-/
import Idealize.ShloMosaic.Lib.Pipeline.Value
import Idealize.ShloMosaic.Lib.ValueIdx

namespace Cert.ConcatWidths

open Idealize.ShloMosaic Idealize.ShloMosaic.ValueIdx

variable {α : Type}

/-! ## Two axes, pieces side by side along the second -/

section Rank2
variable {n a b c d : ℕ}

/-- Three pieces, a column below the first width: the first piece at the same row and column. -/
theorem concat3_ix2_fst (x : (⟨2, ![n, a]⟩ : Shape).Idx → α) (y : (⟨2, ![n, b]⟩ : Shape).Idx → α)
    (z : (⟨2, ![n, c]⟩ : Shape).Idx → α)
    (h : Shape.Concatenates [⟨2, ![n, a]⟩, ⟨2, ![n, b]⟩, ⟨2, ![n, c]⟩] ⟨2, ![n, d]⟩ 1)
    (r : Fin n) (k : Fin d) (hk : k.val < a) :
    concatenate ⟨2, ![n, d]⟩ 1 [⟨⟨2, ![n, a]⟩, x⟩, ⟨⟨2, ![n, b]⟩, y⟩, ⟨⟨2, ![n, c]⟩, z⟩] h (ix2 r k)
      = x (ix2 r ⟨k.val, hk⟩) :=
  concatenate_apply_piece 1 [⟨⟨2, ![n, a]⟩, x⟩, ⟨⟨2, ![n, b]⟩, y⟩, ⟨⟨2, ![n, c]⟩, z⟩] h (ix2 r k)
    0 (by simp) ⟨2, ![n, a]⟩ x rfl rfl 0 rfl (ix2 r ⟨k.val, hk⟩)
    (fun e he => match e with | ⟨0, _⟩ => rfl | ⟨1, _⟩ => absurd rfl he)
    (by show 0 + k.val = k.val; omega)

/-- Three pieces, a column in the second piece's span: the second piece, the first width less. -/
theorem concat3_ix2_snd (x : (⟨2, ![n, a]⟩ : Shape).Idx → α) (y : (⟨2, ![n, b]⟩ : Shape).Idx → α)
    (z : (⟨2, ![n, c]⟩ : Shape).Idx → α)
    (h : Shape.Concatenates [⟨2, ![n, a]⟩, ⟨2, ![n, b]⟩, ⟨2, ![n, c]⟩] ⟨2, ![n, d]⟩ 1)
    (r : Fin n) (k : Fin d) (hlo : a ≤ k.val) (hk : k.val - a < b) :
    concatenate ⟨2, ![n, d]⟩ 1 [⟨⟨2, ![n, a]⟩, x⟩, ⟨⟨2, ![n, b]⟩, y⟩, ⟨⟨2, ![n, c]⟩, z⟩] h (ix2 r k)
      = y (ix2 r ⟨k.val - a, hk⟩) :=
  concatenate_apply_piece 1 [⟨⟨2, ![n, a]⟩, x⟩, ⟨⟨2, ![n, b]⟩, y⟩, ⟨⟨2, ![n, c]⟩, z⟩] h (ix2 r k)
    1 (by simp) ⟨2, ![n, b]⟩ y rfl rfl (a + 0) rfl (ix2 r ⟨k.val - a, hk⟩)
    (fun e he => match e with | ⟨0, _⟩ => rfl | ⟨1, _⟩ => absurd rfl he)
    (by show a + 0 + (k.val - a) = k.val; omega)

/-- Three pieces, a column past the first two widths: the third piece, the two widths less. -/
theorem concat3_ix2_thd (x : (⟨2, ![n, a]⟩ : Shape).Idx → α) (y : (⟨2, ![n, b]⟩ : Shape).Idx → α)
    (z : (⟨2, ![n, c]⟩ : Shape).Idx → α)
    (h : Shape.Concatenates [⟨2, ![n, a]⟩, ⟨2, ![n, b]⟩, ⟨2, ![n, c]⟩] ⟨2, ![n, d]⟩ 1)
    (r : Fin n) (k : Fin d) (hlo : a + b ≤ k.val) (hk : k.val - (a + b) < c) :
    concatenate ⟨2, ![n, d]⟩ 1 [⟨⟨2, ![n, a]⟩, x⟩, ⟨⟨2, ![n, b]⟩, y⟩, ⟨⟨2, ![n, c]⟩, z⟩] h (ix2 r k)
      = z (ix2 r ⟨k.val - (a + b), hk⟩) :=
  concatenate_apply_piece 1 [⟨⟨2, ![n, a]⟩, x⟩, ⟨⟨2, ![n, b]⟩, y⟩, ⟨⟨2, ![n, c]⟩, z⟩] h (ix2 r k)
    2 (by simp) ⟨2, ![n, c]⟩ z rfl rfl (a + (b + 0)) rfl (ix2 r ⟨k.val - (a + b), hk⟩)
    (fun e he => match e with | ⟨0, _⟩ => rfl | ⟨1, _⟩ => absurd rfl he)
    (by show a + (b + 0) + (k.val - (a + b)) = k.val; omega)

/-- Two pieces, a column below the first width: the first piece at the same row and column. -/
theorem concat2_ix2_fst (x : (⟨2, ![n, a]⟩ : Shape).Idx → α) (y : (⟨2, ![n, b]⟩ : Shape).Idx → α)
    (h : Shape.Concatenates [⟨2, ![n, a]⟩, ⟨2, ![n, b]⟩] ⟨2, ![n, d]⟩ 1)
    (r : Fin n) (k : Fin d) (hk : k.val < a) :
    concatenate ⟨2, ![n, d]⟩ 1 [⟨⟨2, ![n, a]⟩, x⟩, ⟨⟨2, ![n, b]⟩, y⟩] h (ix2 r k) = x (ix2 r ⟨k.val, hk⟩) :=
  concatenate_apply_piece 1 [⟨⟨2, ![n, a]⟩, x⟩, ⟨⟨2, ![n, b]⟩, y⟩] h (ix2 r k)
    0 (by simp) ⟨2, ![n, a]⟩ x rfl rfl 0 rfl (ix2 r ⟨k.val, hk⟩)
    (fun e he => match e with | ⟨0, _⟩ => rfl | ⟨1, _⟩ => absurd rfl he)
    (by show 0 + k.val = k.val; omega)

/-- Two pieces, a column at or past the first width: the second piece, the first width less. -/
theorem concat2_ix2_snd (x : (⟨2, ![n, a]⟩ : Shape).Idx → α) (y : (⟨2, ![n, b]⟩ : Shape).Idx → α)
    (h : Shape.Concatenates [⟨2, ![n, a]⟩, ⟨2, ![n, b]⟩] ⟨2, ![n, d]⟩ 1)
    (r : Fin n) (k : Fin d) (hlo : a ≤ k.val) (hk : k.val - a < b) :
    concatenate ⟨2, ![n, d]⟩ 1 [⟨⟨2, ![n, a]⟩, x⟩, ⟨⟨2, ![n, b]⟩, y⟩] h (ix2 r k) = y (ix2 r ⟨k.val - a, hk⟩) :=
  concatenate_apply_piece 1 [⟨⟨2, ![n, a]⟩, x⟩, ⟨⟨2, ![n, b]⟩, y⟩] h (ix2 r k)
    1 (by simp) ⟨2, ![n, b]⟩ y rfl rfl (a + 0) rfl (ix2 r ⟨k.val - a, hk⟩)
    (fun e he => match e with | ⟨0, _⟩ => rfl | ⟨1, _⟩ => absurd rfl he)
    (by show a + 0 + (k.val - a) = k.val; omega)

end Rank2

/-! ## Three axes, pieces side by side along the middle one -/

section Rank3
variable {g p a b c d : ℕ}

/-- Three pieces, a middle coordinate below the first width: the first piece at the same coordinates. -/
theorem concat3_ix3_fst (x : (⟨3, ![g, a, p]⟩ : Shape).Idx → α) (y : (⟨3, ![g, b, p]⟩ : Shape).Idx → α)
    (z : (⟨3, ![g, c, p]⟩ : Shape).Idx → α)
    (h : Shape.Concatenates [⟨3, ![g, a, p]⟩, ⟨3, ![g, b, p]⟩, ⟨3, ![g, c, p]⟩] ⟨3, ![g, d, p]⟩ 1)
    (i : Fin g) (k : Fin d) (j : Fin p) (hk : k.val < a) :
    concatenate ⟨3, ![g, d, p]⟩ 1 [⟨⟨3, ![g, a, p]⟩, x⟩, ⟨⟨3, ![g, b, p]⟩, y⟩, ⟨⟨3, ![g, c, p]⟩, z⟩] h (ix3 i k j)
      = x (ix3 i ⟨k.val, hk⟩ j) :=
  concatenate_apply_piece 1 [⟨⟨3, ![g, a, p]⟩, x⟩, ⟨⟨3, ![g, b, p]⟩, y⟩, ⟨⟨3, ![g, c, p]⟩, z⟩] h (ix3 i k j)
    0 (by simp) ⟨3, ![g, a, p]⟩ x rfl rfl 0 rfl (ix3 i ⟨k.val, hk⟩ j)
    (fun e he => match e with | ⟨0, _⟩ => rfl | ⟨1, _⟩ => absurd rfl he | ⟨2, _⟩ => rfl)
    (by show 0 + k.val = k.val; omega)

/-- Three pieces, a middle coordinate in the second piece's span: the second piece, the first width less. -/
theorem concat3_ix3_snd (x : (⟨3, ![g, a, p]⟩ : Shape).Idx → α) (y : (⟨3, ![g, b, p]⟩ : Shape).Idx → α)
    (z : (⟨3, ![g, c, p]⟩ : Shape).Idx → α)
    (h : Shape.Concatenates [⟨3, ![g, a, p]⟩, ⟨3, ![g, b, p]⟩, ⟨3, ![g, c, p]⟩] ⟨3, ![g, d, p]⟩ 1)
    (i : Fin g) (k : Fin d) (j : Fin p) (hlo : a ≤ k.val) (hk : k.val - a < b) :
    concatenate ⟨3, ![g, d, p]⟩ 1 [⟨⟨3, ![g, a, p]⟩, x⟩, ⟨⟨3, ![g, b, p]⟩, y⟩, ⟨⟨3, ![g, c, p]⟩, z⟩] h (ix3 i k j)
      = y (ix3 i ⟨k.val - a, hk⟩ j) :=
  concatenate_apply_piece 1 [⟨⟨3, ![g, a, p]⟩, x⟩, ⟨⟨3, ![g, b, p]⟩, y⟩, ⟨⟨3, ![g, c, p]⟩, z⟩] h (ix3 i k j)
    1 (by simp) ⟨3, ![g, b, p]⟩ y rfl rfl (a + 0) rfl (ix3 i ⟨k.val - a, hk⟩ j)
    (fun e he => match e with | ⟨0, _⟩ => rfl | ⟨1, _⟩ => absurd rfl he | ⟨2, _⟩ => rfl)
    (by show a + 0 + (k.val - a) = k.val; omega)

/-- Three pieces, a middle coordinate past the first two widths: the third piece, the two widths less. -/
theorem concat3_ix3_thd (x : (⟨3, ![g, a, p]⟩ : Shape).Idx → α) (y : (⟨3, ![g, b, p]⟩ : Shape).Idx → α)
    (z : (⟨3, ![g, c, p]⟩ : Shape).Idx → α)
    (h : Shape.Concatenates [⟨3, ![g, a, p]⟩, ⟨3, ![g, b, p]⟩, ⟨3, ![g, c, p]⟩] ⟨3, ![g, d, p]⟩ 1)
    (i : Fin g) (k : Fin d) (j : Fin p) (hlo : a + b ≤ k.val) (hk : k.val - (a + b) < c) :
    concatenate ⟨3, ![g, d, p]⟩ 1 [⟨⟨3, ![g, a, p]⟩, x⟩, ⟨⟨3, ![g, b, p]⟩, y⟩, ⟨⟨3, ![g, c, p]⟩, z⟩] h (ix3 i k j)
      = z (ix3 i ⟨k.val - (a + b), hk⟩ j) :=
  concatenate_apply_piece 1 [⟨⟨3, ![g, a, p]⟩, x⟩, ⟨⟨3, ![g, b, p]⟩, y⟩, ⟨⟨3, ![g, c, p]⟩, z⟩] h (ix3 i k j)
    2 (by simp) ⟨3, ![g, c, p]⟩ z rfl rfl (a + (b + 0)) rfl (ix3 i ⟨k.val - (a + b), hk⟩ j)
    (fun e he => match e with | ⟨0, _⟩ => rfl | ⟨1, _⟩ => absurd rfl he | ⟨2, _⟩ => rfl)
    (by show a + (b + 0) + (k.val - (a + b)) = k.val; omega)

/-- Two pieces, a middle coordinate below the first width: the first piece at the same coordinates. -/
theorem concat2_ix3_fst (x : (⟨3, ![g, a, p]⟩ : Shape).Idx → α) (y : (⟨3, ![g, b, p]⟩ : Shape).Idx → α)
    (h : Shape.Concatenates [⟨3, ![g, a, p]⟩, ⟨3, ![g, b, p]⟩] ⟨3, ![g, d, p]⟩ 1)
    (i : Fin g) (k : Fin d) (j : Fin p) (hk : k.val < a) :
    concatenate ⟨3, ![g, d, p]⟩ 1 [⟨⟨3, ![g, a, p]⟩, x⟩, ⟨⟨3, ![g, b, p]⟩, y⟩] h (ix3 i k j)
      = x (ix3 i ⟨k.val, hk⟩ j) :=
  concatenate_apply_piece 1 [⟨⟨3, ![g, a, p]⟩, x⟩, ⟨⟨3, ![g, b, p]⟩, y⟩] h (ix3 i k j)
    0 (by simp) ⟨3, ![g, a, p]⟩ x rfl rfl 0 rfl (ix3 i ⟨k.val, hk⟩ j)
    (fun e he => match e with | ⟨0, _⟩ => rfl | ⟨1, _⟩ => absurd rfl he | ⟨2, _⟩ => rfl)
    (by show 0 + k.val = k.val; omega)

/-- Two pieces, a middle coordinate at or past the first width: the second piece, the first width less. -/
theorem concat2_ix3_snd (x : (⟨3, ![g, a, p]⟩ : Shape).Idx → α) (y : (⟨3, ![g, b, p]⟩ : Shape).Idx → α)
    (h : Shape.Concatenates [⟨3, ![g, a, p]⟩, ⟨3, ![g, b, p]⟩] ⟨3, ![g, d, p]⟩ 1)
    (i : Fin g) (k : Fin d) (j : Fin p) (hlo : a ≤ k.val) (hk : k.val - a < b) :
    concatenate ⟨3, ![g, d, p]⟩ 1 [⟨⟨3, ![g, a, p]⟩, x⟩, ⟨⟨3, ![g, b, p]⟩, y⟩] h (ix3 i k j)
      = y (ix3 i ⟨k.val - a, hk⟩ j) :=
  concatenate_apply_piece 1 [⟨⟨3, ![g, a, p]⟩, x⟩, ⟨⟨3, ![g, b, p]⟩, y⟩] h (ix3 i k j)
    1 (by simp) ⟨3, ![g, b, p]⟩ y rfl rfl (a + 0) rfl (ix3 i ⟨k.val - a, hk⟩ j)
    (fun e he => match e with | ⟨0, _⟩ => rfl | ⟨1, _⟩ => absurd rfl he | ⟨2, _⟩ => rfl)
    (by show a + 0 + (k.val - a) = k.val; omega)

end Rank3

end Cert.ConcatWidths
-- ==== Proof.HostPrefix.lean ====
/-
  The arrays handed to the kernel, read entry by entry: each of the eight operands that is not an argument as
  launched is, at every index, the corresponding entry of the concatenated and transposed operands that the
  row formula over concatenated operands is stated with.

  A transposed weight array at (g, k, j) is the weight array at (g, j, k) (the change of number format is the
  identity on extended reals); arrays laid side by side along the second axis are read in the piece whose span
  holds the coordinate, at the coordinate less the widths before it; a sum of arrays is the sum of the entries.
-/
import proofs.«104428_j38689065402503_2_alg».proof.Proof.HostPrefixRun
import proofs.«104428_j38689065402503_2_alg».proof.Proof.LibConcatWidths
import Idealize.ShloMosaic.Lib.ValueLayout

noncomputable section

namespace Cert.KernelIdeal.Prefix

open Idealize.ShloMosaic Idealize.ShloMosaic.TcCoe Idealize.ShloMosaic.ValueIdx
open Cert.KernelIdeal Cert.ConcatWidths Cert.TreeCell

/-! ## A transposed weight array at an index -/

theorem tr300_at (x : S5x512x300.Idx → EReal) (g : Fin 5) (k : Fin 300) (j : Fin 512) :
    tr300 x (ix3 g k j) = x (ix3 g j k) :=
  transpose_ix3_021_apply x Gen.transposes_S5x512x300_S5x300x512_0_2_1 g k j

theorem tr50_at (x : S5x512x50.Idx → EReal) (g : Fin 5) (k : Fin 50) (j : Fin 512) :
    tr50 x (ix3 g k j) = x (ix3 g j k) :=
  transpose_ix3_021_apply x Gen.transposes_S5x512x50_S5x50x512_0_2_1 g k j

theorem tr512_at (x : S5x512x512.Idx → EReal) (g : Fin 5) (k j : Fin 512) :
    tr512 x (ix3 g k j) = x (ix3 g j k) :=
  transpose_ix3_021_apply x Gen.transposes_S5x512x512_S5x512x512_0_2_1 g k j

/-! ## The concatenated weights of a record of argument arrays, entry by entry -/

theorem wcat_of_weights (a : Args) (g : Fin 5) (k : Fin 400) (j : Fin 512) :
    (opOfRef a.weights).wcat g k j =
      if h : k.val < 300 then a.Wword (ix3 g j ⟨k.val, h⟩)
      else if h' : k.val < 350 then a.Wtag (ix3 g j ⟨k.val - 300, by omega⟩)
      else a.Wrel (ix3 g j ⟨k.val - 350, by omega⟩) := rfl

theorem whpk_of_weights (a : Args) (g : Fin 5) (k : Fin 1024) (j : Fin 512) :
    (opOfRef a.weights).whpk g k j =
      if h : k.val < 512 then a.Whp (ix3 g j ⟨k.val, h⟩) else a.Wk (ix3 g j ⟨k.val - 512, by omega⟩) := rfl

variable (m : (ℓ : Loc nD τ sig) → Buf (Elt Ideal) ℓ) (c : Dev nD)

/-! ## The eight operands -/

/-- The input row at (n, k): word, tag and relation features of row n side by side. -/
theorem xcat_at (n : Fin 16384) (k : Fin 400) :
    (Vc m c main_v19 : S16384x400.Idx → EReal) (ix2 n k)
      = catX (fun w => (kargs m c).word (ix2 n w)) (fun t => (kargs m c).tag (ix2 n t))
          (fun r => (kargs m c).rel (ix2 n r)) k := by
  rw [Vc_v19]
  unfold catX
  have hk := k.isLt
  by_cases h1 : k.val < 300
  · rw [dif_pos h1]
    exact concat3_ix2_fst _ _ _ _ n k h1
  · rw [dif_neg h1]
    by_cases h2 : k.val < 350
    · rw [dif_pos h2]
      exact concat3_ix2_snd _ _ _ _ n k (by omega) (by omega)
    · rw [dif_neg h2]
      exact concat3_ix2_thd _ _ _ _ n k (by omega) (by omega)

/-- The recurrent row at (n, k): the previous hidden state and k of row n side by side. -/
theorem khcat_at (n : Fin 16384) (k : Fin 1024) :
    (Vc m c main_v20 : S16384x1024.Idx → EReal) (ix2 n k)
      = catKH (fun k' => (kargs m c).hprev (ix2 n k')) (fun k' => (kargs m c).k (ix2 n k')) k := by
  rw [Vc_v20]
  unfold catKH
  have hk := k.isLt
  by_cases h1 : k.val < 512
  · rw [dif_pos h1]
    exact concat2_ix2_fst _ _ _ n k h1
  · rw [dif_neg h1]
    exact concat2_ix2_snd _ _ _ n k (by omega) (by omega)

/-- The input-layer weights at (g, k, j). -/
theorem wcat_at (g : Fin 5) (k : Fin 400) (j : Fin 512) :
    (Vc m c main_v9 : S5x400x512.Idx → EReal) (ix3 g k j) = (opOfRef (kargs m c).weights).wcat g k j := by
  rw [Vc_v9, wcat_of_weights]
  have hk := k.isLt
  by_cases h1 : k.val < 300
  · rw [dif_pos h1]
    exact (concat3_ix3_fst _ _ _ _ g k j h1).trans (tr300_at _ g ⟨k.val, h1⟩ j)
  · rw [dif_neg h1]
    by_cases h2 : k.val < 350
    · rw [dif_pos h2]
      exact (concat3_ix3_snd _ _ _ _ g k j (by omega) (by omega)).trans (tr50_at _ g ⟨k.val - 300, by omega⟩ j)
    · rw [dif_neg h2]
      exact (concat3_ix3_thd _ _ _ _ g k j (by omega) (by omega)).trans (tr50_at _ g ⟨k.val - (300 + 50), by omega⟩ j)

/-- The second layer's weights at (g, k, j). -/
theorem whid_at (g : Fin 5) (k j : Fin 512) :
    (Vc m c main_v11 : S5x512x512.Idx → EReal) (ix3 g k j) = (opOfRef (kargs m c).weights).whid g k j := by
  rw [Vc_v11]
  exact tr512_at _ g k j

/-- The third layer's weights at (g, k, j). -/
theorem wlast_at (g : Fin 5) (k j : Fin 512) :
    (Vc m c main_v13 : S5x512x512.Idx → EReal) (ix3 g k j) = (opOfRef (kargs m c).weights).wlast g k j := by
  rw [Vc_v13]
  exact tr512_at _ g k j

/-- The recurrent weights at (g, k, j). -/
theorem whpk_at (g : Fin 5) (k : Fin 1024) (j : Fin 512) :
    (Vc m c main_v18 : S5x1024x512.Idx → EReal) (ix3 g k j) = (opOfRef (kargs m c).weights).whpk g k j := by
  rw [Vc_v18, whpk_of_weights]
  have hk := k.isLt
  by_cases h1 : k.val < 512
  · rw [dif_pos h1]
    exact (concat2_ix3_fst _ _ _ g k j h1).trans (tr512_at _ g ⟨k.val, h1⟩ j)
  · rw [dif_neg h1]
    exact (concat2_ix3_snd _ _ _ g k j (by omega) (by omega)).trans (tr512_at _ g ⟨k.val - 512, by omega⟩ j)

/-- The summed input-layer biases at (g, j). -/
theorem bin_at (g : Fin 5) (j : Fin 512) :
    (Vc m c main_v1 : S5x512.Idx → EReal) (ix2 g j) = (opOfRef (kargs m c).weights).bin g j := by
  rw [Vc_v1]
  rfl

/-- The summed recurrent biases at (g, j). -/
theorem bhpk_at (g : Fin 5) (j : Fin 512) :
    (Vc m c main_v2 : S5x512.Idx → EReal) (ix2 g j) = (opOfRef (kargs m c).weights).bhpk g j := by
  rw [Vc_v2]
  rfl

end Cert.KernelIdeal.Prefix

end
-- ==== Proof.KFinalBlocks.lean ====
/-
  The twelve input blocks at a grid point, read off the arrays the kernel is handed. The grid has 32 points; at
  point t the four activation windows' block is rows 512 t … 512 t + 511 of their array (block index (t, 0)), and
  the eight weight and bias windows' block is their whole array (block index zero on every axis). An element of a
  block sits in the array, on each axis, at the block index times the block's size plus its own coordinate.
  With the arrays read entry by entry, every block is what the argument arrays hold at that point.
-/
import proofs.«104428_j38689065402503_2_alg».proof.Proof.FrameBodyIdeal
import proofs.«104428_j38689065402503_2_alg».proof.Proof.HostPrefix
import Idealize.ShloMosaic.Lib.Pipeline.Value

noncomputable section

namespace Cert.KernelIdeal.Final

open Idealize.ShloMosaic Idealize.ShloMosaic.TcCoe Idealize.ShloMosaic.ValueIdx
open Cert.KernelIdeal Cert.KernelIdeal.Gen Cert.KernelIdeal.Frm Cert.KernelIdeal.Prefix Cert.TreeCell

/-- The windows' block indices, decided over the 32 grid points: the activation and result windows move down one
    block of rows per point; the weight and bias windows stay at their whole array. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (∀ a : Fin 3, win0_4.index t a = 0) ∧ (∀ a : Fin 3, win0_5.index t a = 0)
    ∧ (∀ a : Fin 3, win0_6.index t a = 0) ∧ (∀ a : Fin 3, win0_7.index t a = 0)
    ∧ (∀ a : Fin 2, win0_8.index t a = 0) ∧ (∀ a : Fin 2, win0_9.index t a = 0)
    ∧ (∀ a : Fin 2, win0_10.index t a = 0) ∧ (∀ a : Fin 2, win0_11.index t a = 0) :=
  (by decide +kernel : ∀ t : Fin grid0.N, _)

/-- The array row under row p of the block at point t. -/
def rowAt (t : Fin cfg0.N) (p : Fin 512) : Fin 16384 :=
  ⟨t.val * 512 + p.val, by have h := t.isLt; have hN : cfg0.N = 32 := N_0; have := p.isLt; omega⟩

theorem rowAt_val (t : Fin cfg0.N) (p : Fin 512) : (rowAt t p).val = t.val * 512 + p.val := rfl

/-! ## A block of an array, read at an index -/

theorem blk0_read (A : S16384x400.Idx → EReal) (t : Fin cfg0.N) (p : Fin 512) (k : Fin 400) :
    (((cfg0.win 0).blk t).view.read (Elt Ideal) A : Vec Ideal S512x400 .f32) (ix2 p k) = A (ix2 (rowAt t p) k) := by
  obtain ⟨⟨e0, e1⟩, -⟩ := idx_facts t
  show A (((cfg0.win 0).blk t).view.emb (ix2 p k)) = A (ix2 (rowAt t p) k)
  refine congrArg A (funext fun a => Fin.ext ?_)
  match a with
  | ⟨0, _⟩ => show win0_0.index t (0 : Fin 2) * 512 + 1 * p.val = t.val * 512 + p.val; rw [e0]; omega
  | ⟨1, _⟩ => show win0_0.index t (1 : Fin 2) * 400 + 1 * k.val = k.val; rw [e1]; omega

theorem blk1_read (A : S16384x1024.Idx → EReal) (t : Fin cfg0.N) (p : Fin 512) (k : Fin 1024) :
    (((cfg0.win 1).blk t).view.read (Elt Ideal) A : Vec Ideal S512x1024 .f32) (ix2 p k) = A (ix2 (rowAt t p) k) := by
  obtain ⟨-, ⟨e0, e1⟩, -⟩ := idx_facts t
  show A (((cfg0.win 1).blk t).view.emb (ix2 p k)) = A (ix2 (rowAt t p) k)
  refine congrArg A (funext fun a => Fin.ext ?_)
  match a with
  | ⟨0, _⟩ => show win0_1.index t (0 : Fin 2) * 512 + 1 * p.val = t.val * 512 + p.val; rw [e0]; omega
  | ⟨1, _⟩ => show win0_1.index t (1 : Fin 2) * 1024 + 1 * k.val = k.val; rw [e1]; omega

theorem blk2_read (A : S16384x512.Idx → EReal) (t : Fin cfg0.N) (p j : Fin 512) :
    (((cfg0.win 2).blk t).view.read (Elt Ideal) A : Vec Ideal S512x512 .f32) (ix2 p j) = A (ix2 (rowAt t p) j) := by
  obtain ⟨-, -, ⟨e0, e1⟩, -⟩ := idx_facts t
  show A (((cfg0.win 2).blk t).view.emb (ix2 p j)) = A (ix2 (rowAt t p) j)
  refine congrArg A (funext fun a => Fin.ext ?_)
  match a with
  | ⟨0, _⟩ => show win0_2.index t (0 : Fin 2) * 512 + 1 * p.val = t.val * 512 + p.val; rw [e0]; omega
  | ⟨1, _⟩ => show win0_2.index t (1 : Fin 2) * 512 + 1 * j.val = j.val; rw [e1]; omega

theorem blk3_read (A : S16384x512.Idx → EReal) (t : Fin cfg0.N) (p j : Fin 512) :
    (((cfg0.win 3).blk t).view.read (Elt Ideal) A : Vec Ideal S512x512 .f32) (ix2 p j) = A (ix2 (rowAt t p) j) := by
  obtain ⟨-, -, -, ⟨e0, e1⟩, -⟩ := idx_facts t
  show A (((cfg0.win 3).blk t).view.emb (ix2 p j)) = A (ix2 (rowAt t p) j)
  refine congrArg A (funext fun a => Fin.ext ?_)
  match a with
  | ⟨0, _⟩ => show win0_3.index t (0 : Fin 2) * 512 + 1 * p.val = t.val * 512 + p.val; rw [e0]; omega
  | ⟨1, _⟩ => show win0_3.index t (1 : Fin 2) * 512 + 1 * j.val = j.val; rw [e1]; omega

theorem blk4_read (A : S5x400x512.Idx → EReal) (t : Fin cfg0.N) (i : S5x400x512.Idx) :
    (((cfg0.win 4).blk t).view.read (Elt Ideal) A : Vec Ideal S5x400x512 .bf16) i = A i := by
  obtain ⟨-, -, -, -, -, -, e, -⟩ := idx_facts t
  show A (((cfg0.win 4).blk t).view.emb i) = A i
  refine congrArg A (funext fun a => Fin.ext ?_)
  show win0_4.index t a * S5x400x512.size a + 1 * (i a).val = (i a).val
  rw [e a]; omega

theorem blk5_read (A : S5x512x512.Idx → EReal) (t : Fin cfg0.N) (i : S5x512x512.Idx) :
    (((cfg0.win 5).blk t).view.read (Elt Ideal) A : Vec Ideal S5x512x512 .bf16) i = A i := by
  obtain ⟨-, -, -, -, -, -, -, e, -⟩ := idx_facts t
  show A (((cfg0.win 5).blk t).view.emb i) = A i
  refine congrArg A (funext fun a => Fin.ext ?_)
  show win0_5.index t a * S5x512x512.size a + 1 * (i a).val = (i a).val
  rw [e a]; omega

theorem blk6_read (A : S5x512x512.Idx → EReal) (t : Fin cfg0.N) (i : S5x512x512.Idx) :
    (((cfg0.win 6).blk t).view.read (Elt Ideal) A : Vec Ideal S5x512x512 .bf16) i = A i := by
  obtain ⟨-, -, -, -, -, -, -, -, e, -⟩ := idx_facts t
  show A (((cfg0.win 6).blk t).view.emb i) = A i
  refine congrArg A (funext fun a => Fin.ext ?_)
  show win0_6.index t a * S5x512x512.size a + 1 * (i a).val = (i a).val
  rw [e a]; omega

theorem blk7_read (A : S5x1024x512.Idx → EReal) (t : Fin cfg0.N) (i : S5x1024x512.Idx) :
    (((cfg0.win 7).blk t).view.read (Elt Ideal) A : Vec Ideal S5x1024x512 .bf16) i = A i := by
  obtain ⟨-, -, -, -, -, -, -, -, -, e, -⟩ := idx_facts t
  show A (((cfg0.win 7).blk t).view.emb i) = A i
  refine congrArg A (funext fun a => Fin.ext ?_)
  show win0_7.index t a * S5x1024x512.size a + 1 * (i a).val = (i a).val
  rw [e a]; omega

theorem blk8_read (A : S5x512.Idx → EReal) (t : Fin cfg0.N) (i : S5x512.Idx) :
    (((cfg0.win 8).blk t).view.read (Elt Ideal) A : Vec Ideal S5x512 .f32) i = A i := by
  obtain ⟨-, -, -, -, -, -, -, -, -, -, e, -⟩ := idx_facts t
  show A (((cfg0.win 8).blk t).view.emb i) = A i
  refine congrArg A (funext fun a => Fin.ext ?_)
  show win0_8.index t a * S5x512.size a + 1 * (i a).val = (i a).val
  rw [e a]; omega

theorem blk9_read (A : S5x512.Idx → EReal) (t : Fin cfg0.N) (i : S5x512.Idx) :
    (((cfg0.win 9).blk t).view.read (Elt Ideal) A : Vec Ideal S5x512 .f32) i = A i := by
  obtain ⟨-, -, -, -, -, -, -, -, -, -, -, e, -⟩ := idx_facts t
  show A (((cfg0.win 9).blk t).view.emb i) = A i
  refine congrArg A (funext fun a => Fin.ext ?_)
  show win0_9.index t a * S5x512.size a + 1 * (i a).val = (i a).val
  rw [e a]; omega

theorem blk10_read (A : S5x512.Idx → EReal) (t : Fin cfg0.N) (i : S5x512.Idx) :
    (((cfg0.win 10).blk t).view.read (Elt Ideal) A : Vec Ideal S5x512 .f32) i = A i := by
  obtain ⟨-, -, -, -, -, -, -, -, -, -, -, -, e, -⟩ := idx_facts t
  show A (((cfg0.win 10).blk t).view.emb i) = A i
  refine congrArg A (funext fun a => Fin.ext ?_)
  show win0_10.index t a * S5x512.size a + 1 * (i a).val = (i a).val
  rw [e a]; omega

theorem blk11_read (A : S5x512.Idx → EReal) (t : Fin cfg0.N) (i : S5x512.Idx) :
    (((cfg0.win 11).blk t).view.read (Elt Ideal) A : Vec Ideal S5x512 .f32) i = A i := by
  obtain ⟨-, -, -, -, -, -, -, -, -, -, -, -, -, e⟩ := idx_facts t
  show A (((cfg0.win 11).blk t).view.emb i) = A i
  refine congrArg A (funext fun a => Fin.ext ?_)
  show win0_11.index t a * S5x512.size a + 1 * (i a).val = (i a).val
  rw [e a]; omega

/-! ## The twelve input blocks at point t -/

variable (m : (ℓ : Loc nD τ sig) → Buf (Elt Ideal) ℓ) (c : Dev nD) (t : Fin cfg0.N)

/-- Row p of the input block is row `rowAt t p` of word, tag and relation features side by side. -/
theorem iblk0_at (p : Fin 512) (k : Fin 400) :
    (iblk m c 0 t : Vec Ideal S512x400 .f32) (ix2 p k)
      = catX (fun w => (kargs m c).word (ix2 (rowAt t p) w)) (fun s => (kargs m c).tag (ix2 (rowAt t p) s))
          (fun r => (kargs m c).rel (ix2 (rowAt t p) r)) k :=
  (blk0_read (V m c main_v19) t p k).trans (xcat_at m c (rowAt t p) k)

/-- Row p of the recurrent block is row `rowAt t p` of the previous hidden state and k side by side. -/
theorem iblk1_at (p : Fin 512) (k : Fin 1024) :
    (iblk m c 1 t : Vec Ideal S512x1024 .f32) (ix2 p k)
      = catKH (fun k' => (kargs m c).hprev (ix2 (rowAt t p) k')) (fun k' => (kargs m c).k (ix2 (rowAt t p) k')) k :=
  (blk1_read (V m c main_v20) t p k).trans (khcat_at m c (rowAt t p) k)

/-- Row p of the q block is row `rowAt t p` of q. -/
theorem iblk2_at (p j : Fin 512) :
    (iblk m c 2 t : Vec Ideal S512x512 .f32) (ix2 p j) = (kargs m c).q (ix2 (rowAt t p) j) := by
  have e : (V m c main_arg4 : S16384x512.Idx → EReal) = (kargs m c).q := V_main_arg4 m c
  exact (blk2_read (V m c main_arg4) t p j).trans (congrFun e _)

/-- Row p of the c_prev block is row `rowAt t p` of c_prev. -/
theorem iblk3_at (p j : Fin 512) :
    (iblk m c 3 t : Vec Ideal S512x512 .f32) (ix2 p j) = (kargs m c).cprev (ix2 (rowAt t p) j) := by
  have e : (V m c main_arg6 : S16384x512.Idx → EReal) = (kargs m c).cprev := V_main_arg6 m c
  exact (blk3_read (V m c main_arg6) t p j).trans (congrFun e _)

/-- The four weight blocks are the concatenated, transposed weights. -/
theorem iblk4_at (g : Fin 5) (k : Fin 400) (j : Fin 512) :
    (iblk m c 4 t : Vec Ideal S5x400x512 .bf16) (ix3 g k j) = (opOfRef (kargs m c).weights).wcat g k j :=
  (blk4_read (V m c main_v9) t _).trans (wcat_at m c g k j)
theorem iblk5_at (g : Fin 5) (k j : Fin 512) :
    (iblk m c 5 t : Vec Ideal S5x512x512 .bf16) (ix3 g k j) = (opOfRef (kargs m c).weights).whid g k j :=
  (blk5_read (V m c main_v11) t _).trans (whid_at m c g k j)
theorem iblk6_at (g : Fin 5) (k j : Fin 512) :
    (iblk m c 6 t : Vec Ideal S5x512x512 .bf16) (ix3 g k j) = (opOfRef (kargs m c).weights).wlast g k j :=
  (blk6_read (V m c main_v13) t _).trans (wlast_at m c g k j)
theorem iblk7_at (g : Fin 5) (k : Fin 1024) (j : Fin 512) :
    (iblk m c 7 t : Vec Ideal S5x1024x512 .bf16) (ix3 g k j) = (opOfRef (kargs m c).weights).whpk g k j :=
  (blk7_read (V m c main_v18) t _).trans (whpk_at m c g k j)

/-- The four bias blocks are the summed input-layer biases, the two hidden layers' biases as launched, and the summed
    recurrent biases. -/
theorem iblk8_at (g : Fin 5) (j : Fin 512) :
    (iblk m c 8 t : Vec Ideal S5x512 .f32) (ix2 g j) = (opOfRef (kargs m c).weights).bin g j :=
  (blk8_read (V m c main_v1) t _).trans (bin_at m c g j)
theorem iblk9_at (g : Fin 5) (j : Fin 512) :
    (iblk m c 9 t : Vec Ideal S5x512 .f32) (ix2 g j) = (opOfRef (kargs m c).weights).bhid g j := by
  have e : (V m c main_arg14 : S5x512.Idx → EReal) = (kargs m c).bhid := V_main_arg14 m c
  exact (blk9_read (V m c main_arg14) t _).trans (congrFun e _)
theorem iblk10_at (g : Fin 5) (j : Fin 512) :
    (iblk m c 10 t : Vec Ideal S5x512 .f32) (ix2 g j) = (opOfRef (kargs m c).weights).blast g j := by
  have e : (V m c main_arg16 : S5x512.Idx → EReal) = (kargs m c).blast := V_main_arg16 m c
  exact (blk10_read (V m c main_arg16) t _).trans (congrFun e _)
theorem iblk11_at (g : Fin 5) (j : Fin 512) :
    (iblk m c 11 t : Vec Ideal S5x512 .f32) (ix2 g j) = (opOfRef (kargs m c).weights).bhpk g j :=
  (blk11_read (V m c main_v2) t _).trans (bhpk_at m c g j)

end Cert.KernelIdeal.Final

end
-- ==== Proof.KFinal.lean ====
/-
  From blocks to the whole arrays. At grid point t the body's two stores are written back to rows
  512 t … 512 t + 511 of the two result arrays; the values stored are, entry by entry, the new hidden state and the
  new cell state of those rows in the reference's arrangement; the 32 blocks cover the 16384 rows (row n lies in
  block n / 512). So after the run the two result arrays hold the new hidden state and the new cell state of every
  row, and the twenty-one argument arrays are as launched.
-/
import proofs.«104428_j38689065402503_2_alg».proof.Proof.KFinalLoads
import proofs.«104428_j38689065402503_2_alg».proof.Proof.KFinalBlocks

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frm Cert.KernelIdeal.Prefix Cert.KernelIdeal.Body Cert.TreeCell

variable (m : (ℓ : Loc nD τ sig) → Buf (Elt Ideal) ℓ) (ρ : Dev nD → PrngReg)

/-- At point t the values the body loads are what the argument arrays hold there. -/
theorem reads_at (c : Dev nD) (t : Fin cfg0.N) :
    Reads (loadsOf (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t)) (kargs m c) (rowAt t) :=
  reads_loadsOf (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (kargs m c) (rowAt t)
    (iblk0_at m c t) (iblk1_at m c t) (iblk2_at m c t) (iblk3_at m c t) (iblk4_at m c t) (iblk5_at m c t)
    (iblk6_at m c t) (iblk7_at m c t) (iblk8_at m c t) (iblk9_at m c t) (iblk10_at m c t) (iblk11_at m c t)

/-! ## What a point writes back is its block of the result -/

/-- A [512,512] block `X` whose entry (p, j) is `G` at (rowAt t p, j) is block t of `G`, for the hidden-state window. -/
theorem block12_eq (X : Vec Ideal S512x512 .f32) (G : S16384x512.Idx → EReal) (t : Fin cfg0.N)
    (h : ∀ p j : Fin 512, X (ix2 p j) = G (ix2 (rowAt t p) j)) :
    (cfg0.win 12).cut (grid0.coords t) X = ((cfg0.win 12).blk t).view.read (Elt Ideal) G := by
  obtain ⟨-, -, -, -, ⟨e0, e1⟩, -⟩ := idx_facts t
  have key : ∀ y : S512x512.Idx, X y = G (((cfg0.win 12).blk t).view.emb y) := by
    intro y
    obtain ⟨p, j, rfl⟩ : ∃ (p j : Fin 512), y = ix2 p j := ⟨y 0, y 1, eq_ix2 y⟩
    rw [h p j]
    refine congrArg G (funext fun a => Fin.ext ?_)
    match a with
    | ⟨0, _⟩ => show t.val * 512 + p.val = win0_12.index t (0 : Fin 2) * 512 + 1 * p.val; rw [e0]; omega
    | ⟨1, _⟩ => show j.val = win0_12.index t (1 : Fin 2) * 512 + 1 * j.val; rw [e1]; omega
  exact funext key

/-- The same for the cell-state window. -/
theorem block13_eq (X : Vec Ideal S512x512 .f32) (G : S16384x512.Idx → EReal) (t : Fin cfg0.N)
    (h : ∀ p j : Fin 512, X (ix2 p j) = G (ix2 (rowAt t p) j)) :
    (cfg0.win 13).cut (grid0.coords t) X = ((cfg0.win 13).blk t).view.read (Elt Ideal) G := by
  obtain ⟨-, -, -, -, -, ⟨e0, e1⟩, -⟩ := idx_facts t
  have key : ∀ y : S512x512.Idx, X y = G (((cfg0.win 13).blk t).view.emb y) := by
    intro y
    obtain ⟨p, j, rfl⟩ : ∃ (p j : Fin 512), y = ix2 p j := ⟨y 0, y 1, eq_ix2 y⟩
    rw [h p j]
    refine congrArg G (funext fun a => Fin.ext ?_)
    match a with
    | ⟨0, _⟩ => show t.val * 512 + p.val = win0_13.index t (0 : Fin 2) * 512 + 1 * p.val; rw [e0]; omega
    | ⟨1, _⟩ => show j.val = win0_13.index t (1 : Fin 2) * 512 + 1 * j.val; rw [e1]; omega
  exact funext key

/-- WHAT POINT t WRITES BACK to the hidden-state array is block t of the new hidden state. -/
theorem flushed12_eq (c : Dev nD) (t : Fin cfg0.N) :
    (dats m 0 c).flushed 12 t = ((cfg0.win 12).blk t).view.read (Elt Ideal) (kargs m c).hArr := by
  show (cfg0.win 12).cut (grid0.coords t) ((dats m 0 c).after 12 t) = _
  rw [after0_12]
  unfold out0_12
  rw [View.canon_unit_zero hz2]
  exact block12_eq _ _ t fun p j => valH_of_reads (reads_at m c t) p j

/-- WHAT POINT t WRITES BACK to the cell-state array is block t of the new cell state. -/
theorem flushed13_eq (c : Dev nD) (t : Fin cfg0.N) :
    (dats m 0 c).flushed 13 t = ((cfg0.win 13).blk t).view.read (Elt Ideal) (kargs m c).cArr := by
  show (cfg0.win 13).cut (grid0.coords t) ((dats m 0 c).after 13 t) = _
  rw [after0_13]
  unfold out0_13
  rw [View.canon_unit_zero hz2]
  exact block13_eq _ _ t fun p j => valC_of_reads (reads_at m c t) p j

/-! ## The blocks cover the arrays -/

/-- An index of the hidden-state array is in point t's block iff each coordinate is in the block's range. -/
theorem mem_blk12 (t : Fin cfg0.N) (i : S16384x512.Idx) :
    i ∈ ((cfg0.win 12).blk t).view.set ↔ ∀ a : Fin 2, win0_12.index t a * S512x512.size a ≤ (i a).val
      ∧ (i a).val < win0_12.index t a * S512x512.size a + S512x512.size a := by
  show i ∈ ((View.whole main_v21_0).slice (win0_12.rect t)).set ↔ _
  rw [View.set_slice_whole, Rect.mem_set_unit]
  exact Iff.rfl

theorem mem_blk13 (t : Fin cfg0.N) (i : S16384x512.Idx) :
    i ∈ ((cfg0.win 13).blk t).view.set ↔ ∀ a : Fin 2, win0_13.index t a * S512x512.size a ≤ (i a).val
      ∧ (i a).val < win0_13.index t a * S512x512.size a + S512x512.size a := by
  show i ∈ ((View.whole main_v21_1).slice (win0_13.rect t)).set ↔ _
  rw [View.set_slice_whole, Rect.mem_set_unit]
  exact Iff.rfl

/-- The point whose block holds row n. -/
def pointOf (i : S16384x512.Idx) : Fin cfg0.N :=
  ⟨(i 0).val / 512, by have h : (i 0).val < 16384 := (i 0).isLt; have hN : cfg0.N = 32 := N_0; omega⟩

theorem pointOf_val (i : S16384x512.Idx) : (pointOf i).val = (i 0).val / 512 := rfl

/-- Every index of the hidden-state array is in the block of the point that holds its row. -/
theorem cover12 (i : S16384x512.Idx) :
    ∃ t : Fin cfg0.N, (cfg0.win 12).flush t = true ∧ i ∈ ((cfg0.win 12).blk t).view.set := by
  refine ⟨pointOf i, flush0_12 _, ?_⟩
  rw [mem_blk12]
  obtain ⟨-, -, -, -, ⟨e0, e1⟩, -⟩ := idx_facts (pointOf i)
  have h1 : (i 1).val < 512 := (i 1).isLt
  intro a
  match a with
  | ⟨0, _⟩ =>
    show win0_12.index (pointOf i) (0 : Fin 2) * 512 ≤ (i 0).val
      ∧ (i 0).val < win0_12.index (pointOf i) (0 : Fin 2) * 512 + 512
    rw [e0, pointOf_val]; omega
  | ⟨1, _⟩ =>
    show win0_12.index (pointOf i) (1 : Fin 2) * 512 ≤ (i 1).val
      ∧ (i 1).val < win0_12.index (pointOf i) (1 : Fin 2) * 512 + 512
    rw [e1]; omega

theorem cover13 (i : S16384x512.Idx) :
    ∃ t : Fin cfg0.N, (cfg0.win 13).flush t = true ∧ i ∈ ((cfg0.win 13).blk t).view.set := by
  refine ⟨pointOf i, flush0_13 _, ?_⟩
  rw [mem_blk13]
  obtain ⟨-, -, -, -, -, ⟨e0, e1⟩, -⟩ := idx_facts (pointOf i)
  have h1 : (i 1).val < 512 := (i 1).isLt
  intro a
  match a with
  | ⟨0, _⟩ =>
    show win0_13.index (pointOf i) (0 : Fin 2) * 512 ≤ (i 0).val
      ∧ (i 0).val < win0_13.index (pointOf i) (0 : Fin 2) * 512 + 512
    rw [e0, pointOf_val]; omega
  | ⟨1, _⟩ =>
    show win0_13.index (pointOf i) (1 : Fin 2) * 512 ≤ (i 1).val
      ∧ (i 1).val < win0_13.index (pointOf i) (1 : Fin 2) * 512 + 512
    rw [e1]; omega

/-! ## The two result arrays after the run -/

/-- THE HIDDEN-STATE ARRAY after the last point is the new hidden state of every row. -/
theorem final12 (c : Dev nD) : (dats m 0 c).arrAt 12 cfg0.N = (kargs m c).hArr :=
  (dats m 0 c).arrAt_eq_of_cover 12 (kargs m c).hArr (fun t _ => flushed12_eq m c t) cover12

/-- THE CELL-STATE ARRAY after the last point is the new cell state of every row. -/
theorem final13 (c : Dev nD) : (dats m 0 c).arrAt 13 cfg0.N = (kargs m c).cArr :=
  (dats m 0 c).arrAt_eq_of_cover 13 (kargs m c).cArr (fun t _ => flushed13_eq m c t) cover13

/-- THE RUN: every weakly fair execution of the program terminates without a fault, the two result arrays holding
    the new hidden state and the new cell state, the twenty-one arguments as launched. -/
theorem run : θ_run defs (onTc (τ := τ) (main (F := Ideal))) ⟨m, fun _ => 0, ρ⟩ fun r => ∀ c : Dev nD,
      r.2.mem ((c.tc : Thread nD τ).loc main_v21_0) = (kargs m c).hArr
      ∧ r.2.mem ((c.tc : Thread nD τ).loc main_v21_1) = (kargs m c).cArr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun r h c => ⟨((h c).1 12).trans (final12 m c), ((h c).1 13).trans (final13 m c),
      ((h c).2 main_arg0 (Pipeline.mem_restRefs_of main_arg0 (by decide) (by decide))).trans (Frm.V_main_arg0 m c),
      ((h c).2 main_arg1 (Pipeline.mem_restRefs_of main_arg1 (by decide) (by decide))).trans (Frm.V_main_arg1 m c),
      ((h c).2 main_arg2 (Pipeline.mem_restRefs_of main_arg2 (by decide) (by decide))).trans (Frm.V_main_arg2 m c),
      ((h c).2 main_arg3 (Pipeline.mem_restRefs_of main_arg3 (by decide) (by decide))).trans (Frm.V_main_arg3 m c),
      ((h c).1 2).trans (((Frm.dats m 0 c).arrAt_in 2 rfl _).trans ((Frm.A_eq m c 2).trans (Frm.V_main_arg4 m c))),
      ((h c).2 main_arg5 (Pipeline.mem_restRefs_of main_arg5 (by decide) (by decide))).trans (Frm.V_main_arg5 m c),
      ((h c).1 3).trans (((Frm.dats m 0 c).arrAt_in 3 rfl _).trans ((Frm.A_eq m c 3).trans (Frm.V_main_arg6 m c))),
      ((h c).2 main_arg7 (Pipeline.mem_restRefs_of main_arg7 (by decide) (by decide))).trans (Frm.V_main_arg7 m c),
      ((h c).2 main_arg8 (Pipeline.mem_restRefs_of main_arg8 (by decide) (by decide))).trans (Frm.V_main_arg8 m c),
      ((h c).2 main_arg9 (Pipeline.mem_restRefs_of main_arg9 (by decide) (by decide))).trans (Frm.V_main_arg9 m c),
      ((h c).2 main_arg10 (Pipeline.mem_restRefs_of main_arg10 (by decide) (by decide))).trans (Frm.V_main_arg10 m c),
      ((h c).2 main_arg11 (Pipeline.mem_restRefs_of main_arg11 (by decide) (by decide))).trans (Frm.V_main_arg11 m c),
      ((h c).2 main_arg12 (Pipeline.mem_restRefs_of main_arg12 (by decide) (by decide))).trans (Frm.V_main_arg12 m c),
      ((h c).2 main_arg13 (Pipeline.mem_restRefs_of main_arg13 (by decide) (by decide))).trans (Frm.V_main_arg13 m c),
      ((h c).1 9).trans (((Frm.dats m 0 c).arrAt_in 9 rfl _).trans ((Frm.A_eq m c 9).trans (Frm.V_main_arg14 m c))),
      ((h c).2 main_arg15 (Pipeline.mem_restRefs_of main_arg15 (by decide) (by decide))).trans (Frm.V_main_arg15 m c),
      ((h c).1 10).trans (((Frm.dats m 0 c).arrAt_in 10 rfl _).trans ((Frm.A_eq m c 10).trans (Frm.V_main_arg16 m c))),
      ((h c).2 main_arg17 (Pipeline.mem_restRefs_of main_arg17 (by decide) (by decide))).trans (Frm.V_main_arg17 m c),
      ((h c).2 main_arg18 (Pipeline.mem_restRefs_of main_arg18 (by decide) (by decide))).trans (Frm.V_main_arg18 m c),
      ((h c).2 main_arg19 (Pipeline.mem_restRefs_of main_arg19 (by decide) (by decide))).trans (Frm.V_main_arg19 m c),
      ((h c).2 main_arg20 (Pipeline.mem_restRefs_of main_arg20 (by decide) (by decide))).trans (Frm.V_main_arg20 m c)⟩)
    (Frm.run_main m ρ)

end Cert.KernelIdeal.Final

end
-- ==== Proof.RefRead.lean ====
/-
  The reference's host program read back one operation at a time: the run's result terms and the
  read-at-an-index lemmas this certificate's reference side is written over.
-/
import proofs.«104428_j38689065402503_2_alg».proof.Proof.Gen.ReferenceIdeal.Read
-- ==== Proof.RefValueH0.lean ====
/-
  The reference's first layer read at one entry. Its array over (gate, row, out) is the hyperbolic tangent of
  three products' sum plus the three biases' sum; each product is computed as weights · activations over
  (gate, out, row) and then transposed, so entry (g, n, j) of it is  Σ_k W[g, j, k] · x[n, k],  which is the row
  formula's  Σ_k x[n, k] · W[g, j, k]  by commutativity of the product of extended reals.
-/
import proofs.«104428_j38689065402503_2_alg».proof.Proof.RefRead
import proofs.«104428_j38689065402503_2_alg».proof.Proof.CellArrays

noncomputable section

namespace Cert.TreeCell.Ref

open Cert.ReferenceIdeal Cert.ReferenceIdeal.Read Idealize.ShloMosaic Idealize.ShloMosaic.ValueIdx

/-! ## Index equations: the composed index functions at an index given by its coordinates -/

theorem tr1 (g : Fin 5) (n : Fin 16384) (j : Fin 512) : idx_main_v1 (ix3 g n j) = ix3 g j n :=
  funext fun a => match a with | ⟨0, _⟩ => rfl | ⟨1, _⟩ => rfl | ⟨2, _⟩ => rfl
theorem tr3 (g : Fin 5) (n : Fin 16384) (j : Fin 512) : idx_main_v3 (ix3 g n j) = ix3 g j n :=
  funext fun a => match a with | ⟨0, _⟩ => rfl | ⟨1, _⟩ => rfl | ⟨2, _⟩ => rfl
theorem tr6 (g : Fin 5) (n : Fin 16384) (j : Fin 512) : idx_main_v6 (ix3 g n j) = ix3 g j n :=
  funext fun a => match a with | ⟨0, _⟩ => rfl | ⟨1, _⟩ => rfl | ⟨2, _⟩ => rfl

theorem l0 (g : Fin 5) (j : Fin 512) (n : Fin 16384) (k : Fin 300) : lidx_main_v0 (ix3 g j n) k = ix3 g j k :=
  funext fun a => match a with | ⟨0, _⟩ => rfl | ⟨1, _⟩ => rfl | ⟨2, _⟩ => rfl
theorem r0 (g : Fin 5) (j : Fin 512) (n : Fin 16384) (k : Fin 300) : ridx_main_v0 (ix3 g j n) k = ix2 n k :=
  funext fun a => match a with | ⟨0, _⟩ => rfl | ⟨1, _⟩ => rfl
theorem l2 (g : Fin 5) (j : Fin 512) (n : Fin 16384) (k : Fin 50) : lidx_main_v2 (ix3 g j n) k = ix3 g j k :=
  funext fun a => match a with | ⟨0, _⟩ => rfl | ⟨1, _⟩ => rfl | ⟨2, _⟩ => rfl
theorem r2 (g : Fin 5) (j : Fin 512) (n : Fin 16384) (k : Fin 50) : ridx_main_v2 (ix3 g j n) k = ix2 n k :=
  funext fun a => match a with | ⟨0, _⟩ => rfl | ⟨1, _⟩ => rfl
theorem l5 (g : Fin 5) (j : Fin 512) (n : Fin 16384) (k : Fin 50) : lidx_main_v5 (ix3 g j n) k = ix3 g j k :=
  funext fun a => match a with | ⟨0, _⟩ => rfl | ⟨1, _⟩ => rfl | ⟨2, _⟩ => rfl
theorem r5 (g : Fin 5) (j : Fin 512) (n : Fin 16384) (k : Fin 50) : ridx_main_v5 (ix3 g j n) k = ix2 n k :=
  funext fun a => match a with | ⟨0, _⟩ => rfl | ⟨1, _⟩ => rfl

/-- The bias row broadcast over the rows: entry (g, n, j) reads entry (g, j). -/
theorem b11 (g : Fin 5) (n : Fin 16384) (j : Fin 512) : idx_main_v10 (idx_main_v11 (ix3 g n j)) = ix2 g j :=
  funext fun a => match a with | ⟨0, _⟩ => rfl | ⟨1, _⟩ => rfl

/-! ## The three products and the bias, at an entry -/

/-- Entry (g, n, j) of the word product is the row formula's sum. -/
theorem word_at (a : Args) (g : Fin 5) (n : Fin 16384) (j : Fin 512) :
    val_main_v1 (F := Ideal) a.word a.Wword (ix3 g n j) = ∑ w : Fin 300, a.word (ix2 n w) * a.weights.Wword g j w := by
  rw [val_main_v1_apply, tr1, val_main_v0_apply]
  refine Finset.sum_congr rfl fun k _ => ?_
  rw [l0, r0]
  exact mul_comm _ _

/-- Entry (g, n, j) of the tag product is the row formula's sum. -/
theorem tag_at (a : Args) (g : Fin 5) (n : Fin 16384) (j : Fin 512) :
    val_main_v3 (F := Ideal) a.tag a.Wtag (ix3 g n j) = ∑ t : Fin 50, a.tag (ix2 n t) * a.weights.Wtag g j t := by
  rw [val_main_v3_apply, tr3, val_main_v2_apply]
  refine Finset.sum_congr rfl fun k _ => ?_
  rw [l2, r2]
  exact mul_comm _ _

/-- Entry (g, n, j) of the rel product is the row formula's sum. -/
theorem rel_at (a : Args) (g : Fin 5) (n : Fin 16384) (j : Fin 512) :
    val_main_v6 (F := Ideal) a.rel a.Wrel (ix3 g n j) = ∑ r : Fin 50, a.rel (ix2 n r) * a.weights.Wrel g j r := by
  rw [val_main_v6_apply, tr6, val_main_v5_apply]
  refine Finset.sum_congr rfl fun k _ => ?_
  rw [l5, r5]
  exact mul_comm _ _

/-- Entry (g, n, j) of the broadcast bias is the three biases' sum at (g, j). -/
theorem bias0_at (a : Args) (g : Fin 5) (n : Fin 16384) (j : Fin 512) :
    val_main_v11 (F := Ideal) a.bword a.btag a.brel (ix3 g n j)
      = (a.weights.bword g j + a.weights.btag g j) + a.weights.brel g j := by
  rw [val_main_v11_apply, val_main_v10_apply, b11, val_main_v9_apply, val_main_v8_apply]
  rfl

/-! ## The first layer -/

/-- Entry (g, n, j) of the first layer is the row formula at row n of the activations. -/
theorem h0_at (a : Args) (g : Fin 5) (n : Fin 16384) (j : Fin 512) :
    val_main_v13 (F := Ideal) a.word a.tag a.rel a.Wword a.bword a.Wtag a.btag a.Wrel a.brel (ix3 g n j)
      = refH0 a.weights (fun w => a.word (ix2 n w)) (fun t => a.tag (ix2 n t)) (fun r => a.rel (ix2 n r)) g j := by
  rw [val_main_v13_apply, val_main_v12_apply, val_main_v7_apply, val_main_v4_apply,
    word_at, tag_at, rel_at, bias0_at]
  rfl

end Cert.TreeCell.Ref

end
-- ==== Proof.RefValueH1M.lean ====
/-
  The reference's two hidden layers read at one entry: each is a batched product over the gate of the previous
  layer's rows with that gate's matrix, contracted over the layer's width, plus the bias row broadcast over the
  rows, under the hyperbolic tangent. Entry (g, n, j) of the product is  Σ_h prev[g, n, h] · W[g, j, h], the row
  formula's sum as it stands.
-/
import proofs.«104428_j38689065402503_2_alg».proof.Proof.RefValueH0

noncomputable section

namespace Cert.TreeCell.Ref

open Cert.ReferenceIdeal Cert.ReferenceIdeal.Read Idealize.ShloMosaic Idealize.ShloMosaic.ValueIdx

/-! ## Index equations -/

theorem l14 (g : Fin 5) (n : Fin 16384) (j : Fin 512) (k : Fin 512) : lidx_main_v14 (ix3 g n j) k = ix3 g n k := funext fun a => match a with | ⟨0, _⟩ => rfl | ⟨1, _⟩ => rfl | ⟨2, _⟩ => rfl
theorem r14 (g : Fin 5) (n : Fin 16384) (j : Fin 512) (k : Fin 512) : ridx_main_v14 (ix3 g n j) k = ix3 g j k := funext fun a => match a with | ⟨0, _⟩ => rfl | ⟨1, _⟩ => rfl | ⟨2, _⟩ => rfl
theorem b16 (g : Fin 5) (n : Fin 16384) (j : Fin 512) : idx_main_v15 (idx_main_v16 (ix3 g n j)) = ix2 g j := funext fun a => match a with | ⟨0, _⟩ => rfl | ⟨1, _⟩ => rfl
theorem l19 (g : Fin 5) (n : Fin 16384) (j : Fin 512) (k : Fin 512) : lidx_main_v19 (ix3 g n j) k = ix3 g n k := funext fun a => match a with | ⟨0, _⟩ => rfl | ⟨1, _⟩ => rfl | ⟨2, _⟩ => rfl
theorem r19 (g : Fin 5) (n : Fin 16384) (j : Fin 512) (k : Fin 512) : ridx_main_v19 (ix3 g n j) k = ix3 g j k := funext fun a => match a with | ⟨0, _⟩ => rfl | ⟨1, _⟩ => rfl | ⟨2, _⟩ => rfl
theorem b21 (g : Fin 5) (n : Fin 16384) (j : Fin 512) : idx_main_v20 (idx_main_v21 (ix3 g n j)) = ix2 g j := funext fun a => match a with | ⟨0, _⟩ => rfl | ⟨1, _⟩ => rfl

/-! ## The second layer -/

/-- Entry (g, n, j) of the second layer is the row formula at row n of the activations. -/
theorem h1_at (a : Args) (g : Fin 5) (n : Fin 16384) (j : Fin 512) :
    val_main_v18 (F := Ideal) a.word a.tag a.rel a.Wword a.bword a.Wtag a.btag a.Wrel a.brel a.Whid a.bhid (ix3 g n j)
      = refH1 a.weights (fun w => a.word (ix2 n w)) (fun t => a.tag (ix2 n t)) (fun r => a.rel (ix2 n r)) g j := by
  rw [val_main_v18_apply, val_main_v17_apply, val_main_v14_apply, val_main_v16_apply, val_main_v15_apply, b16]
  rw [Finset.sum_congr rfl fun k _ => show
      val_main_v13 (F := Ideal) a.word a.tag a.rel a.Wword a.bword a.Wtag a.btag a.Wrel a.brel (lidx_main_v14 (ix3 g n j) k) * a.Whid (ridx_main_v14 (ix3 g n j) k)
        = refH0 a.weights (fun w => a.word (ix2 n w)) (fun t => a.tag (ix2 n t)) (fun r => a.rel (ix2 n r)) g k * a.weights.Whid g j k by rw [l14, r14, h0_at]; rfl]
  rfl

/-! ## The third layer -/

/-- Entry (g, n, j) of the third layer is the row formula at row n of the activations. -/
theorem m_at (a : Args) (g : Fin 5) (n : Fin 16384) (j : Fin 512) :
    val_main_v23 (F := Ideal) a.word a.tag a.rel a.Wword a.bword a.Wtag a.btag a.Wrel a.brel a.Whid a.bhid a.Wlast a.blast (ix3 g n j)
      = refM a.weights (fun w => a.word (ix2 n w)) (fun t => a.tag (ix2 n t)) (fun r => a.rel (ix2 n r)) g j := by
  rw [val_main_v23_apply, val_main_v22_apply, val_main_v19_apply, val_main_v21_apply, val_main_v20_apply, b21]
  rw [Finset.sum_congr rfl fun k _ => show
      val_main_v18 (F := Ideal) a.word a.tag a.rel a.Wword a.bword a.Wtag a.btag a.Wrel a.brel a.Whid a.bhid (lidx_main_v19 (ix3 g n j) k) * a.Wlast (ridx_main_v19 (ix3 g n j) k)
        = refH1 a.weights (fun w => a.word (ix2 n w)) (fun t => a.tag (ix2 n t)) (fun r => a.rel (ix2 n r)) g k * a.weights.Wlast g j k by rw [l19, r19, h1_at]; rfl]
  rfl

end Cert.TreeCell.Ref

end
-- ==== Proof.RefValuePre.lean ====
/-
  The reference's gate pre-activations read at one entry: the third layer plus the projection of the previous
  hidden state, its bias, the projection of k, and its bias, added left to right. Each projection is computed as
  weights · activations over (gate, out, row) and then transposed, so its entry (g, n, j) is
  Σ_k W[g, j, k] · x[n, k], the row formula's  Σ_k x[n, k] · W[g, j, k]  by commutativity of the product.
-/
import proofs.«104428_j38689065402503_2_alg».proof.Proof.RefValueH1M

noncomputable section

namespace Cert.TreeCell.Ref

open Cert.ReferenceIdeal Cert.ReferenceIdeal.Read Idealize.ShloMosaic Idealize.ShloMosaic.ValueIdx

/-! ## Index equations -/

theorem tr25 (g : Fin 5) (n : Fin 16384) (j : Fin 512) : idx_main_v25 (ix3 g n j) = ix3 g j n := funext fun a => match a with | ⟨0, _⟩ => rfl | ⟨1, _⟩ => rfl | ⟨2, _⟩ => rfl
theorem tr31 (g : Fin 5) (n : Fin 16384) (j : Fin 512) : idx_main_v31 (ix3 g n j) = ix3 g j n := funext fun a => match a with | ⟨0, _⟩ => rfl | ⟨1, _⟩ => rfl | ⟨2, _⟩ => rfl
theorem l24 (g : Fin 5) (j : Fin 512) (n : Fin 16384) (k : Fin 512) : lidx_main_v24 (ix3 g j n) k = ix3 g j k := funext fun a => match a with | ⟨0, _⟩ => rfl | ⟨1, _⟩ => rfl | ⟨2, _⟩ => rfl
theorem r24 (g : Fin 5) (j : Fin 512) (n : Fin 16384) (k : Fin 512) : ridx_main_v24 (ix3 g j n) k = ix2 n k := funext fun a => match a with | ⟨0, _⟩ => rfl | ⟨1, _⟩ => rfl
theorem l30 (g : Fin 5) (j : Fin 512) (n : Fin 16384) (k : Fin 512) : lidx_main_v30 (ix3 g j n) k = ix3 g j k := funext fun a => match a with | ⟨0, _⟩ => rfl | ⟨1, _⟩ => rfl | ⟨2, _⟩ => rfl
theorem r30 (g : Fin 5) (j : Fin 512) (n : Fin 16384) (k : Fin 512) : ridx_main_v30 (ix3 g j n) k = ix2 n k := funext fun a => match a with | ⟨0, _⟩ => rfl | ⟨1, _⟩ => rfl
theorem b28 (g : Fin 5) (n : Fin 16384) (j : Fin 512) : idx_main_v27 (idx_main_v28 (ix3 g n j)) = ix2 g j := funext fun a => match a with | ⟨0, _⟩ => rfl | ⟨1, _⟩ => rfl
theorem b34 (g : Fin 5) (n : Fin 16384) (j : Fin 512) : idx_main_v33 (idx_main_v34 (ix3 g n j)) = ix2 g j := funext fun a => match a with | ⟨0, _⟩ => rfl | ⟨1, _⟩ => rfl

/-! ## The two projections -/

/-- Entry (g, n, j) of the previous hidden state's projection is the row formula's sum. -/
theorem hp_at (a : Args) (g : Fin 5) (n : Fin 16384) (j : Fin 512) :
    val_main_v25 (F := Ideal) a.hprev a.Whp (ix3 g n j) = ∑ k : Fin 512, a.hprev (ix2 n k) * a.weights.Whp g j k := by
  rw [val_main_v25_apply, tr25, val_main_v24_apply]
  refine Finset.sum_congr rfl fun k _ => ?_
  rw [l24, r24]
  exact mul_comm _ _

/-- Entry (g, n, j) of k's projection is the row formula's sum. -/
theorem kk_at (a : Args) (g : Fin 5) (n : Fin 16384) (j : Fin 512) :
    val_main_v31 (F := Ideal) a.k a.Wk (ix3 g n j) = ∑ k : Fin 512, a.k (ix2 n k) * a.weights.Wk g j k := by
  rw [val_main_v31_apply, tr31, val_main_v30_apply]
  refine Finset.sum_congr rfl fun k _ => ?_
  rw [l30, r30]
  exact mul_comm _ _

/-! ## The pre-activations -/

/-- Entry (g, n, j) of the pre-activations is the row formula at row n of the activations. -/
theorem pre_at (a : Args) (g : Fin 5) (n : Fin 16384) (j : Fin 512) :
    val_main_v35 (F := Ideal) a.word a.tag a.rel a.k a.hprev a.Wword a.bword a.Wtag a.btag a.Wrel a.brel a.Whid a.bhid a.Wlast a.blast a.Whp a.bhp a.Wk a.bk (ix3 g n j)
      = refPre a.weights (fun w => a.word (ix2 n w)) (fun t => a.tag (ix2 n t)) (fun r => a.rel (ix2 n r)) (fun k => a.hprev (ix2 n k)) (fun k => a.k (ix2 n k)) g j := by
  rw [val_main_v35_apply, val_main_v32_apply, val_main_v29_apply, val_main_v26_apply,
    m_at, hp_at, kk_at, val_main_v28_apply, val_main_v27_apply, b28, val_main_v34_apply, val_main_v33_apply, b34]
  rfl

end Cert.TreeCell.Ref

end
-- ==== Proof.RefValueGates.lean ====
/-
  The reference's five gates read at one entry. Gate g's pre-activation array is plane g of the
  pre-activations: the plane is cut out as a slab of one gate and the slab's leading axis of extent one is
  dropped, which in row-major order sends entry (n, j) to entry (g, n, j). The first four gates apply the
  logistic function, which the program spells  1 / (1 + e^{-x})  with the literal one; the fifth applies the
  hyperbolic tangent.
-/
import proofs.«104428_j38689065402503_2_alg».proof.Proof.RefValuePre
import Idealize.ShloMosaic.Lib.IdealHost

noncomputable section

namespace Cert.TreeCell.Ref

open Cert.ReferenceIdeal Cert.ReferenceIdeal.Read Idealize.ShloMosaic Idealize.ShloMosaic.ValueIdx

/-! ## Index equations: plane g of the pre-activations -/

theorem sl0 (n : Fin 16384) (j : Fin 512) : idx_main_v36 (idx_main_v37 (ix2 n j)) = ix3 (0 : Fin 5) n j :=
  funext fun a => Fin.ext (by
    have hn := n.isLt
    have hj := j.isLt
    match a with
    | ⟨0, _⟩ => rfl
    | ⟨1, _⟩ => show (n.val * 512 + j.val) / 512 % 16384 = n.val; omega
    | ⟨2, _⟩ => show (n.val * 512 + j.val) % 512 = j.val; omega)
theorem sl1 (n : Fin 16384) (j : Fin 512) : idx_main_v44 (idx_main_v45 (ix2 n j)) = ix3 (1 : Fin 5) n j :=
  funext fun a => Fin.ext (by
    have hn := n.isLt
    have hj := j.isLt
    match a with
    | ⟨0, _⟩ => rfl
    | ⟨1, _⟩ => show (n.val * 512 + j.val) / 512 % 16384 = n.val; omega
    | ⟨2, _⟩ => show (n.val * 512 + j.val) % 512 = j.val; omega)
theorem sl2 (n : Fin 16384) (j : Fin 512) : idx_main_v52 (idx_main_v53 (ix2 n j)) = ix3 (2 : Fin 5) n j :=
  funext fun a => Fin.ext (by
    have hn := n.isLt
    have hj := j.isLt
    match a with
    | ⟨0, _⟩ => rfl
    | ⟨1, _⟩ => show (n.val * 512 + j.val) / 512 % 16384 = n.val; omega
    | ⟨2, _⟩ => show (n.val * 512 + j.val) % 512 = j.val; omega)
theorem sl3 (n : Fin 16384) (j : Fin 512) : idx_main_v60 (idx_main_v61 (ix2 n j)) = ix3 (3 : Fin 5) n j :=
  funext fun a => Fin.ext (by
    have hn := n.isLt
    have hj := j.isLt
    match a with
    | ⟨0, _⟩ => rfl
    | ⟨1, _⟩ => show (n.val * 512 + j.val) / 512 % 16384 = n.val; omega
    | ⟨2, _⟩ => show (n.val * 512 + j.val) % 512 = j.val; omega)
theorem sl4 (n : Fin 16384) (j : Fin 512) : idx_main_v68 (idx_main_v69 (ix2 n j)) = ix3 (4 : Fin 5) n j :=
  funext fun a => Fin.ext (by
    have hn := n.isLt
    have hj := j.isLt
    match a with
    | ⟨0, _⟩ => rfl
    | ⟨1, _⟩ => show (n.val * 512 + j.val) / 512 % 16384 = n.val; omega
    | ⟨2, _⟩ => show (n.val * 512 + j.val) % 512 = j.val; omega)

/-! ## The gates -/

/-- Entry (n, j) of the input gate. -/
theorem gate_i_at (a : Args) (n : Fin 16384) (j : Fin 512) :
    val_main_v43 (F := Ideal) a.word a.tag a.rel a.k a.hprev a.Wword a.bword a.Wtag a.btag a.Wrel a.brel a.Whid a.bhid a.Wlast a.blast a.Whp a.bhp a.Wk a.bk (ix2 n j)
      = sg (refPre a.weights (fun w => a.word (ix2 n w)) (fun t => a.tag (ix2 n t)) (fun r => a.rel (ix2 n r)) (fun k => a.hprev (ix2 n k)) (fun k => a.k (ix2 n k)) 0 j) := by
  rw [val_main_v43_apply, val_main_v42_apply, val_main_cst_0_apply, val_main_v41_apply, val_main_v40_apply,
    val_main_cst_apply, val_main_v39_apply, val_main_v38_apply, val_main_v37_apply, val_main_v36_apply, sl0, pre_at]
  simp only [Ideal.ofBits_def, Ideal.ofBits_one_f32]
  rfl

/-- Entry (n, j) of the forget gate of q. -/
theorem gate_fd_at (a : Args) (n : Fin 16384) (j : Fin 512) :
    val_main_v51 (F := Ideal) a.word a.tag a.rel a.k a.hprev a.Wword a.bword a.Wtag a.btag a.Wrel a.brel a.Whid a.bhid a.Wlast a.blast a.Whp a.bhp a.Wk a.bk (ix2 n j)
      = sg (refPre a.weights (fun w => a.word (ix2 n w)) (fun t => a.tag (ix2 n t)) (fun r => a.rel (ix2 n r)) (fun k => a.hprev (ix2 n k)) (fun k => a.k (ix2 n k)) 1 j) := by
  rw [val_main_v51_apply, val_main_v50_apply, val_main_cst_2_apply, val_main_v49_apply, val_main_v48_apply,
    val_main_cst_1_apply, val_main_v47_apply, val_main_v46_apply, val_main_v45_apply, val_main_v44_apply, sl1, pre_at]
  simp only [Ideal.ofBits_def, Ideal.ofBits_one_f32]
  rfl

/-- Entry (n, j) of the forget gate of the previous cell state. -/
theorem gate_fl_at (a : Args) (n : Fin 16384) (j : Fin 512) :
    val_main_v59 (F := Ideal) a.word a.tag a.rel a.k a.hprev a.Wword a.bword a.Wtag a.btag a.Wrel a.brel a.Whid a.bhid a.Wlast a.blast a.Whp a.bhp a.Wk a.bk (ix2 n j)
      = sg (refPre a.weights (fun w => a.word (ix2 n w)) (fun t => a.tag (ix2 n t)) (fun r => a.rel (ix2 n r)) (fun k => a.hprev (ix2 n k)) (fun k => a.k (ix2 n k)) 2 j) := by
  rw [val_main_v59_apply, val_main_v58_apply, val_main_cst_4_apply, val_main_v57_apply, val_main_v56_apply,
    val_main_cst_3_apply, val_main_v55_apply, val_main_v54_apply, val_main_v53_apply, val_main_v52_apply, sl2, pre_at]
  simp only [Ideal.ofBits_def, Ideal.ofBits_one_f32]
  rfl

/-- Entry (n, j) of the output gate. -/
theorem gate_o_at (a : Args) (n : Fin 16384) (j : Fin 512) :
    val_main_v67 (F := Ideal) a.word a.tag a.rel a.k a.hprev a.Wword a.bword a.Wtag a.btag a.Wrel a.brel a.Whid a.bhid a.Wlast a.blast a.Whp a.bhp a.Wk a.bk (ix2 n j)
      = sg (refPre a.weights (fun w => a.word (ix2 n w)) (fun t => a.tag (ix2 n t)) (fun r => a.rel (ix2 n r)) (fun k => a.hprev (ix2 n k)) (fun k => a.k (ix2 n k)) 3 j) := by
  rw [val_main_v67_apply, val_main_v66_apply, val_main_cst_6_apply, val_main_v65_apply, val_main_v64_apply,
    val_main_cst_5_apply, val_main_v63_apply, val_main_v62_apply, val_main_v61_apply, val_main_v60_apply, sl3, pre_at]
  simp only [Ideal.ofBits_def, Ideal.ofBits_one_f32]
  rfl

/-- Entry (n, j) of the candidate. -/
theorem gate_u_at (a : Args) (n : Fin 16384) (j : Fin 512) :
    val_main_v70 (F := Ideal) a.word a.tag a.rel a.k a.hprev a.Wword a.bword a.Wtag a.btag a.Wrel a.brel a.Whid a.bhid a.Wlast a.blast a.Whp a.bhp a.Wk a.bk (ix2 n j)
      = th (refPre a.weights (fun w => a.word (ix2 n w)) (fun t => a.tag (ix2 n t)) (fun r => a.rel (ix2 n r)) (fun k => a.hprev (ix2 n k)) (fun k => a.k (ix2 n k)) 4 j) := by
  rw [val_main_v70_apply, val_main_v69_apply, val_main_v68_apply, sl4, pre_at]
  rfl

end Cert.TreeCell.Ref

end
-- ==== Proof.RefValueCH.lean ====
/-
  The reference's two results read at one entry: the new cell state  (i · u + f_down · q) + f_left · c_prev  and
  the new hidden state  o · tanh c, over the five gates at that entry.
-/
import proofs.«104428_j38689065402503_2_alg».proof.Proof.RefValueGates

noncomputable section

namespace Cert.TreeCell.Ref

open Cert.ReferenceIdeal Cert.ReferenceIdeal.Read Idealize.ShloMosaic Idealize.ShloMosaic.ValueIdx

/-- Entry (n, j) of the new cell state is the row formula at row n. -/
theorem c_at (a : Args) (n : Fin 16384) (j : Fin 512) :
    val_main_v75 (F := Ideal) a.word a.tag a.rel a.k a.q a.hprev a.cprev a.Wword a.bword a.Wtag a.btag a.Wrel a.brel a.Whid a.bhid a.Wlast a.blast a.Whp a.bhp a.Wk a.bk (ix2 n j) = a.cAt n j := by
  rw [val_main_v75_apply, val_main_v73_apply, val_main_v71_apply, val_main_v72_apply, val_main_v74_apply,
    gate_i_at, gate_u_at, gate_fd_at, gate_fl_at]
  rfl

/-- Entry (n, j) of the new hidden state is the row formula at row n. -/
theorem h_at (a : Args) (n : Fin 16384) (j : Fin 512) :
    val_main_v77 (F := Ideal) a.word a.tag a.rel a.k a.q a.hprev a.cprev a.Wword a.bword a.Wtag a.btag a.Wrel a.brel a.Whid a.bhid a.Wlast a.blast a.Whp a.bhp a.Wk a.bk (ix2 n j) = a.hAt n j := by
  rw [val_main_v77_apply, val_main_v76_apply, gate_o_at, c_at]
  rfl

end Cert.TreeCell.Ref

end
-- ==== Proof.RefValue.lean ====
/-
  The reference program's two results as whole arrays: from any memory, the new hidden state and the new cell
  state it ends with are the cell's arrays over the twenty-one argument arrays as that memory holds them.
-/
import proofs.«104428_j38689065402503_2_alg».proof.Proof.RefValueCH

noncomputable section

namespace Cert.TreeCell.Ref

open Cert.ReferenceIdeal Cert.ReferenceIdeal.Read Idealize.ShloMosaic Idealize.ShloMosaic.ValueIdx

open Cert.ReferenceIdeal.Value Idealize.ShloMosaic.TcCoe

/-- The argument arrays as a memory holds them, in the entry point's order. -/
def args (m : (ℓ : Loc Cert.ReferenceIdeal.nD Cert.ReferenceIdeal.τ Cert.ReferenceIdeal.sig) → Buf (Elt Ideal) ℓ)
    (c : Dev Cert.ReferenceIdeal.nD) : Cert.TreeCell.Args where
  word := m ((c.tc : Thread _ _).loc Cert.ReferenceIdeal.main_arg0)
  tag := m ((c.tc : Thread _ _).loc Cert.ReferenceIdeal.main_arg1)
  rel := m ((c.tc : Thread _ _).loc Cert.ReferenceIdeal.main_arg2)
  k := m ((c.tc : Thread _ _).loc Cert.ReferenceIdeal.main_arg3)
  q := m ((c.tc : Thread _ _).loc Cert.ReferenceIdeal.main_arg4)
  hprev := m ((c.tc : Thread _ _).loc Cert.ReferenceIdeal.main_arg5)
  cprev := m ((c.tc : Thread _ _).loc Cert.ReferenceIdeal.main_arg6)
  Wword := m ((c.tc : Thread _ _).loc Cert.ReferenceIdeal.main_arg7)
  bword := m ((c.tc : Thread _ _).loc Cert.ReferenceIdeal.main_arg8)
  Wtag := m ((c.tc : Thread _ _).loc Cert.ReferenceIdeal.main_arg9)
  btag := m ((c.tc : Thread _ _).loc Cert.ReferenceIdeal.main_arg10)
  Wrel := m ((c.tc : Thread _ _).loc Cert.ReferenceIdeal.main_arg11)
  brel := m ((c.tc : Thread _ _).loc Cert.ReferenceIdeal.main_arg12)
  Whid := m ((c.tc : Thread _ _).loc Cert.ReferenceIdeal.main_arg13)
  bhid := m ((c.tc : Thread _ _).loc Cert.ReferenceIdeal.main_arg14)
  Wlast := m ((c.tc : Thread _ _).loc Cert.ReferenceIdeal.main_arg15)
  blast := m ((c.tc : Thread _ _).loc Cert.ReferenceIdeal.main_arg16)
  Whp := m ((c.tc : Thread _ _).loc Cert.ReferenceIdeal.main_arg17)
  bhp := m ((c.tc : Thread _ _).loc Cert.ReferenceIdeal.main_arg18)
  Wk := m ((c.tc : Thread _ _).loc Cert.ReferenceIdeal.main_arg19)
  bk := m ((c.tc : Thread _ _).loc Cert.ReferenceIdeal.main_arg20)

/-- The new hidden state the reference ends with is the cell's, entry by entry. -/
theorem res_h (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_out0 (F := Ideal) m c = (args m c).hArr := by
  funext i
  obtain ⟨n, j, rfl⟩ : ∃ (n : Fin 16384) (j : Fin 512), i = ix2 n j := ⟨i 0, i 1, eq_ix2 i⟩
  exact (congrFun (val_main_v77_eq (F := Ideal) m c) (ix2 n j)).trans (h_at (args m c) n j)

/-- The new cell state the reference ends with is the cell's, entry by entry. -/
theorem res_c (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_out1 (F := Ideal) m c = (args m c).cArr := by
  funext i
  obtain ⟨n, j, rfl⟩ : ∃ (n : Fin 16384) (j : Fin 512), i = ix2 n j := ⟨i 0, i 1, eq_ix2 i⟩
  exact (congrFun (val_main_v75_eq (F := Ideal) m c) (ix2 n j)).trans (c_at (args m c) n j)

end Cert.TreeCell.Ref

end
-- ==== Proof.lean ====
/-
  A tree-LSTM cell over 16384 rows: a kernel that runs 512 rows per grid point against weights it keeps
  resident, and the plain reference.

  Frames. The two kernel programs (word level and idealized) are twenty-one host operations — three bias
  sums, seven weight transposes narrowed for the matrix unit, and the concatenations word ‖ tag ‖ rel,
  h_prev ‖ k of the activations and of the matching weights — followed by one region of 32 grid points. The
  region's body loads its twelve input blocks, computes, and overwrites its two output blocks whole; every input
  window's array is left alone, and the buffers no window stages are untouched, so the twenty-one arguments
  end as launched. The reference is host operations only, and its run is read back operation by operation.

  Values, at the exact instance. Per row n and column j both programs compute, for the five gates g,
      h0 = tanh (x W_in[g] + b_in[g]),  h1 = tanh (h0 W_hid[g] + b_hid[g]),  mm = tanh (h1 W_last[g] + b_last[g]),
      pre_g = mm + h_prev W_hp[g] + b_hp[g] + k W_k[g] + b_k[g],
      c = σ(pre_0) · tanh(pre_4) + σ(pre_1) · q + σ(pre_2) · c_prev,    h = σ(pre_3) · tanh c,
  the reference with three separate products for the input layer and two for the recurrent one, the kernel with
  one product over the concatenated row of 400 (resp. 1024) entries and the biases summed beforehand. A sum over
  400 = 300 + 50 + 50 positions is the sum of its three stretches, and the remaining differences are the order
  and grouping of additions and of a product's two factors: laws of a commutative monoid, which the extended reals
  are under + and under ·. No entry is assumed finite; the precondition is not used.
  Narrowing to bf16 is the identity at this instance, and the kernel's logistic is by definition the reference's
  1 / (1 + e^{-x}).
-/
import proofs.«104428_j38689065402503_2_alg».proof.Defs
import proofs.«104428_j38689065402503_2_alg».proof.Proof.Gen.Kernel
import proofs.«104428_j38689065402503_2_alg».proof.Proof.Gen.KernelIdeal
import proofs.«104428_j38689065402503_2_alg».proof.Proof.Gen.ReferenceIdeal
import proofs.«104428_j38689065402503_2_alg».proof.Proof.Gen.Pre_finite_inputs
import proofs.«104428_j38689065402503_2_alg».proof.Proof.FrameBodyBits
import proofs.«104428_j38689065402503_2_alg».proof.Proof.KFinal
import proofs.«104428_j38689065402503_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments as launched. -/
theorem frame_k : Cert.frame_Kernel := fun m ρ _ => Cert.Kernel.Frm.frame m ρ

/-- So does the idealized kernel program. -/
theorem frame_ki : Cert.frame_KernelIdeal := fun m ρ _ => Cert.KernelIdeal.Frm.frame m ρ

/-- So does the reference: its run read back, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Memories that agree on the twenty-one arguments give the two programs the same argument record. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.TreeCell.Ref.args m' c = Cert.KernelIdeal.Prefix.kargs m c := by
  obtain ⟨h0, h1, h2, h3, h4, h5, h6, h7, h8, h9, h10, h11, h12, h13, h14, h15, h16, h17, h18, h19, h20⟩ := h
  unfold Cert.TreeCell.Ref.args Cert.KernelIdeal.Prefix.kargs
  rw [h0, h1, h2, h3, h4, h5, h6, h7, h8, h9, h10, h11, h12, h13, h14, h15, h16, h17, h18, h19, h20]

/-- From memories agreeing on the arguments both idealized programs run to the end with the new hidden state and
    the new cell state at one and the same pair of arrays: the row formulas of the common argument record. -/
theorem algebraic : Cert.algebraic_KernelIdeal_ReferenceIdeal := by
  intro m ρ m' ρ' _ hagree
  refine ⟨fun c => (Cert.KernelIdeal.Prefix.kargs m c).hArr, fun c => (Cert.KernelIdeal.Prefix.kargs m c).cArr,
    Cert.KernelIdeal.Final.run m ρ, ?_⟩
  refine (θ_run Cert.ReferenceIdeal.defs _ _).mono (fun _ h c => ⟨?_, ?_, (h c).2.2⟩)
    (Cert.ReferenceIdeal.Value.run (F := Ideal) m' ρ')
  · exact (h c).1.trans ((Cert.TreeCell.Ref.res_h m' c).trans (congrArg Cert.TreeCell.Args.hArr (args_agree m m' c (hagree c))))
  · exact (h c).2.1.trans ((Cert.TreeCell.Ref.res_c m' c).trans (congrArg Cert.TreeCell.Args.cArr (args_agree m m' c (hagree c))))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
